-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S2x2048x2048 .f32) (main_arg1 : FVec F S8192x2048 .f32) (main_arg2 : FVec F S8192x2048 .f32) (main_arg3 : FVec F S2048x8192 .f32) (main_arg4 : FVec F S8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S4096x2048 : Shape := ⟨2, ![4096, 2048]⟩
abbrev S_ : Shape := ⟨0, ![]⟩
abbrev S1x1 : Shape := ⟨2, ![1, 1]⟩
abbrev S4096x8192 : Shape := ⟨2, ![4096, 8192]⟩
abbrev S256x2048 : Shape := ⟨2, ![256, 2048]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S1x8192 : Shape := ⟨2, ![1, 8192]⟩
abbrev S64x8192 : Shape := ⟨2, ![64, 8192]⟩
abbrev S512x8192 : Shape := ⟨2, ![512, 8192]⟩
abbrev S64x512 : Shape := ⟨2, ![64, 512]⟩
abbrev S64 : Shape := ⟨1, ![64]⟩
abbrev S64x1 : Shape := ⟨2, ![64, 1]⟩
abbrev S8192x512 : Shape := ⟨2, ![8192, 512]⟩

abbrev nBuf : Space → Nat
  | .hbm => 79
  | .vmem => 15
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S4096x2048, .f32⟩
  | .hbm, ⟨6, _⟩ => ⟨S8192x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .bf16⟩
  | .hbm, ⟨28, _⟩ => ⟨S8192x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .bf16⟩
  | .hbm, ⟨50, _⟩ => ⟨S2048x8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2048x8192, .f32⟩
  | .hbm, ⟨61, _⟩ => ⟨S2048x8192, .f32⟩
  | .hbm, ⟨62, _⟩ => ⟨S2048x8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2048x8192, .f32⟩
  | .hbm, ⟨67, _⟩ => ⟨S2048x8192, .f32⟩
  | .hbm, ⟨68, _⟩ => ⟨S_, .f32⟩
  | .hbm, ⟨69, _⟩ => ⟨S2048x8192, .f32⟩
  | .hbm, ⟨70, _⟩ => ⟨S2048x8192, .f32⟩
  | .hbm, ⟨71, _⟩ => ⟨S2048x8192, .bf16⟩
  | .hbm, ⟨72, _⟩ => ⟨S1x1, .f32⟩
  | .hbm, ⟨73, _⟩ => ⟨S1x1, .f32⟩
  | .hbm, ⟨74, _⟩ => ⟨S1x1, .f32⟩
  | .hbm, ⟨75, _⟩ => ⟨S4096x8192, .f32⟩
  | .hbm, ⟨76, _⟩ => ⟨S1x8192, .f32⟩
  | .hbm, ⟨77, _⟩ => ⟨S4096x2048, .f32⟩
  | .hbm, ⟨78, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S1024x2048, .bf16⟩
  | .local _ .vmem, ⟨3, _⟩ => ⟨S1024x2048, .bf16⟩
  | .local _ .vmem, ⟨4, _⟩ => ⟨S1x1, .f32⟩
  | .local _ .vmem, ⟨5, _⟩ => ⟨S1x1, .f32⟩
  | .local _ .vmem, ⟨6, _⟩ => ⟨S256x1024, .f32⟩
  | .local _ .vmem, ⟨7, _⟩ => ⟨S256x1024, .f32⟩
  | .local _ .vmem, ⟨8, _⟩ => ⟨S64x8192, .f32⟩
  | .local _ .vmem, ⟨9, _⟩ => ⟨S64x8192, .f32⟩
  | .local _ .vmem, ⟨10, _⟩ => ⟨S1x8192, .f32⟩
  | .local _ .vmem, ⟨11, _⟩ => ⟨S512x8192, .bf16⟩
  | .local _ .vmem, ⟨12, _⟩ => ⟨S1x1, .f32⟩
  | .local _ .vmem, ⟨13, _⟩ => ⟨S64x512, .f32⟩
  | .local _ .vmem, ⟨14, _⟩ => ⟨S64x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_cst_6 : Ref sig .tc := ⟨.hbm, 31, rfl⟩
abbrev main_v13 : Ref sig .tc := ⟨.hbm, 32, rfl⟩
abbrev main_cst_7 : Ref sig .tc := ⟨.hbm, 33, rfl⟩
abbrev main_call3_v0 : Ref sig .tc := ⟨.hbm, 34, rfl⟩
abbrev main_v14 : Ref sig .tc := ⟨.hbm, 35, rfl⟩
abbrev main_cst_8 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_9 : Ref sig .tc := ⟨.hbm, 41, rfl⟩
abbrev main_cst_10 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_11 : Ref sig .tc := ⟨.hbm, 51, rfl⟩
abbrev main_v22 : Ref sig .tc := ⟨.hbm, 52, rfl⟩
abbrev main_cst_12 : Ref sig .tc := ⟨.hbm, 53, rfl⟩
abbrev main_v23 : Ref sig .tc := ⟨.hbm, 54, rfl⟩
abbrev main_cst_13 : Ref sig .tc := ⟨.hbm, 55, rfl⟩
abbrev main_call6_v0 : Ref sig .tc := ⟨.hbm, 56, rfl⟩
abbrev main_v24 : Ref sig .tc := ⟨.hbm, 57, rfl⟩
abbrev main_cst_14 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_15 : Ref sig .tc := ⟨.hbm, 63, rfl⟩
abbrev main_cst_16 : Ref sig .tc := ⟨.hbm, 64, rfl⟩
abbrev main_call8_v0 : Ref sig .tc := ⟨.hbm, 65, rfl⟩
abbrev main_call8_v1 : Ref sig .tc := ⟨.hbm, 66, rfl⟩
abbrev main_call8_v2 : Ref sig .tc := ⟨.hbm, 67, rfl⟩
abbrev main_call8_v3 : Ref sig .tc := ⟨.hbm, 68, rfl⟩
abbrev main_call8_v4 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x8192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x2048x2048_S4096x2048 : S2x2048x2048.ShapeCasts S4096x2048
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  shapeCasts_S_S1x1 : S_.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  shapeCasts_S8192_S1x8192 : S8192.ShapeCasts S1x8192
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S64x8192_S64 : S64x8192.Reduces [1] S64
  shapeCasts_S64_S64x1 : S64.ShapeCasts S64x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S64x1_S64x8192 : S64x1.Broadcasts S64x8192
  broadcasts_S1x8192_S64x8192 : S1x8192.Broadcasts S64x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  transposes_S512x8192_p1_0_S8192x512 : S512x8192.Transposes [1, 0] S8192x512
  broadcasts_S1x1_S64x1 : S1x1.Broadcasts S64x1
  broadcasts_S64x1_S64x512 : S64x1.Broadcasts S64x512
  inb_S64x512_S64x512_0_0 : ∀ a, (![0, 0] : Fin 2 → Nat) a + S64x512.size a ≤ S64x512.size a
  h_S64x512 : 0 < S64x512.numel
  shapeCasts_S4096x2048_S2x2048x2048 : S4096x2048.ShapeCasts S2x2048x2048
  dot_S256x2048_S2048x1024_S256x1024_1_0_0_1_n_n_wf : DotDims.WF S256x2048 S2048x1024 S256x1024 [1] [0] [0] [1] [] []
  dot_S64x8192_S8192x512_S64x512_1_0_0_1_n_n_wf : DotDims.WF S64x8192 S8192x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .bf16 = 32 ∨ (Rect.block (s := S8192x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x8192.size a
  hwx0_5 : ∀ i : grid0.Coords, EltTy.bits .f32 = 32 ∨ (Rect.block (s := S4096x8192) S256x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S4096x8192.size a
  hwx1_0 : ∀ i : grid1.Coords, EltTy.bits .f32 = 32 ∨ (Rect.block (s := S4096x8192) S64x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x8192.size a ≤ S2048x8192.size a
  hwx1_2 : ∀ i : grid1.Coords, EltTy.bits .bf16 = 32 ∨ (Rect.block (s := S2048x8192) S512x8192.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x512.size a ≤ S4096x2048.size a
  hwx1_4 : ∀ i : grid1.Coords, EltTy.bits .f32 = 32 ∨ (Rect.block (s := S4096x2048) S64x512.size (cc1_transform_4 i) (hinb1_4 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S64x8192_S8192x512_S64x512_1_0_0_1_n_n : DotDims S64x8192 S8192x512 S64x512 where
  lhsContracting := [1]
  rhsContracting := [0]
  lhsNonContracting := [0]
  rhsNonContracting := [1]
  lhsBatch := []
  rhsBatch := []
  wf := dot_S64x8192_S8192x512_S64x512_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S512x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S64x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S_ : Shape := ⟨0, ![]⟩
abbrev S2x2048 : Shape := ⟨2, ![2, 2048]⟩
abbrev S2x2048x1 : Shape := ⟨3, ![2, 2048, 1]⟩
abbrev S2x2048x8192 : Shape := ⟨3, ![2, 2048, 8192]⟩
abbrev S1x1x8192 : Shape := ⟨3, ![1, 1, 8192]⟩

abbrev nBuf : Space → Nat
  | .hbm => 187
  | .vmem => 0
  | .smem => 0
  | _ => 0

abbrev hbmTy0_0 (i : Nat) : BufTy := match i % 128 with
  | 0 => ⟨S2x2048x2048, .f32⟩
  | 1 => ⟨S8192x2048, .f32⟩
  | 2 => ⟨S8192x2048, .f32⟩
  | 3 => ⟨S2048x8192, .f32⟩
  | 4 => ⟨S8192, .f32⟩
  | 5 => ⟨S2x2048x2048, .f32⟩
  | 6 => ⟨S_, .f32⟩
  | 7 => ⟨S2x2048, .f32⟩
  | 8 => ⟨S2x2048x1, .f32⟩
  | 9 => ⟨S_, .f32⟩
  | 10 => ⟨S_, .f32⟩
  | 11 => ⟨S2x2048x1, .f32⟩
  | 12 => ⟨S2x2048x1, .f32⟩
  | 13 => ⟨S_, .f32⟩
  | 14 => ⟨S2x2048x1, .f32⟩
  | 15 => ⟨S2x2048x1, .f32⟩
  | 16 => ⟨S2x2048x2048, .f32⟩
  | 17 => ⟨S2x2048x2048, .f32⟩
  | 18 => ⟨S2x2048x2048, .f32⟩
  | 19 => ⟨S_, .i32⟩
  | 20 => ⟨S_, .i32⟩
  | 21 => ⟨S_, .f32⟩
  | 22 => ⟨S2x2048x2048, .f32⟩
  | 23 => ⟨S2x2048x2048, .f32⟩
  | 24 => ⟨S_, .f32⟩
  | 25 => ⟨S2x2048x2048, .f32⟩
  | 26 => ⟨S2x2048x2048, .f32⟩
  | 27 => ⟨S2x2048x2048, .f32⟩
  | 28 => ⟨S2x2048x2048, .f32⟩
  | 29 => ⟨S2x2048x2048, .f32⟩
  | 30 => ⟨S2x2048x2048, .f32⟩
  | 31 => ⟨S8192x2048, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S8192x2048, .f32⟩
  | 42 => ⟨S8192x2048, .f32⟩
  | 43 => ⟨S8192x2048, .f32⟩
  | 44 => ⟨S_, .f32⟩
  | 45 => ⟨S_, .f32⟩
  | 46 => ⟨S_, .f32⟩
  | 47 => ⟨S8192x2048, .f32⟩
  | 48 => ⟨S8192x2048, .f32⟩
  | 49 => ⟨S_, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S8192x2048, .f32⟩
  | 56 => ⟨S2x2048x8192, .f32⟩
  | 57 => ⟨S2x2048x8192, .f32⟩
  | 58 => ⟨S2x2048x8192, .f32⟩
  | 59 => ⟨S_, .f32⟩
  | 60 => ⟨S2x2048x8192, .f32⟩
  | 61 => ⟨S2x2048x8192, .f32⟩
  | 62 => ⟨S_, .f32⟩
  | 63 => ⟨S2x2048x8192, .f32⟩
  | 64 => ⟨S2x2048x8192, .f32⟩
  | 65 => ⟨S2x2048x8192, .f32⟩
  | 66 => ⟨S2x2048x2048, .f32⟩
  | 67 => ⟨S_, .f32⟩
  | 68 => ⟨S2x2048, .f32⟩
  | 69 => ⟨S2x2048x1, .f32⟩
  | 70 => ⟨S_, .f32⟩
  | 71 => ⟨S_, .f32⟩
  | 72 => ⟨S2x2048x1, .f32⟩
  | 73 => ⟨S2x2048x1, .f32⟩
  | 74 => ⟨S_, .f32⟩
  | 75 => ⟨S2x2048x1, .f32⟩
  | 76 => ⟨S2x2048x1, .f32⟩
  | 77 => ⟨S2x2048x2048, .f32⟩
  | 78 => ⟨S2x2048x2048, .f32⟩
  | 79 => ⟨S2x2048x2048, .f32⟩
  | 80 => ⟨S_, .i32⟩
  | 81 => ⟨S_, .i32⟩
  | 82 => ⟨S_, .f32⟩
  | 83 => ⟨S2x2048x2048, .f32⟩
  | 84 => ⟨S2x2048x2048, .f32⟩
  | 85 => ⟨S_, .f32⟩
  | 86 => ⟨S2x2048x2048, .f32⟩
  | 87 => ⟨S2x2048x2048, .f32⟩
  | 88 => ⟨S2x2048x2048, .f32⟩
  | 89 => ⟨S2x2048x2048, .f32⟩
  | 90 => ⟨S2x2048x2048, .f32⟩
  | 91 => ⟨S2x2048x2048, .f32⟩
  | 92 => ⟨S8192x2048, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S8192x2048, .f32⟩
  | 103 => ⟨S8192x2048, .f32⟩
  | 104 => ⟨S8192x2048, .f32⟩
  | 105 => ⟨S_, .f32⟩
  | 106 => ⟨S_, .f32⟩
  | 107 => ⟨S_, .f32⟩
  | 108 => ⟨S8192x2048, .f32⟩
  | 109 => ⟨S8192x2048, .f32⟩
  | 110 => ⟨S_, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S8192x2048, .f32⟩
  | 117 => ⟨S2x2048x8192, .f32⟩
  | 118 => ⟨S2x2048x8192, .f32⟩
  | 119 => ⟨S2x2048x8192, .f32⟩
  | 120 => ⟨S_, .f32⟩
  | 121 => ⟨S2x2048, .f32⟩
  | 122 => ⟨S2x2048x1, .f32⟩
  | 123 => ⟨S_, .f32⟩
  | 124 => ⟨S2x2048x1, .f32⟩
  | 125 => ⟨S2x2048x1, .f32⟩
  | 126 => ⟨S_, .f32⟩
  | 127 => ⟨S2x2048x1, .f32⟩
  | _ => ⟨S2x2048x2048, .f32⟩

abbrev hbmTy0_1 (i : Nat) : BufTy := match i % 128 with
  | 0 => ⟨S2x2048x1, .f32⟩
  | 1 => ⟨S2x2048x1, .f32⟩
  | 2 => ⟨S2x2048x8192, .f32⟩
  | 3 => ⟨S2x2048x8192, .f32⟩
  | 4 => ⟨S1x1x8192, .f32⟩
  | 5 => ⟨S2x2048x8192, .f32⟩
  | 6 => ⟨S2x2048x8192, .f32⟩
  | 7 => ⟨S2x2048x8192, .f32⟩
  | 8 => ⟨S_, .f32⟩
  | 9 => ⟨S2x2048, .f32⟩
  | 10 => ⟨S2x2048x1, .f32⟩
  | 11 => ⟨S_, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x8192, .f32⟩
  | 19 => ⟨S2x2048x8192, .f32⟩
  | 20 => ⟨S2x2048x8192, .f32⟩
  | 21 => ⟨S_, .i32⟩
  | 22 => ⟨S_, .i32⟩
  | 23 => ⟨S_, .f32⟩
  | 24 => ⟨S2x2048x8192, .f32⟩
  | 25 => ⟨S2x2048x8192, .f32⟩
  | 26 => ⟨S_, .f32⟩
  | 27 => ⟨S2x2048x8192, .f32⟩
  | 28 => ⟨S2x2048x8192, .f32⟩
  | 29 => ⟨S2x2048x8192, .f32⟩
  | 30 => ⟨S2x2048x8192, .f32⟩
  | 31 => ⟨S2x2048x8192, .f32⟩
  | 32 => ⟨S2x2048x8192, .f32⟩
  | 33 => ⟨S2048x8192, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S2048x8192, .f32⟩
  | 44 => ⟨S2048x8192, .f32⟩
  | 45 => ⟨S2048x8192, .f32⟩
  | 46 => ⟨S_, .f32⟩
  | 47 => ⟨S_, .f32⟩
  | 48 => ⟨S_, .f32⟩
  | 49 => ⟨S2048x8192, .f32⟩
  | 50 => ⟨S2048x8192, .f32⟩
  | 51 => ⟨S_, .f32⟩
  | 52 => ⟨S2048x8192, .f32⟩
  | 53 => ⟨S2048x8192, .f32⟩
  | 54 => ⟨S2048x8192, .f32⟩
  | 55 => ⟨S2048x8192, .f32⟩
  | 56 => ⟨S2048x8192, .f32⟩
  | 57 => ⟨S2048x8192, .f32⟩
  | 58 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_c_2 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_cst_5 : Ref sig .tc := ⟨.hbm, 36, rfl⟩
abbrev main_call3_v0 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_cst_8 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call6_v0 : Ref sig .tc := ⟨.hbm, 57, rfl⟩
abbrev main_call6_v1 : Ref sig .tc := ⟨.hbm, 58, rfl⟩
abbrev main_call6_cst : Ref sig .tc := ⟨.hbm, 59, rfl⟩
abbrev main_call6_v2 : Ref sig .tc := ⟨.hbm, 60, rfl⟩
abbrev main_call6_v3 : Ref sig .tc := ⟨.hbm, 61, rfl⟩
abbrev main_call6_cst_0 : Ref sig .tc := ⟨.hbm, 62, rfl⟩
abbrev main_call6_v4 : Ref sig .tc := ⟨.hbm, 63, rfl⟩
abbrev main_call6_v5 : Ref sig .tc := ⟨.hbm, 64, rfl⟩
abbrev main_v28 : Ref sig .tc := ⟨.hbm, 65, rfl⟩
abbrev main_v29 : Ref sig .tc := ⟨.hbm, 66, rfl⟩
abbrev main_cst_9 : Ref sig .tc := ⟨.hbm, 67, rfl⟩
abbrev main_v30 : Ref sig .tc := ⟨.hbm, 68, rfl⟩
abbrev main_v31 : Ref sig .tc := ⟨.hbm, 69, rfl⟩
abbrev main_cst_10 : Ref sig .tc := ⟨.hbm, 70, rfl⟩
abbrev main_call7_v0 : Ref sig .tc := ⟨.hbm, 71, rfl⟩
abbrev main_call7_v1 : Ref sig .tc := ⟨.hbm, 72, rfl⟩
abbrev main_v32 : Ref sig .tc := ⟨.hbm, 73, rfl⟩
abbrev main_cst_11 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_12 : Ref sig .tc := ⟨.hbm, 80, rfl⟩
abbrev main_c_13 : Ref sig .tc := ⟨.hbm, 81, rfl⟩
abbrev main_call9_v0 : Ref sig .tc := ⟨.hbm, 82, rfl⟩
abbrev main_call9_v1 : Ref sig .tc := ⟨.hbm, 83, rfl⟩
abbrev main_call9_v2 : Ref sig .tc := ⟨.hbm, 84, rfl⟩
abbrev main_call9_v3 : Ref sig .tc := ⟨.hbm, 85, rfl⟩
abbrev main_call9_v4 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_14 : Ref sig .tc := ⟨.hbm, 93, rfl⟩
abbrev main_v44 : Ref sig .tc := ⟨.hbm, 94, rfl⟩
abbrev main_cst_15 : Ref sig .tc := ⟨.hbm, 95, rfl⟩
abbrev main_v45 : Ref sig .tc := ⟨.hbm, 96, rfl⟩
abbrev main_cst_16 : Ref sig .tc := ⟨.hbm, 97, rfl⟩
abbrev main_call10_v0 : Ref sig .tc := ⟨.hbm, 98, rfl⟩
abbrev main_v46 : Ref sig .tc := ⟨.hbm, 99, rfl⟩
abbrev main_cst_17 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_18 : Ref sig .tc := ⟨.hbm, 105, rfl⟩
abbrev main_cst_19 : Ref sig .tc := ⟨.hbm, 106, rfl⟩
abbrev main_call12_v0 : Ref sig .tc := ⟨.hbm, 107, rfl⟩
abbrev main_call12_v1 : Ref sig .tc := ⟨.hbm, 108, rfl⟩
abbrev main_call12_v2 : Ref sig .tc := ⟨.hbm, 109, rfl⟩
abbrev main_call12_v3 : Ref sig .tc := ⟨.hbm, 110, rfl⟩
abbrev main_call12_v4 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_20 : Ref sig .tc := ⟨.hbm, 120, rfl⟩
abbrev main_v59 : Ref sig .tc := ⟨.hbm, 121, rfl⟩
abbrev main_v60 : Ref sig .tc := ⟨.hbm, 122, rfl⟩
abbrev main_cst_21 : Ref sig .tc := ⟨.hbm, 123, rfl⟩
abbrev main_v61 : Ref sig .tc := ⟨.hbm, 124, rfl⟩
abbrev main_v62 : Ref sig .tc := ⟨.hbm, 125, rfl⟩
abbrev main_cst_22 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_23 : Ref sig .tc := ⟨.hbm, 136, rfl⟩
abbrev main_v72 : Ref sig .tc := ⟨.hbm, 137, rfl⟩
abbrev main_v73 : Ref sig .tc := ⟨.hbm, 138, rfl⟩
abbrev main_cst_24 : Ref sig .tc := ⟨.hbm, 139, rfl⟩
abbrev main_call13_v0 : Ref sig .tc := ⟨.hbm, 140, rfl⟩
abbrev main_call13_v1 : Ref sig .tc := ⟨.hbm, 141, rfl⟩
abbrev main_v74 : Ref sig .tc := ⟨.hbm, 142, rfl⟩
abbrev main_cst_25 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_c_26 : Ref sig .tc := ⟨.hbm, 149, rfl⟩
abbrev main_c_27 : Ref sig .tc := ⟨.hbm, 150, rfl⟩
abbrev main_call15_v0 : Ref sig .tc := ⟨.hbm, 151, rfl⟩
abbrev main_call15_v1 : Ref sig .tc := ⟨.hbm, 152, rfl⟩
abbrev main_call15_v2 : Ref sig .tc := ⟨.hbm, 153, rfl⟩
abbrev main_call15_v3 : Ref sig .tc := ⟨.hbm, 154, rfl⟩
abbrev main_call15_v4 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_28 : Ref sig .tc := ⟨.hbm, 162, rfl⟩
abbrev main_v86 : Ref sig .tc := ⟨.hbm, 163, rfl⟩
abbrev main_cst_29 : Ref sig .tc := ⟨.hbm, 164, rfl⟩
abbrev main_v87 : Ref sig .tc := ⟨.hbm, 165, rfl⟩
abbrev main_cst_30 : Ref sig .tc := ⟨.hbm, 166, rfl⟩
abbrev main_call16_v0 : Ref sig .tc := ⟨.hbm, 167, rfl⟩
abbrev main_v88 : Ref sig .tc := ⟨.hbm, 168, rfl⟩
abbrev main_cst_31 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_cst_32 : Ref sig .tc := ⟨.hbm, 174, rfl⟩
abbrev main_cst_33 : Ref sig .tc := ⟨.hbm, 175, rfl⟩
abbrev main_call18_v0 : Ref sig .tc := ⟨.hbm, 176, rfl⟩
abbrev main_call18_v1 : Ref sig .tc := ⟨.hbm, 177, rfl⟩
abbrev main_call18_v2 : Ref sig .tc := ⟨.hbm, 178, rfl⟩
abbrev main_call18_v3 : Ref sig .tc := ⟨.hbm, 179, rfl⟩
abbrev main_call18_v4 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩

abbrev nD : Nat := 1
abbrev τ : Topo := Topo.v7x

variable {F : FTy → Type} [FloatOps F]

class Facts₀ : Prop where
  reducesTo_S2x2048x2048_S2x2048_d2 : S2x2048x2048.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  bcast_S_S2x2048x2048 : S_.BroadcastsInDim S2x2048x2048 (![] : Fin 0 → Fin S2x2048x2048.rank)
  reducesTo_S8192x2048_S_d0_1 : S8192x2048.ReducesTo [0, 1] S_
  bcast_S_S8192x2048 : S_.BroadcastsInDim S8192x2048 (![] : Fin 0 → Fin S8192x2048.rank)
  bcast_S_S2x2048x8192 : S_.BroadcastsInDim S2x2048x8192 (![] : Fin 0 → Fin S2x2048x8192.rank)
  reducesTo_S2x2048x8192_S2x2048_d2 : S2x2048x8192.ReducesTo [2] S2x2048
  bcast_S2x2048x1_S2x2048x8192_0_1_2 : S2x2048x1.BroadcastsInDim S2x2048x8192 (![0, 1, 2] : Fin 3 → Fin S2x2048x8192.rank)
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  reducesTo_S2048x8192_S_d0_1 : S2048x8192.ReducesTo [0, 1] S_
  bcast_S_S2048x8192 : S_.BroadcastsInDim S2048x8192 (![] : Fin 0 → Fin S2048x8192.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.Spec.lean ====
/-
  A gated feed-forward block whose three matrix products are taken on quantized operands.

  Every product row-scales its left operand to integer codes in [-128, 127] by the row's largest
  magnitude (floored at 1e-5), and scales its right operand, a whole weight matrix, to the ternary
  codes {-1, 0, 1} by the matrix's mean magnitude (floored at 1e-5).  The product of the codes can be
  rescaled in two arrangements: after the contraction, by the row scale times the matrix scale
  (`linK`); or entry by entry before it, each code divided by its own scale and written as
  `v + (code / scale - v)` (`linR`).  Over finite values both are the same number; this file only
  states the two arrangements and the functions around them (the gate `g · logistic g · u`, the
  root-mean-square normalization of a row), over the extended reals, with every float literal kept as
  the word it is spelt with.
-/
import Idealize.ShloMosaic.PureOps.Ideal
import Idealize.ShloMosaic.PureOps.Ideal.Laws

noncomputable section

namespace Cert.BitMlp

open Idealize.ShloMosaic

/-- The floor under a row's largest magnitude and under a matrix's mean magnitude: the f32 nearest 1e-5. -/
abbrev cEps : EReal := Ideal.ofBits .f32 0x3727C5AC#32
/-- The term added under the inverse square root: the f32 nearest 1e-6. -/
abbrev cRms : EReal := Ideal.ofBits .f32 0x358637BD#32
/-- The number of entries of a weight matrix, 2^24. -/
abbrev cCnt : EReal := Ideal.ofBits .f32 0x4B800000#32
/-- The length of a hidden row, 8192. -/
abbrev cWid : EReal := Ideal.ofBits .f32 0x46000000#32
abbrev c127 : EReal := Ideal.ofBits .f32 0x42FE0000#32
abbrev cM128 : EReal := Ideal.ofBits .f32 0xC3000000#32
abbrev c1 : EReal := Ideal.ofBits .f32 0x3F800000#32
abbrev cM1 : EReal := Ideal.ofBits .f32 0xBF800000#32
/-- The word of -∞, from which a running maximum starts. -/
abbrev cBot : EReal := Ideal.ofBits .f32 0xFF800000#32
/-- Rounding to the nearest integer, ties to even. -/
abbrev rnd : EReal → EReal := Ideal.liftRound Ideal.roundHalfEven

/-- A row's largest magnitude, floored. -/
def amax {K : Nat} (f : Fin K → EReal) : EReal :=
  max cEps ((Finset.univ : Finset (Fin K)).fold max cBot fun k => max (f k) (-(f k)))

/-- An entry's integer code at row scale `127 / a`. -/
def code (a x : EReal) : EReal := min c127 (max cM128 (rnd (x * Ideal.div c127 a)))

/-- A matrix's mean magnitude, floored: the sum runs over every entry. -/
def absMean {ι : Type} [Fintype ι] (w : ι → EReal) : EReal :=
  max cEps (Ideal.div (0 + ∑ i, max (w i) (-(w i))) cCnt)

/-- A weight's ternary code at matrix scale `1 / am`. -/
def tern (am w : EReal) : EReal := min c1 (max cM1 (rnd (w * Ideal.div c1 am)))

/-- The quantized product of a row and a weight row, rescaled AFTER the contraction. -/
def linK {K : Nat} (xr wr : Fin K → EReal) (am : EReal) : EReal :=
  (∑ k, code (amax xr) (xr k) * tern am (wr k)) * ((amax xr * ((1 / 127 : ℝ) : EReal)) * am)

/-- The same product with every code divided by its scale BEFORE the contraction, each operand
    written as `v + (code / scale - v)`. -/
def linR {K : Nat} (xr wr : Fin K → EReal) (am : EReal) : EReal :=
  ∑ k, (xr k + (Ideal.div (code (amax xr) (xr k)) (Ideal.div c127 (amax xr)) - xr k))
    * (wr k + (Ideal.div (tern am (wr k)) (Ideal.div c1 am) - wr k))

/-- The gate: `g · logistic g · u`. -/
def swi (g u : EReal) : EReal := (g * Ideal.logistic g) * u

/-- The inverse root of a row's mean square. -/
def rms {K : Nat} (h : Fin K → EReal) : EReal := Ideal.rsqrt (Ideal.div (∑ k, h k * h k) cWid + cRms)

/-- A row normalized by its root mean square and weighted entry by entry. -/
def normed {K : Nat} (ln h : Fin K → EReal) (k : Fin K) : EReal := ln k * (h k * rms h)

/-- One hidden entry, products rescaled after the contraction. -/
def hidK {H : Nat} (xr wg wu : Fin H → EReal) (ag au : EReal) : EReal := swi (linK xr wg ag) (linK xr wu au)
/-- One hidden entry, codes rescaled before the contraction. -/
def hidR {H : Nat} (xr wg wu : Fin H → EReal) (ag au : EReal) : EReal := swi (linR xr wg ag) (linR xr wu au)

/-- One output entry from a hidden row. -/
def outK {I : Nat} (ln hr wd : Fin I → EReal) (ad : EReal) : EReal := linK (normed ln hr) wd ad
def outR {I : Nat} (ln hr wd : Fin I → EReal) (ad : EReal) : EReal := linR (normed ln hr) wd ad

end Cert.BitMlp

end
-- ==== Proof.LibQuantProduct.lean ====
/-
  The two arrangements of a quantized product agree on finite operands.

  Every operand here is a real number sitting in the extended reals.  A row's floored largest magnitude
  and a matrix's floored mean magnitude are then positive reals, every integer or ternary code is a real,
  and dividing a code by its (nonzero, real) scale entry by entry before the contraction gives the same
  real as multiplying the contracted codes by the product of the two scales after it.  The gate and the
  root-mean-square normalization keep values real, so the same holds for a hidden entry and for an
  output entry.
-/
import proofs.«170676_j74139725463734_2_alg».proof.Proof.Spec

noncomputable section

namespace Cert.BitMlp

open Idealize.ShloMosaic

/-! ### The float words as extended reals -/

theorem c127_eq : c127 = ((127 : ℝ) : EReal) := by
  simp [Ideal.ofBits, Ideal.ieee, -EReal.coe_mul]; norm_num
theorem c1_eq : c1 = ((1 : ℝ) : EReal) := by
  simp [Ideal.ofBits, Ideal.ieee, -EReal.coe_mul]; norm_num
theorem cM128_eq : cM128 = ((-128 : ℝ) : EReal) := by
  simp [Ideal.ofBits, Ideal.ieee, -EReal.coe_mul]; norm_num
theorem cM1_eq : cM1 = ((-1 : ℝ) : EReal) := by
  simp [Ideal.ofBits, Ideal.ieee, -EReal.coe_mul]; norm_num
theorem cBot_eq : cBot = ⊥ := by
  simp [Ideal.ofBits, Ideal.ieee]
theorem cCnt_eq : cCnt = ((16777216 : ℝ) : EReal) := by
  simp [Ideal.ofBits, Ideal.ieee, -EReal.coe_mul]; norm_num
theorem cWid_eq : cWid = ((8192 : ℝ) : EReal) := by
  simp [Ideal.ofBits, Ideal.ieee, -EReal.coe_mul]; norm_num
theorem cEps_pos : ∃ e : ℝ, 0 < e ∧ cEps = (e : EReal) := by
  refine ⟨_, ?_, by simp [Ideal.ofBits, Ideal.ieee, -EReal.coe_mul]; rfl⟩
  norm_num
theorem cRms_pos : ∃ e : ℝ, 0 < e ∧ cRms = (e : EReal) := by
  refine ⟨_, ?_, by simp [Ideal.ofBits, Ideal.ieee, -EReal.coe_mul]; rfl⟩
  norm_num

/-! ### Real and positive extended reals -/

/-- an extended real that is a real number -/
def IsReal (x : EReal) : Prop := ∃ r : ℝ, x = (r : EReal)
/-- … and positive -/
def IsPos (x : EReal) : Prop := ∃ r : ℝ, 0 < r ∧ x = (r : EReal)

/-- The coercion of the reals commutes with the larger of two. -/
private theorem coe_max' (a b : ℝ) : ((max a b : ℝ) : EReal) = max (a : EReal) (b : EReal) :=
  EReal.coe_strictMono.monotone.map_max
/-- The coercion of the reals commutes with the smaller of two. -/
private theorem coe_min' (a b : ℝ) : ((min a b : ℝ) : EReal) = min (a : EReal) (b : EReal) :=
  EReal.coe_strictMono.monotone.map_min

/-- The coercion of the reals commutes with finite sums. -/
private theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A running maximum of reals started at the bottom is the bottom or a real. -/
private theorem fold_max_coe {ι : Type} (s : Finset ι) (g : ι → ℝ) :
    s.fold max (⊥ : EReal) (fun k => (g k : EReal)) = ⊥ ∨
      ∃ r : ℝ, s.fold max (⊥ : EReal) (fun k => (g k : EReal)) = (r : EReal) := by
  classical
  refine Finset.induction_on s (Or.inl (by simp)) ?_
  intro a s ha ih
  rw [Finset.fold_insert ha]
  rcases ih with h | ⟨r, h⟩
  · exact Or.inr ⟨g a, by rw [h]; simp⟩
  · exact Or.inr ⟨max (g a) r, by rw [h, coe_max']⟩

theorem amax_pos {K : Nat} (f : Fin K → EReal) (hf : ∀ k, IsReal (f k)) : IsPos (amax f) := by
  choose x hx using hf
  obtain ⟨e, he, hE⟩ := cEps_pos
  have hfun : (fun k => max (f k) (-(f k))) = fun k => ((max (x k) (-(x k)) : ℝ) : EReal) := by
    funext k; rw [hx k, coe_max', EReal.coe_neg]
  unfold amax
  rw [hfun, cBot_eq, hE]
  rcases fold_max_coe Finset.univ (fun k => max (x k) (-(x k))) with h | ⟨r, h⟩
  · rw [h]; exact ⟨e, he, by simp⟩
  · rw [h, ← coe_max']; exact ⟨max e r, lt_max_of_lt_left he, rfl⟩

theorem absMean_pos {ι : Type} [Fintype ι] (w : ι → EReal) (hw : ∀ i, IsReal (w i)) : IsPos (absMean w) := by
  choose x hx using hw
  obtain ⟨e, he, hE⟩ := cEps_pos
  have hfun : (fun i => max (w i) (-(w i))) = fun i => ((max (x i) (-(x i)) : ℝ) : EReal) := by
    funext i; rw [hx i, coe_max', EReal.coe_neg]
  unfold absMean
  rw [hfun, ← coe_sum, zero_add, cCnt_eq, Ideal.div_coe (by norm_num), ← EReal.coe_mul, hE, ← coe_max']
  exact ⟨_, lt_max_of_lt_left he, rfl⟩

/-! ### Codes and their scales over the reals -/

private theorem div_c127 {a : ℝ} (ha : 0 < a) : Ideal.div c127 (a : EReal) = ((127 / a : ℝ) : EReal) := by
  rw [Ideal.div_coe ha.ne', c127_eq, ← EReal.coe_mul, mul_one_div]

private theorem div_c1 {m : ℝ} (hm : 0 < m) : Ideal.div c1 (m : EReal) = ((1 / m : ℝ) : EReal) := by
  rw [Ideal.div_coe hm.ne', c1_eq, ← EReal.coe_mul, one_mul]

/-- An integer code of a real at a positive real scale is a real. -/
private theorem code_coe {a : ℝ} (ha : 0 < a) (x : ℝ) :
    code (a : EReal) (x : EReal)
      = ((min 127 (max (-128) ((Ideal.roundHalfEven (x * (127 / a)) : ℤ) : ℝ)) : ℝ) : EReal) := by
  unfold code rnd
  rw [div_c127 ha, ← EReal.coe_mul, Ideal.liftRound_coe, c127_eq, cM128_eq, ← coe_max', ← coe_min']

/-- A ternary code of a real at a positive real scale is a real. -/
private theorem tern_coe {m : ℝ} (hm : 0 < m) (w : ℝ) :
    tern (m : EReal) (w : EReal)
      = ((min 1 (max (-1) ((Ideal.roundHalfEven (w * (1 / m)) : ℤ) : ℝ)) : ℝ) : EReal) := by
  unfold tern rnd
  rw [div_c1 hm, ← EReal.coe_mul, Ideal.liftRound_coe, c1_eq, cM1_eq, ← coe_max', ← coe_min']

/-- A code divided by the row scale `127 / a`, written around the entry it came from. -/
private theorem deq_code {a : ℝ} (ha : 0 < a) (x q : ℝ) :
    (x : EReal) + (Ideal.div (q : EReal) (Ideal.div c127 (a : EReal)) - (x : EReal))
      = ((q * (a * (1 / 127)) : ℝ) : EReal) := by
  have h : (127 / a : ℝ) ≠ 0 := by positivity
  rw [div_c127 ha, Ideal.div_coe h, ← EReal.coe_mul, ← EReal.coe_sub, ← EReal.coe_add]
  congr 1
  field_simp
  ring

/-- A code divided by the matrix scale `1 / m`, written around the entry it came from. -/
private theorem deq_tern {m : ℝ} (hm : 0 < m) (w t : ℝ) :
    (w : EReal) + (Ideal.div (t : EReal) (Ideal.div c1 (m : EReal)) - (w : EReal))
      = ((t * m : ℝ) : EReal) := by
  have h : (1 / m : ℝ) ≠ 0 := by positivity
  rw [div_c1 hm, Ideal.div_coe h, ← EReal.coe_mul, ← EReal.coe_sub, ← EReal.coe_add]
  congr 1
  field_simp
  ring

/-! ### The two arrangements of one product -/

/-- Both arrangements are the same real. -/
private theorem lin_both {K : Nat} (xr wr : Fin K → EReal) (am : EReal)
    (hx : ∀ k, IsReal (xr k)) (hw : ∀ k, IsReal (wr k)) (ham : IsPos am) :
    ∃ r : ℝ, linR xr wr am = (r : EReal) ∧ linK xr wr am = (r : EReal) := by
  obtain ⟨a, ha, hA⟩ := amax_pos xr hx
  obtain ⟨m, hm, rfl⟩ := ham
  choose x hx using hx
  choose w hw using hw
  let q : Fin K → ℝ := fun k => min 127 (max (-128) ((Ideal.roundHalfEven (x k * (127 / a)) : ℤ) : ℝ))
  let t : Fin K → ℝ := fun k => min 1 (max (-1) ((Ideal.roundHalfEven (w k * (1 / m)) : ℤ) : ℝ))
  have hq : ∀ k, code (a : EReal) (xr k) = (q k : EReal) := fun k => by rw [hx k, code_coe ha]
  have ht : ∀ k, tern (m : EReal) (wr k) = (t k : EReal) := fun k => by rw [hw k, tern_coe hm]
  refine ⟨(∑ k, q k * t k) * ((a * (1 / 127)) * m), ?_, ?_⟩
  · unfold linR
    rw [hA, Finset.sum_mul, coe_sum]
    refine Finset.sum_congr rfl fun k _ => ?_
    rw [hq k, ht k, hx k, hw k, deq_code ha, deq_tern hm, ← EReal.coe_mul]
    congr 1
    ring
  · unfold linK
    rw [hA]
    have hs : (∑ k, code (a : EReal) (xr k) * tern (m : EReal) (wr k)) = ((∑ k, q k * t k : ℝ) : EReal) := by
      rw [coe_sum]
      refine Finset.sum_congr rfl fun k _ => ?_
      rw [hq k, ht k, ← EReal.coe_mul]
    rw [hs, ← EReal.coe_mul, ← EReal.coe_mul, ← EReal.coe_mul]

theorem linR_eq_linK {K : Nat} (xr wr : Fin K → EReal) (am : EReal) (hx : ∀ k, IsReal (xr k))
    (hw : ∀ k, IsReal (wr k)) (ham : IsPos am) : linR xr wr am = linK xr wr am := by
  obtain ⟨r, h1, h2⟩ := lin_both xr wr am hx hw ham
  rw [h1, h2]

theorem linK_real {K : Nat} (xr wr : Fin K → EReal) (am : EReal) (hx : ∀ k, IsReal (xr k))
    (hw : ∀ k, IsReal (wr k)) (ham : IsPos am) : IsReal (linK xr wr am) := by
  obtain ⟨r, _, h2⟩ := lin_both xr wr am hx hw ham
  exact ⟨r, h2⟩

/-! ### The gate and the normalization keep values real -/

private theorem swi_real {g u : EReal} (hg : IsReal g) (hu : IsReal u) : IsReal (swi g u) := by
  obtain ⟨g, rfl⟩ := hg
  obtain ⟨u, rfl⟩ := hu
  unfold swi
  rw [Ideal.logistic_coe, ← EReal.coe_mul, ← EReal.coe_mul]
  exact ⟨_, rfl⟩

private theorem rms_real {K : Nat} (h : Fin K → EReal) (hh : ∀ k, IsReal (h k)) : IsReal (rms h) := by
  choose x hx using hh
  obtain ⟨e, he, hE⟩ := cRms_pos
  have hfun : (fun k => h k * h k) = fun k => ((x k * x k : ℝ) : EReal) := by
    funext k; rw [hx k, EReal.coe_mul]
  have hpos : 0 < (∑ k, x k * x k) * (1 / 8192) + e := by
    have : 0 ≤ ∑ k, x k * x k := Finset.sum_nonneg fun k _ => mul_self_nonneg (x k)
    positivity
  unfold rms
  rw [hfun, ← coe_sum, cWid_eq, Ideal.div_coe (by norm_num), ← EReal.coe_mul, hE, ← EReal.coe_add,
    Ideal.rsqrt_coe, if_neg (not_lt.mpr hpos.le), if_neg hpos.ne']
  exact ⟨_, rfl⟩

private theorem normed_real {K : Nat} (ln h : Fin K → EReal) (hln : ∀ k, IsReal (ln k))
    (hh : ∀ k, IsReal (h k)) (k : Fin K) : IsReal (normed ln h k) := by
  obtain ⟨r, hr⟩ := rms_real h hh
  obtain ⟨l, hl⟩ := hln k
  obtain ⟨y, hy⟩ := hh k
  unfold normed
  rw [hr, hl, hy, ← EReal.coe_mul, ← EReal.coe_mul]
  exact ⟨_, rfl⟩

/-! ### A hidden entry and an output entry -/

theorem hidR_eq_hidK {H : Nat} (xr wg wu : Fin H → EReal) (ag au : EReal) (hx : ∀ k, IsReal (xr k))
    (hg : ∀ k, IsReal (wg k)) (hu : ∀ k, IsReal (wu k)) (hag : IsPos ag) (hau : IsPos au) :
    hidR xr wg wu ag au = hidK xr wg wu ag au := by
  unfold hidR hidK
  rw [linR_eq_linK xr wg ag hx hg hag, linR_eq_linK xr wu au hx hu hau]

theorem hidK_real {H : Nat} (xr wg wu : Fin H → EReal) (ag au : EReal) (hx : ∀ k, IsReal (xr k))
    (hg : ∀ k, IsReal (wg k)) (hu : ∀ k, IsReal (wu k)) (hag : IsPos ag) (hau : IsPos au) :
    IsReal (hidK xr wg wu ag au) :=
  swi_real (linK_real xr wg ag hx hg hag) (linK_real xr wu au hx hu hau)

theorem outR_eq_outK {I : Nat} (ln hr wd : Fin I → EReal) (ad : EReal) (hln : ∀ k, IsReal (ln k))
    (hh : ∀ k, IsReal (hr k)) (hwd : ∀ k, IsReal (wd k)) (had : IsPos ad) :
    outR ln hr wd ad = outK ln hr wd ad :=
  linR_eq_linK (normed ln hr) wd ad (normed_real ln hr hln hh) hwd had

end Cert.BitMlp

end
-- ==== Proof.Finite.lean ====
/-
  Finite inputs are real numbers: the precondition compares every entry's magnitude with +∞ and takes the conjunction
  over each array; an entry whose magnitude is below +∞ is neither infinity, so it is a real number.
-/
import proofs.«170676_j74139725463734_2_alg».proof.Defs
import proofs.«170676_j74139725463734_2_alg».proof.Proof.LibQuantProduct
import Idealize.ShloMosaic.Lib.ReduceAll
import Idealize.ShloMosaic.Lib.ValueIdx

noncomputable section

namespace Cert.FiniteInputs

open Idealize.ShloMosaic Idealize.ShloMosaic.TcCoe Idealize.ShloMosaic.ValueIdx Idealize.SL.Sem Cert.BitMlp

/-- The word of +∞. -/
theorem top_word : Ideal.ofBits .f32 0x7F800000#32 = ⊤ := by simp [Ideal.ofBits, Ideal.ieee]

/-- An extended real whose magnitude is below +∞ is a real number. -/
theorem real_of_abs_lt_top (x : EReal) (h : max x (-x) < ⊤) : IsReal x := by
  induction x using EReal.rec with
  | bot => exact absurd h (by simp)
  | coe r => exact ⟨r, rfl⟩
  | top => exact absurd h (by simp)

instance : Subsingleton (⟨0, ![]⟩ : Shape).Idx := ⟨fun a b => funext fun d => d.elim0⟩

/-- One array's conjunct of the precondition gives every entry real. -/
theorem real_of_all {S : Shape} {axes : List (Fin S.rank)} (hr : S.ReducesTo axes (⟨0, ![]⟩ : Shape)) (hn : 0 < (⟨0, ![]⟩ : Shape).numel)
    (hb : (⟨0, ![]⟩ : Shape).BroadcastsInDim S (![] : Fin 0 → Fin S.rank)) (x : FVec Ideal S .f32) (j : (⟨0, ![]⟩ : Shape).Idx)
    (e : Host.reduce IntOp.andi (cmpf .olt (Host.absf x) (broadcastInDim S ![] hb (constant (F := Ideal) (⟨0, ![]⟩ : Shape) .f32 0x7F800000#32)))
      (constantI (⟨0, ![]⟩ : Shape) 1 1#1) hr hn j = 1#1) (i : S.Idx) : IsReal (x i) := by
  have h1 := Host.reduce_andi_all _ _ hr hn j e i
  have h2 : Ideal.cmp .olt (max (x i) (-(x i))) (Ideal.ofBits .f32 0x7F800000#32) = 1#1 := h1
  rw [top_word] at h2
  have h3 : BitVec.ofBool (decide (max (x i) (-(x i)) < ⊤)) = 1#1 := h2
  refine real_of_abs_lt_top (x i) ?_
  by_contra hlt
  rw [decide_eq_false hlt] at h3
  exact absurd h3 (by decide)

variable [Cert.Pre_finite_inputs.Facts]

/-- Under the precondition every entry of every argument array is a real number. -/
theorem entries_real (x0 : FVec Ideal Cert.Pre_finite_inputs.S2x2048x2048 .f32) (x1 x2 : FVec Ideal Cert.Pre_finite_inputs.S8192x2048 .f32)
    (x3 : FVec Ideal Cert.Pre_finite_inputs.S2048x8192 .f32) (x4 : FVec Ideal Cert.Pre_finite_inputs.S8192 .f32)
    (h : Cert.Pre_finite_inputs.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have j : (⟨0, ![]⟩ : Shape).Idx := fun a => a.elim0
  have h0 := congrFun h j
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_all _ _ _ x0 j h0' i, fun i => real_of_all _ _ _ x1 j h1 i, fun i => real_of_all _ _ _ x2 j h2 i,
    fun i => real_of_all _ _ _ x3 j h3 i, fun i => real_of_all _ _ _ x4 j h4 i⟩

end Cert.FiniteInputs

end
-- ==== Proof.KernelRun.lean ====
/-
  The idealized kernel's run with its result named: every weakly fair execution ends with the result array at the
  contents the last host stretch leaves (the fold of the program's segments from the launch memory), and the five
  argument arrays as launched.  The segments, their boundaries' contents and each region's record are the generated
  frame's; here the final state is read at one more buffer, the result's.
-/
import proofs.«170676_j74139725463734_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result array read in the final state beside the arguments. -/
theorem run_result : θ_run defs (onTc (τ := τ) (main (F := F))) ⟨m, fun _ => 0, ρ⟩ (fun r => ∀ c : Dev nD,
      r.2.mem ((c.tc : Thread nD τ).loc main_v37) = W23 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v37 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c)⟩)

end Cert.KernelIdeal.RunValue

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«170676_j74139725463734_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.HostQuant.lean ====
/-
  The host's ternary coding of a weight matrix, read at an index.

  The matrix's scale is its mean magnitude, floored; a weight's code is the weight times the inverse scale, rounded to the
  nearest integer (ties to even) and clipped to [-1, 1].  Both are spelt here exactly as the host program computes them,
  over any shape, and read back as the functions `absMean` and `tern` of the entries.
-/
import proofs.«170676_j74139725463734_2_alg».proof.Proof.Spec
import proofs.«170676_j74139725463734_2_alg».proof.Proof.LibColumn
import Idealize.ShloMosaic.Lib.ValueIdx
import Idealize.ShloMosaic.Lib.Pipeline.Value
import Idealize.ShloMosaic.PureOps.Ideal.Laws

noncomputable section

namespace Cert.BitMlp

open Idealize.ShloMosaic Idealize.ShloMosaic.ValueIdx

/-- The shape of a scalar. -/
abbrev Sc : Shape := ⟨0, ![]⟩

variable {S : Shape} {axes : List (Fin S.rank)} (hr : S.ReducesTo axes Sc) (hn : 0 < Sc.numel)
  (hb : Sc.BroadcastsInDim S (![] : Fin 0 → Fin S.rank)) (w : FVec Ideal S .f32)

/-- The matrix's scale as the host computes it: a scalar array. -/
def scaleVec : FVec Ideal Sc .f32 :=
  maximumf (id (constant (F := Ideal) Sc .f32 0x3727C5AC#32))
    (Host.divf (Host.reduceAdd (Host.absf w) (constant (F := Ideal) Sc .f32 0x00000000#32) hr hn) (constant (F := Ideal) Sc .f32 0x4B800000#32))

/-- It is the mean magnitude, floored. -/
theorem scaleVec_at (j : Sc.Idx) : scaleVec hr hn w j = absMean w := by
  have hsum : Host.reduceAdd (Host.absf w) (constant (F := Ideal) Sc .f32 0x00000000#32) hr hn j = 0 + ∑ i, max (w i) (-(w i)) := by
    simp only [Host.reduceAdd, Ideal.hostReduceAdd_def]
    refine (Ideal.hostReduceAdd_total hr (fun b => b.elim0) _ _ j).trans ?_
    rw [constant_apply, Ideal.ofBits_zero_f32]
    rfl
  unfold scaleVec absMean
  rw [maximumf_apply]
  refine congrArg₂ max rfl ?_
  show Ideal.div (Host.reduceAdd (Host.absf w) (constant (F := Ideal) Sc .f32 0x00000000#32) hr hn j) _ = _
  rw [hsum]
  rfl

/-- The matrix's ternary codes as the host computes them. -/
def ternVec : FVec Ideal S .f32 :=
  minimumf (broadcastInDim S ![] hb (id (constant (F := Ideal) Sc .f32 0x3F800000#32)))
    (maximumf (broadcastInDim S ![] hb (id (constant (F := Ideal) Sc .f32 0xBF800000#32)))
      (Host.roundeven (mulf w (broadcastInDim S ![] hb (Host.divf (constant (F := Ideal) Sc .f32 0x3F800000#32) (scaleVec hr hn w))))))

/-- Each is the weight's code at the matrix's scale. -/
theorem ternVec_at (i : S.Idx) : ternVec hr hn hb w i = tern (absMean w) (w i) := by
  have k : Sc.Idx := fun a => a.elim0
  unfold ternVec tern
  rw [minimumf_apply, maximumf_apply, Cert.LibColumn.bcastInDim_scalar_apply _ hb i k, Cert.LibColumn.bcastInDim_scalar_apply _ hb i k]
  refine congrArg₂ min rfl (congrArg₂ max rfl ?_)
  show rnd (w i * broadcastInDim S ![] hb (Host.divf (constant (F := Ideal) Sc .f32 0x3F800000#32) (scaleVec hr hn w)) i) = _
  rw [Cert.LibColumn.bcastInDim_scalar_apply _ hb i k]
  show rnd (w i * Ideal.div c1 (scaleVec hr hn w k)) = _
  rw [scaleVec_at]

end Cert.BitMlp

end
-- ==== Proof.BodyForms.lean ====
/-
  The quantized product with the weight row already in ternary codes: what a block of the kernel sees,
  since the weights reach it coded. `linK` is this form at the codes of a weight row.
-/
import proofs.«170676_j74139725463734_2_alg».proof.Proof.Spec

noncomputable section

namespace Cert.BitMlp

open Idealize.ShloMosaic

/-- The product of a row's integer codes with a row of ternary codes, rescaled after the contraction. -/
def linQ {K : Nat} (xr tr : Fin K → EReal) (am : EReal) : EReal :=
  (∑ k, code (amax xr) (xr k) * tr k) * ((amax xr * ((1 / 127 : ℝ) : EReal)) * am)

theorem linK_eq_linQ {K : Nat} (xr wr : Fin K → EReal) (am : EReal) :
    linK xr wr am = linQ xr (fun k => tern am (wr k)) am := rfl

/-- One hidden entry from coded weight rows. -/
def hidQ {H : Nat} (xr tg tu : Fin H → EReal) (ag au : EReal) : EReal := swi (linQ xr tg ag) (linQ xr tu au)

theorem hidK_eq_hidQ {H : Nat} (xr wg wu : Fin H → EReal) (ag au : EReal) :
    hidK xr wg wu ag au = hidQ xr (fun k => tern ag (wg k)) (fun k => tern au (wu k)) ag au := rfl

/-- One output entry from a hidden row and a coded weight row. -/
def outQ {I : Nat} (ln hr td : Fin I → EReal) (ad : EReal) : EReal := linQ (normed ln hr) td ad

theorem outK_eq_outQ {I : Nat} (ln hr wd : Fin I → EReal) (ad : EReal) :
    outK ln hr wd ad = outQ ln hr (fun k => tern ad (wd k)) ad := rfl

end Cert.BitMlp

end
-- ==== Proof.KernelHost.lean ====
import proofs.«170676_j74139725463734_2_alg».proof.Proof.Gen.KernelIdeal.Frame
import proofs.«170676_j74139725463734_2_alg».proof.Proof.Spec
import proofs.«170676_j74139725463734_2_alg».proof.Proof.LibMatmulAt
import proofs.«170676_j74139725463734_2_alg».proof.Proof.LibRowReduce
import Idealize.ShloMosaic.Lib.ValueIdx
import Idealize.ShloMosaic.Lib.ValueLayout
import Idealize.ShloMosaic.Lib.Pipeline.Value
import Idealize.ShloMosaic.PureOps.IdealRules
import proofs.«170676_j74139725463734_2_alg».proof.Proof.HostQuant

noncomputable section

/-
  What the host operations around the two regions leave in the buffers the regions read: the activations flattened
  to rows, each weight matrix's ternary codes and its scale (as a 1 × 1 array), the row of normalization weights.
-/
namespace Cert.KernelIdeal.HostSide

open Cert.KernelIdeal Cert.KernelIdeal.Gen Idealize.ShloMosaic Idealize.ShloMosaic.TcCoe Idealize.ShloMosaic.ValueIdx Idealize.SL.Sem Cert.BitMlp
open Idealize.ShloMosaic.StableHlo

variable (m : (ℓ : Loc nD τ sig) → Buf (Elt Ideal) ℓ) (ρ : Dev nD → PrngReg) (c : Dev nD)

set_option maxHeartbeats 2000000 in
theorem v0_eq : W19 (F := Ideal) m ρ c (Proc.devRef .tc main_v0)
    = shapeCast S4096x2048 (m ((c : Thread nD τ).loc main_arg0)) shapeCasts_S2x2048x2048_S4096x2048 := by
  simp only [W19, W18, W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  try simp only [TRef.toBuf, TRef.ofBuf, cast_eq]
  try rfl

set_option maxHeartbeats 2000000 in
theorem v10_eq : W19 (F := Ideal) m ρ c (Proc.devRef .tc main_v10)
    = truncf .bf16 (ternVec reducesTo_S8192x2048_S_d0_1 h_S_ bcast_S_S8192x2048 (m ((c : Thread nD τ).loc main_arg1))) bitsLt_bf16_f32 := by
  simp only [W19, W18, W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  try simp only [TRef.toBuf, TRef.ofBuf, cast_eq]
  try rfl

set_option maxHeartbeats 2000000 in
theorem v20_eq : W19 (F := Ideal) m ρ c (Proc.devRef .tc main_v20)
    = truncf .bf16 (ternVec reducesTo_S8192x2048_S_d0_1 h_S_ bcast_S_S8192x2048 (m ((c : Thread nD τ).loc main_arg2))) bitsLt_bf16_f32 := by
  simp only [W19, W18, W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  try simp only [TRef.toBuf, TRef.ofBuf, cast_eq]
  try rfl

set_option maxHeartbeats 2000000 in
theorem v30_eq : W19 (F := Ideal) m ρ c (Proc.devRef .tc main_v30)
    = truncf .bf16 (ternVec reducesTo_S2048x8192_S_d0_1 h_S_ bcast_S_S2048x8192 (m ((c : Thread nD τ).loc main_arg3))) bitsLt_bf16_f32 := by
  simp only [W19, W18, W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  try simp only [TRef.toBuf, TRef.ofBuf, cast_eq]
  try rfl

set_option maxHeartbeats 2000000 in
theorem v31_eq : W19 (F := Ideal) m ρ c (Proc.devRef .tc main_v31)
    = shapeCast S1x1 (scaleVec reducesTo_S8192x2048_S_d0_1 h_S_ (m ((c : Thread nD τ).loc main_arg1))) shapeCasts_S_S1x1 := by
  simp only [W19, W18, W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  try simp only [TRef.toBuf, TRef.ofBuf, cast_eq]
  try rfl

set_option maxHeartbeats 2000000 in
theorem v32_eq : W19 (F := Ideal) m ρ c (Proc.devRef .tc main_v32)
    = shapeCast S1x1 (scaleVec reducesTo_S8192x2048_S_d0_1 h_S_ (m ((c : Thread nD τ).loc main_arg2))) shapeCasts_S_S1x1 := by
  simp only [W19, W18, W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  try simp only [TRef.toBuf, TRef.ofBuf, cast_eq]
  try rfl

set_option maxHeartbeats 2000000 in
theorem v33_eq : W19 (F := Ideal) m ρ c (Proc.devRef .tc main_v33)
    = shapeCast S1x1 (scaleVec reducesTo_S2048x8192_S_d0_1 h_S_ (m ((c : Thread nD τ).loc main_arg3))) shapeCasts_S_S1x1 := by
  simp only [W19, W18, W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  try simp only [TRef.toBuf, TRef.ofBuf, cast_eq]
  try rfl

set_option maxHeartbeats 2000000 in
theorem arg4_eq : W19 (F := Ideal) m ρ c (Proc.devRef .tc main_arg4)
    = m ((c : Thread nD τ).loc main_arg4) := by
  simp only [W19, W18, W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
  after_results_simp
  try simp only [TRef.toBuf, TRef.ofBuf, cast_eq]
  try rfl

/-! The second region's entry contents -/

theorem w21_v35 : W21 (F := Ideal) m ρ c (Proc.devRef .tc main_v35)
    = shapeCast S1x8192 (m ((c : Thread nD τ).loc main_arg4)) shapeCasts_S8192_S1x8192 := by
  have e : W20 (F := Ideal) m ρ c (Proc.devRef .tc main_arg4) = m ((c : Thread nD τ).loc main_arg4) :=
    (W20_of_ne m ρ c main_arg4 (by decide)).trans (arg4_eq m ρ c)
  simp only [W21, hostOps1]
  after_results_simp
  rw [e]
  try rfl

theorem w21_v34 : W21 (F := Ideal) m ρ c (Proc.devRef .tc main_v34) = (dat0 (V19 m ρ) c).arrAt 5 cfg0.N := by
  refine Eq.trans ?_ (W20_arr m ρ c 5)
  simp only [W21, hostOps1]
  after_results_simp
  try rfl

theorem w21_v30 : W21 (F := Ideal) m ρ c (Proc.devRef .tc main_v30) = W19 m ρ c (Proc.devRef .tc main_v30) := by
  refine Eq.trans ?_ (W20_of_ne m ρ c main_v30 (by decide))
  simp only [W21, hostOps1]
  after_results_simp

theorem w21_v33 : W21 (F := Ideal) m ρ c (Proc.devRef .tc main_v33) = W19 m ρ c (Proc.devRef .tc main_v33) := by
  refine Eq.trans ?_ (W20_of_ne m ρ c main_v33 (by decide))
  simp only [W21, hostOps1]
  after_results_simp

/-! The result -/

theorem w23_v37 : W23 (F := Ideal) m ρ c (Proc.devRef .tc main_v37)
    = shapeCast S2x2048x2048 ((dat1 (V21 m ρ) c).arrAt 4 cfg1.N) shapeCasts_S4096x2048_S2x2048x2048 := by
  have e : W22 (F := Ideal) m ρ c (Proc.devRef .tc main_v36) = (dat1 (V21 m ρ) c).arrAt 4 cfg1.N := W22_arr m ρ c 4
  simp only [W23, hostOps2]
  after_results_simp
  rw [e]
  try rfl

end Cert.KernelIdeal.HostSide

end
-- ==== Proof.HiddenBody.lean ====
/-
  The first kernel's body at an index.  A block holds 256 rows of activations and 1024 rows of each coded first-layer
  weight matrix; the body takes each activation row's largest magnitude (floored), codes the row at scale 127 over it,
  contracts the codes with the coded weight rows (the weight block transposed), rescales each sum by the row scale times
  the matrix scale, and stores g · logistic g · u.  Entry (p, q) of what it stores is the gated pair of quantized products
  of activation row p with weight rows q.
-/
import proofs.«170676_j74139725463734_2_alg».proof.Proof.Gen.KernelIdeal.Frame
import proofs.«170676_j74139725463734_2_alg».proof.Proof.Spec
import proofs.«170676_j74139725463734_2_alg».proof.Proof.LibMatmulAt
import proofs.«170676_j74139725463734_2_alg».proof.Proof.LibRowReduce
import Idealize.ShloMosaic.Lib.ValueIdx
import Idealize.ShloMosaic.Lib.ValueLayout
import Idealize.ShloMosaic.Lib.Pipeline.Value
import Idealize.ShloMosaic.PureOps.IdealRules
import proofs.«170676_j74139725463734_2_alg».proof.Proof.BodyForms

noncomputable section

namespace Cert.KernelIdeal.Hidden

open Cert.KernelIdeal Cert.KernelIdeal.Gen Idealize.ShloMosaic Idealize.ShloMosaic.ValueIdx Cert.BitMlp

/-- The named reciprocal is the rational 1/127. -/
theorem inv127 : Named.named (F := Ideal) κ "inv_127" (φ := .f32) 0x3C010204#32 = ((1 / 127 : ℝ) : EReal) :=
  IdealRules.named_const.ideal_named_scalar _ _ _ _ rfl

section Pointwise
variable {s : Shape} {φ : FTy}
theorem roundeven_at (a : FVec Ideal s φ) (i : s.Idx) : roundeven a i = rnd (a i) := rfl
theorem absf_at (a : FVec Ideal s φ) (i : s.Idx) : absf a i = max (a i) (-(a i)) := rfl
theorem rsqrt_at (a : FVec Ideal s φ) (i : s.Idx) : rsqrt a i = Ideal.rsqrt (a i) := rfl
theorem logistic_at (a : FVec Ideal s φ) (i : s.Idx) : logistic a i = Ideal.logistic (a i) := rfl
end Pointwise

section
variable (x0 : Vec Ideal S256x2048 .f32)

/-- The block of activations, cast to its own shape, is itself. -/
theorem act_at (p : Fin 256) (k : Fin 2048) : k0_pay2 x0 (ix2 p k) = x0 (ix2 p k) :=
  congrFun (shapeCast_self x0 shapeCasts_S256x2048_S256x2048) _

/-- The row scale of row p of the activations' block: its largest magnitude, floored. -/
theorem rowScale_at (p : Fin 256) (u : Fin 1) :
    k0_pay3 x0 (ix2 p u) = amax (fun k : Fin 2048 => x0 (ix2 p k)) := by
  unfold k0_pay3
  try dsimp only
  rw [maximumf_apply, broadcast_apply, Cert.LibColumn.shapeCast_a_a1_apply]
  refine congrArg (max _) ((Cert.LibRowReduce.rowMax_apply _ _ _ _ _ p).trans ?_)
  refine congrArg (fun f => (Finset.univ : Finset (Fin 2048)).fold max cBot f) (funext fun k => ?_)
  rw [absf_at, act_at]

/-- The integer code of entry (p, k) of the activations' block. -/
theorem code_at (p : Fin 256) (k : Fin 2048) :
    k0_pay4 x0 (ix2 p k) = code (amax (fun k : Fin 2048 => x0 (ix2 p k))) (x0 (ix2 p k)) := by
  unfold k0_pay4
  try dsimp only
  rw [truncf_apply, minimumf_apply, maximumf_apply, roundeven_at, mulf_apply, Cert.LibColumn.broadcastTo_a1_ab_apply, divf_apply,
    rowScale_at, act_at]
  rfl

/-- The row's scale back: its largest magnitude over 127. -/
theorem scale_at (p : Fin 256) (u : Fin 1) :
    k0_pay5 x0 (ix2 p u) = amax (fun k : Fin 2048 => x0 (ix2 p k)) * ((1 / 127 : ℝ) : EReal) := by
  unfold k0_pay5
  try dsimp only
  rw [mulf_apply, broadcast_apply, rowScale_at, inv127]

/-- One quantized product of the block: row p of the activations against row q of a coded weight block. -/
theorem lin_at (x1 : Vec Ideal S1024x2048 .bf16) (x3 : Vec Ideal S1x1 .f32) (p : Fin 256) (q : Fin 1024) :
    k0_pay6 x0 x1 x3 (ix2 p q)
      = linQ (fun k : Fin 2048 => x0 (ix2 p k)) (fun k : Fin 2048 => x1 (ix2 q k)) (x3 (ix2 (0 : Fin 1) (0 : Fin 1))) := by
  unfold k0_pay6
  try dsimp only
  rw [mulf_apply, Cert.LibColumn.broadcastTo_a1_ab_apply, mulf_apply, scale_at, Cert.LibRowReduce.broadcastTo_11_ab_apply]
  unfold linQ
  refine congrArg₂ (· * ·) ?_ ?_
  · refine (Cert.LibMatmulAt.matmul_zero_apply _ rfl rfl rfl rfl rfl rfl none _ _ p q).trans ?_
    refine Finset.sum_congr rfl fun k _ => ?_
    rw [code_at, transpose_ix2_apply, shapeCast_self]
  · rw [shapeCast_self]

end

/-- What the body leaves at (p, q) of its output block: the gated product of the two quantized products. -/
theorem out_at (x0 : Vec Ideal S256x2048 .f32) (x1 x2 : Vec Ideal S1024x2048 .bf16) (x3 x4 : Vec Ideal S1x1 .f32) (p : Fin 256) (q : Fin 1024) :
    out0_5 x0 x1 x2 x3 x4 (ix2 p q)
      = hidQ (fun k : Fin 2048 => x0 (ix2 p k)) (fun k : Fin 2048 => x1 (ix2 q k)) (fun k : Fin 2048 => x2 (ix2 q k))
          (x3 (ix2 (0 : Fin 1) (0 : Fin 1))) (x4 (ix2 (0 : Fin 1) (0 : Fin 1))) := by
  have hz : (![0, 0] : Fin 2 → Nat) = fun _ => 0 := funext fun a => by fin_cases a <;> rfl
  unfold out0_5
  rw [View.canon_unit_zero hz]
  simp only [View.ld_unit_zero (S := S256x2048) hz, View.ld_unit_zero (S := S1024x2048) hz, View.ld_unit_zero (S := S1x1) hz]
  have e7 : k0_pay7 x0 x2 x4 = k0_pay6 x0 x2 x4 := rfl
  unfold k0_pay1 k0_pay8
  try dsimp only
  rw [mulf_apply, mulf_apply, logistic_at, e7, lin_at, lin_at]
  rfl

end Cert.KernelIdeal.Hidden

end
-- ==== Proof.HiddenArray.lean ====
/-
  From blocks to the hidden array.  Grid point (column block, row block) of the first kernel writes block (row block,
  column block) of the [4096, 8192] hidden array; its activation block is the row block's 256 rows, its weight blocks the
  column block's 1024 rows, the two scales stay in place.  The 16 × 8 blocks tile the array, so after the region the array
  is one function of the region's entry contents: entry (r, i) is the gated pair of quantized products of row r with
  weight rows i.
-/
import proofs.«170676_j74139725463734_2_alg».proof.Proof.Gen.KernelIdeal.Frame
import proofs.«170676_j74139725463734_2_alg».proof.Proof.Spec
import proofs.«170676_j74139725463734_2_alg».proof.Proof.LibMatmulAt
import proofs.«170676_j74139725463734_2_alg».proof.Proof.LibRowReduce
import Idealize.ShloMosaic.Lib.ValueIdx
import Idealize.ShloMosaic.Lib.ValueLayout
import Idealize.ShloMosaic.Lib.Pipeline.Value
import Idealize.ShloMosaic.PureOps.IdealRules
import proofs.«170676_j74139725463734_2_alg».proof.Proof.BodyForms
import proofs.«170676_j74139725463734_2_alg».proof.Proof.HiddenBody

noncomputable section

namespace Cert.KernelIdeal.HiddenArray

open Cert.KernelIdeal Cert.KernelIdeal.Gen Idealize.ShloMosaic Idealize.ShloMosaic.TcCoe Idealize.ShloMosaic.ValueIdx Idealize.SL.Sem Cert.BitMlp
open Idealize.ShloMosaic.Pipeline (Dat)

-- the buffer contents when the first region is entered
variable (V : (c : Dev nD) → (b : Ref sig .tc) → Buf (Elt Ideal) ((c : Thread nD τ).loc b))

/-- Entry (r, i) of the hidden array from the region's entry contents: row r of the activations against rows i of
    the two coded weight matrices, with the two matrix scales. -/
def hidEntry (c : Dev nD) (r : Fin 4096) (i : Fin 8192) : EReal :=
  hidQ (fun k : Fin 2048 => V c main_v0 (ix2 r k)) (fun k : Fin 2048 => V c main_v10 (ix2 i k)) (fun k : Fin 2048 => V c main_v20 (ix2 i k))
    (V c main_v31 (ix2 (0 : Fin 1) (0 : Fin 1))) (V c main_v32 (ix2 (0 : Fin 1) (0 : Fin 1)))

/-- The hidden array as one function of its index. -/
def hidArr (c : Dev nD) : S4096x8192.Idx → EReal := fun j => hidEntry V c ⟨(j 0).val, (j 0).isLt⟩ ⟨(j 1).val, (j 1).isLt⟩

theorem hidArr_ix2 (c : Dev nD) (r : Fin 4096) (i : Fin 8192) : hidArr V c (ix2 r i) = hidEntry V c r i := rfl

/-- The windows' block indices over the grid: the activations' block follows the output's row block, the two weight
    blocks its column block, the scales stay put; the output's block indices stay in range. -/
theorem idx_facts : ∀ t : Fin cfg0.N, win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 15 ∧ win0_5.index t (1 : Fin 2) ≤ 7 :=
  (by decide +kernel : ∀ t : Fin grid0.N, _)

/-- Every block of the output is some point's. -/
theorem idx_onto : ∀ (q0 : Fin 16) (q1 : Fin 8), ∃ t : Fin cfg0.N, win0_5.index t = ![q0.val, q1.val] :=
  (by decide +kernel : ∀ (q0 : Fin 16) (q1 : Fin 8), ∃ t : Fin grid0.N, win0_5.index t = ![q0.val, q1.val])

/-- What point t writes back is block t of the hidden array. -/
theorem flushed_eq (c : Dev nD) (t : Fin cfg0.N) :
    (dat0 V c).flushed 5 t = ((cfg0.win 5).blk t).view.read (Elt Ideal) (hidArr V c) := by
  show (cfg0.win 5).cut (grid0.coords t) ((dat0 V c).after 5 t) = _
  rw [after0_5]
  obtain ⟨e0, e1, e2, e3, e4, e5, e6, e7, e8, e9, e10, e11⟩ := idx_facts t
  funext y
  obtain ⟨p, q, rfl⟩ : ∃ (p : Fin 256) (q : Fin 1024), y = ix2 p q := ⟨y 0, y 1, eq_ix2 y⟩
  show out0_5 (iblk0 V c 0 t) (iblk0 V c 1 t) (iblk0 V c 2 t) (iblk0 V c 3 t) (iblk0 V c 4 t) (ix2 p q)
    = hidArr V c (((cfg0.win 5).blk t).view.emb (ix2 p q))
  rw [Cert.KernelIdeal.Hidden.out_at]
  have hp := p.isLt
  have hq := q.isLt
  have h0 : ∀ k : Fin 2048, iblk0 V c 0 t (ix2 p k)
      = V c main_v0 (ix2 ⟨((((cfg0.win 5).blk t).view.emb (ix2 p q)) 0).val, ((((cfg0.win 5).blk t).view.emb (ix2 p q)) 0).isLt⟩ k) := fun k => by
    show V c main_v0 (((cfg0.win 0).blk t).view.emb (ix2 p k)) = _
    refine congrArg (V c main_v0) (funext fun a => Fin.ext ?_)
    match a with
    | ⟨0, _⟩ => show win0_0.index t (0 : Fin 2) * 256 + 1 * p.val = win0_5.index t (0 : Fin 2) * 256 + 1 * p.val; omega
    | ⟨1, _⟩ => show win0_0.index t (1 : Fin 2) * 2048 + 1 * k.val = k.val; omega
  have h1 : ∀ k : Fin 2048, iblk0 V c 1 t (ix2 q k)
      = V c main_v10 (ix2 ⟨((((cfg0.win 5).blk t).view.emb (ix2 p q)) 1).val, ((((cfg0.win 5).blk t).view.emb (ix2 p q)) 1).isLt⟩ k) := fun k => by
    show V c main_v10 (((cfg0.win 1).blk t).view.emb (ix2 q k)) = _
    refine congrArg (V c main_v10) (funext fun a => Fin.ext ?_)
    match a with
    | ⟨0, _⟩ => show win0_1.index t (0 : Fin 2) * 1024 + 1 * q.val = win0_5.index t (1 : Fin 2) * 1024 + 1 * q.val; omega
    | ⟨1, _⟩ => show win0_1.index t (1 : Fin 2) * 2048 + 1 * k.val = k.val; omega
  have h2 : ∀ k : Fin 2048, iblk0 V c 2 t (ix2 q k)
      = V c main_v20 (ix2 ⟨((((cfg0.win 5).blk t).view.emb (ix2 p q)) 1).val, ((((cfg0.win 5).blk t).view.emb (ix2 p q)) 1).isLt⟩ k) := fun k => by
    show V c main_v20 (((cfg0.win 2).blk t).view.emb (ix2 q k)) = _
    refine congrArg (V c main_v20) (funext fun a => Fin.ext ?_)
    match a with
    | ⟨0, _⟩ => show win0_2.index t (0 : Fin 2) * 1024 + 1 * q.val = win0_5.index t (1 : Fin 2) * 1024 + 1 * q.val; omega
    | ⟨1, _⟩ => show win0_2.index t (1 : Fin 2) * 2048 + 1 * k.val = k.val; omega
  have h3 : iblk0 V c 3 t (ix2 (0 : Fin 1) (0 : Fin 1)) = V c main_v31 (ix2 (0 : Fin 1) (0 : Fin 1)) := by
    show V c main_v31 (((cfg0.win 3).blk t).view.emb (ix2 (0 : Fin 1) (0 : Fin 1))) = _
    refine congrArg (V c main_v31) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  have h4 : iblk0 V c 4 t (ix2 (0 : Fin 1) (0 : Fin 1)) = V c main_v32 (ix2 (0 : Fin 1) (0 : Fin 1)) := by
    show V c main_v32 (((cfg0.win 4).blk t).view.emb (ix2 (0 : Fin 1) (0 : Fin 1))) = _
    refine congrArg (V c main_v32) (funext fun a => Fin.ext ?_)
    match a with
    | ⟨0, _⟩ => show win0_4.index t (0 : Fin 2) * 1 + 1 * 0 = 0; omega
    | ⟨1, _⟩ => show win0_4.index t (1 : Fin 2) * 1 + 1 * 0 = 0; omega
  unfold hidArr hidEntry
  rw [funext h0, funext h1, funext h2, h3, h4]

/-- An index of the array is in point t's block iff each coordinate is in the block's range on its axis. -/
theorem mem_blk (t : Fin cfg0.N) (i : S4096x8192.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v34).slice (win0_5.rect t)).set ↔ _
  rw [View.set_slice_whole, Rect.mem_set_unit]
  exact Iff.rfl

/-- The output's blocks cover the hidden array. -/
theorem cover (i : S4096x8192.Idx) : ∃ t : Fin cfg0.N, (cfg0.win 5).flush t = true ∧ i ∈ ((cfg0.win 5).blk t).view.set := by
  have hi0 : (i 0).val < 4096 := (i 0).isLt
  have hi1 : (i 1).val < 8192 := (i 1).isLt
  obtain ⟨t, ht⟩ := idx_onto ⟨(i 0).val / 256, by omega⟩ ⟨(i 1).val / 1024, by omega⟩
  have q0 : win0_5.index t (0 : Fin 2) = (i 0).val / 256 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- The hidden array when the first region is left. -/
theorem final (c : Dev nD) : (dat0 V c).arrAt 5 cfg0.N = hidArr V c :=
  (dat0 V c).arrAt_eq_of_cover 5 (hidArr V c) (fun t _ => flushed_eq V c t) (cover)

end Cert.KernelIdeal.HiddenArray

end
-- ==== Proof.OutputBody.lean ====
/-
  The second kernel's body at an index.  A block holds 64 hidden rows, the row of normalization weights and 512 rows of the
  coded last weight matrix; the body divides each hidden row by its root mean square and weights it, takes the result's
  largest magnitude (floored), codes it, contracts the codes with the coded weight rows and rescales.  Entry (p, q) of what
  it stores is the quantized product of normalized hidden row p with weight row q.
-/
import proofs.«170676_j74139725463734_2_alg».proof.Proof.Gen.KernelIdeal.Frame
import proofs.«170676_j74139725463734_2_alg».proof.Proof.Spec
import proofs.«170676_j74139725463734_2_alg».proof.Proof.LibMatmulAt
import proofs.«170676_j74139725463734_2_alg».proof.Proof.LibRowReduce
import Idealize.ShloMosaic.Lib.ValueIdx
import Idealize.ShloMosaic.Lib.ValueLayout
import Idealize.ShloMosaic.Lib.Pipeline.Value
import Idealize.ShloMosaic.PureOps.IdealRules
import proofs.«170676_j74139725463734_2_alg».proof.Proof.BodyForms
import proofs.«170676_j74139725463734_2_alg».proof.Proof.HiddenBody

noncomputable section

namespace Cert.KernelIdeal.Output

open Cert.KernelIdeal Cert.KernelIdeal.Gen Idealize.ShloMosaic Idealize.ShloMosaic.ValueIdx Cert.BitMlp
open Cert.KernelIdeal.Hidden (inv127 roundeven_at absf_at rsqrt_at logistic_at)

section
variable (x0 : Vec Ideal S64x8192 .f32) (x1 : Vec Ideal S1x8192 .f32)

/-- The normalized, weighted hidden row p of the block at entry i. -/
theorem normed_at (p : Fin 64) (i : Fin 8192) :
    k1_pay2 x0 x1 (ix2 p i) = normed (fun i : Fin 8192 => x1 (ix2 (0 : Fin 1) i)) (fun i : Fin 8192 => x0 (ix2 p i)) i := by
  unfold k1_pay2
  try dsimp only
  rw [mulf_apply, mulf_apply, broadcastTo_1b_ab_apply, Cert.LibColumn.broadcastTo_a1_ab_apply, rsqrt_at, addf_apply, divf_apply,
    broadcast_apply, broadcast_apply, Cert.LibColumn.shapeCast_a_a1_apply]
  unfold normed rms
  refine congrArg₂ (· * ·) (by rw [shapeCast_self]) (congrArg₂ (· * ·) (by rw [shapeCast_self]) ?_)
  refine congrArg Ideal.rsqrt (congrArg (· + cRms) (congrArg (Ideal.div · cWid) ?_))
  refine (Cert.LibRowReduce.rowSum_apply _ _ _ _ _ p).trans (Finset.sum_congr rfl fun k _ => ?_)
  rw [mulf_apply, shapeCast_self]

/-- The row scale of the normalized row p. -/
theorem rowScale_at (p : Fin 64) (u : Fin 1) :
    k1_pay3 x0 x1 (ix2 p u)
      = amax (normed (fun i : Fin 8192 => x1 (ix2 (0 : Fin 1) i)) (fun i : Fin 8192 => x0 (ix2 p i))) := by
  unfold k1_pay3
  try dsimp only
  rw [maximumf_apply, broadcast_apply, Cert.LibColumn.shapeCast_a_a1_apply]
  refine congrArg (max _) ((Cert.LibRowReduce.rowMax_apply _ _ _ _ _ p).trans ?_)
  refine congrArg (fun f => (Finset.univ : Finset (Fin 8192)).fold max cBot f) (funext fun k => ?_)
  rw [absf_at, normed_at]

/-- The row's scale back. -/
theorem scale_at (p : Fin 64) (u : Fin 1) :
    k1_pay5 x0 x1 (ix2 p u)
      = amax (normed (fun i : Fin 8192 => x1 (ix2 (0 : Fin 1) i)) (fun i : Fin 8192 => x0 (ix2 p i))) * ((1 / 127 : ℝ) : EReal) := by
  unfold k1_pay5
  try dsimp only
  rw [mulf_apply, broadcast_apply, rowScale_at, inv127]

/-- The contraction of the normalized row's codes with row q of the coded weight block. -/
theorem dot_at (x2 : Vec Ideal S512x8192 .bf16) (p : Fin 64) (q : Fin 512) :
    k1_pay4 x0 x1 x2 (ix2 p q)
      = ∑ i : Fin 8192, code (amax (normed (fun i : Fin 8192 => x1 (ix2 (0 : Fin 1) i)) (fun i : Fin 8192 => x0 (ix2 p i))))
          (normed (fun i : Fin 8192 => x1 (ix2 (0 : Fin 1) i)) (fun i : Fin 8192 => x0 (ix2 p i)) i) * x2 (ix2 q i) := by
  unfold k1_pay4
  try dsimp only
  refine (Cert.LibMatmulAt.matmul_zero_apply _ rfl rfl rfl rfl rfl rfl none _ _ p q).trans ?_
  refine Finset.sum_congr rfl fun i _ => ?_
  rw [truncf_apply, minimumf_apply, maximumf_apply, roundeven_at, mulf_apply, Cert.LibColumn.broadcastTo_a1_ab_apply, divf_apply,
    rowScale_at, normed_at, transpose_ix2_apply, shapeCast_self]
  rfl

end

/-- What the body leaves at (p, q) of its output block: the quantized product of the normalized hidden row p with
    coded weight row q. -/
theorem out_at (x0 : Vec Ideal S64x8192 .f32) (x1 : Vec Ideal S1x8192 .f32) (x2 : Vec Ideal S512x8192 .bf16) (x3 : Vec Ideal S1x1 .f32)
    (p : Fin 64) (q : Fin 512) :
    out1_4 x0 x1 x2 x3 (ix2 p q)
      = outQ (fun i : Fin 8192 => x1 (ix2 (0 : Fin 1) i)) (fun i : Fin 8192 => x0 (ix2 p i)) (fun i : Fin 8192 => x2 (ix2 q i))
          (x3 (ix2 (0 : Fin 1) (0 : Fin 1))) := by
  have hz : (![0, 0] : Fin 2 → Nat) = fun _ => 0 := funext fun a => by fin_cases a <;> rfl
  unfold out1_4
  rw [View.canon_unit_zero hz]
  simp only [View.ld_unit_zero (S := S64x8192) hz, View.ld_unit_zero (S := S1x8192) hz, View.ld_unit_zero (S := S512x8192) hz,
    View.ld_unit_zero (S := S1x1) hz]
  unfold k1_pay1 k1_pay6
  try dsimp only
  rw [mulf_apply, Cert.LibColumn.broadcastTo_a1_ab_apply, mulf_apply, dot_at, scale_at, Cert.LibRowReduce.broadcastTo_11_ab_apply, shapeCast_self]
  rfl

end Cert.KernelIdeal.Output

end
-- ==== Proof.OutputArray.lean ====
/-
  From blocks to the output array.  Grid point (column block, row block) of the second kernel writes block (row block,
  column block) of the [4096, 2048] output; its hidden block is the row block's 64 rows, its weight block the column
  block's 512 rows, the row of normalization weights and the scale stay in place.  The 64 × 4 blocks tile the array, so
  after the region entry (r, o) is the quantized product of normalized hidden row r with weight row o.
-/
import proofs.«170676_j74139725463734_2_alg».proof.Proof.Gen.KernelIdeal.Frame
import proofs.«170676_j74139725463734_2_alg».proof.Proof.Spec
import proofs.«170676_j74139725463734_2_alg».proof.Proof.LibMatmulAt
import proofs.«170676_j74139725463734_2_alg».proof.Proof.LibRowReduce
import Idealize.ShloMosaic.Lib.ValueIdx
import Idealize.ShloMosaic.Lib.ValueLayout
import Idealize.ShloMosaic.Lib.Pipeline.Value
import Idealize.ShloMosaic.PureOps.IdealRules
import proofs.«170676_j74139725463734_2_alg».proof.Proof.BodyForms
import proofs.«170676_j74139725463734_2_alg».proof.Proof.OutputBody

noncomputable section

namespace Cert.KernelIdeal.OutputArray

open Cert.KernelIdeal Cert.KernelIdeal.Gen Idealize.ShloMosaic Idealize.ShloMosaic.TcCoe Idealize.ShloMosaic.ValueIdx Idealize.SL.Sem Cert.BitMlp
open Idealize.ShloMosaic.Pipeline (Dat)

-- the buffer contents when the second region is entered
variable (V : (c : Dev nD) → (b : Ref sig .tc) → Buf (Elt Ideal) ((c : Thread nD τ).loc b))

/-- Entry (r, o) of the output array from the region's entry contents: the normalized hidden row r against row o of
    the coded weight matrix, with the matrix scale. -/
def outEntry (c : Dev nD) (r : Fin 4096) (o : Fin 2048) : EReal :=
  outQ (fun i : Fin 8192 => V c main_v35 (ix2 (0 : Fin 1) i)) (fun i : Fin 8192 => V c main_v34 (ix2 r i)) (fun i : Fin 8192 => V c main_v30 (ix2 o i))
    (V c main_v33 (ix2 (0 : Fin 1) (0 : Fin 1)))

/-- The output array as one function of its index. -/
def outArr (c : Dev nD) : S4096x2048.Idx → EReal := fun j => outEntry V c ⟨(j 0).val, (j 0).isLt⟩ ⟨(j 1).val, (j 1).isLt⟩

theorem outArr_ix2 (c : Dev nD) (r : Fin 4096) (o : Fin 2048) : outArr V c (ix2 r o) = outEntry V c r o := rfl

/-- The windows' block indices over the grid: the hidden rows' block follows the output's row block, the weight block
    its column block, the row of weights and the scale stay put; the output's block indices stay in range. -/
theorem idx_facts : ∀ t : Fin cfg1.N, win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = win1_4.index t (1 : Fin 2) ∧ win1_2.index t (1 : Fin 2) = 0
    ∧ win1_3.index t (0 : Fin 2) = 0 ∧ win1_3.index t (1 : Fin 2) = 0
    ∧ win1_4.index t (0 : Fin 2) ≤ 63 ∧ win1_4.index t (1 : Fin 2) ≤ 3 :=
  (by decide +kernel : ∀ t : Fin grid1.N, _)

/-- Every block of the output is some point's. -/
theorem idx_onto : ∀ (q0 : Fin 64) (q1 : Fin 4), ∃ t : Fin cfg1.N, win1_4.index t = ![q0.val, q1.val] :=
  (by decide +kernel : ∀ (q0 : Fin 64) (q1 : Fin 4), ∃ t : Fin grid1.N, win1_4.index t = ![q0.val, q1.val])

/-- What point t writes back is block t of the output array. -/
theorem flushed_eq (c : Dev nD) (t : Fin cfg1.N) :
    (dat1 V c).flushed 4 t = ((cfg1.win 4).blk t).view.read (Elt Ideal) (outArr V c) := by
  show (cfg1.win 4).cut (grid1.coords t) ((dat1 V c).after 4 t) = _
  rw [after1_4]
  obtain ⟨e0, e1, e2, e3, e4, e5, e6, e7, e8, e9⟩ := idx_facts t
  funext y
  obtain ⟨p, q, rfl⟩ : ∃ (p : Fin 64) (q : Fin 512), y = ix2 p q := ⟨y 0, y 1, eq_ix2 y⟩
  show out1_4 (iblk1 V c 0 t) (iblk1 V c 1 t) (iblk1 V c 2 t) (iblk1 V c 3 t) (ix2 p q)
    = outArr V c (((cfg1.win 4).blk t).view.emb (ix2 p q))
  rw [Cert.KernelIdeal.Output.out_at]
  have hp := p.isLt
  have hq := q.isLt
  have h0 : ∀ i : Fin 8192, iblk1 V c 0 t (ix2 p i)
      = V c main_v34 (ix2 ⟨((((cfg1.win 4).blk t).view.emb (ix2 p q)) 0).val, ((((cfg1.win 4).blk t).view.emb (ix2 p q)) 0).isLt⟩ i) := fun i => by
    show V c main_v34 (((cfg1.win 0).blk t).view.emb (ix2 p i)) = _
    refine congrArg (V c main_v34) (funext fun a => Fin.ext ?_)
    match a with
    | ⟨0, _⟩ => show win1_0.index t (0 : Fin 2) * 64 + 1 * p.val = win1_4.index t (0 : Fin 2) * 64 + 1 * p.val; omega
    | ⟨1, _⟩ => show win1_0.index t (1 : Fin 2) * 8192 + 1 * i.val = i.val; omega
  have h1 : ∀ i : Fin 8192, iblk1 V c 1 t (ix2 (0 : Fin 1) i) = V c main_v35 (ix2 (0 : Fin 1) i) := fun i => by
    show V c main_v35 (((cfg1.win 1).blk t).view.emb (ix2 (0 : Fin 1) i)) = _
    refine congrArg (V c main_v35) (funext fun a => Fin.ext ?_)
    match a with
    | ⟨0, _⟩ => show win1_1.index t (0 : Fin 2) * 1 + 1 * 0 = 0; omega
    | ⟨1, _⟩ => show win1_1.index t (1 : Fin 2) * 8192 + 1 * i.val = i.val; omega
  have h2 : ∀ i : Fin 8192, iblk1 V c 2 t (ix2 q i)
      = V c main_v30 (ix2 ⟨((((cfg1.win 4).blk t).view.emb (ix2 p q)) 1).val, ((((cfg1.win 4).blk t).view.emb (ix2 p q)) 1).isLt⟩ i) := fun i => by
    show V c main_v30 (((cfg1.win 2).blk t).view.emb (ix2 q i)) = _
    refine congrArg (V c main_v30) (funext fun a => Fin.ext ?_)
    match a with
    | ⟨0, _⟩ => show win1_2.index t (0 : Fin 2) * 512 + 1 * q.val = win1_4.index t (1 : Fin 2) * 512 + 1 * q.val; omega
    | ⟨1, _⟩ => show win1_2.index t (1 : Fin 2) * 8192 + 1 * i.val = i.val; omega
  have h3 : iblk1 V c 3 t (ix2 (0 : Fin 1) (0 : Fin 1)) = V c main_v33 (ix2 (0 : Fin 1) (0 : Fin 1)) := by
    show V c main_v33 (((cfg1.win 3).blk t).view.emb (ix2 (0 : Fin 1) (0 : Fin 1))) = _
    refine congrArg (V c main_v33) (funext fun a => Fin.ext ?_)
    match a with
    | ⟨0, _⟩ => show win1_3.index t (0 : Fin 2) * 1 + 1 * 0 = 0; omega
    | ⟨1, _⟩ => show win1_3.index t (1 : Fin 2) * 1 + 1 * 0 = 0; omega
  unfold outArr outEntry
  rw [funext h0, funext h1, funext h2, h3]

/-- An index of the array is in point t's block iff each coordinate is in the block's range on its axis. -/
theorem mem_blk (t : Fin cfg1.N) (i : S4096x2048.Idx) :
    i ∈ ((cfg1.win 4).blk t).view.set ↔ ∀ a : Fin 2, win1_4.index t a * S64x512.size a ≤ (i a).val ∧ (i a).val < win1_4.index t a * S64x512.size a + S64x512.size a := by
  show i ∈ ((View.whole main_v36).slice (win1_4.rect t)).set ↔ _
  rw [View.set_slice_whole, Rect.mem_set_unit]
  exact Iff.rfl

/-- The output's blocks cover the output array. -/
theorem cover (i : S4096x2048.Idx) : ∃ t : Fin cfg1.N, (cfg1.win 4).flush t = true ∧ i ∈ ((cfg1.win 4).blk t).view.set := by
  have hi0 : (i 0).val < 4096 := (i 0).isLt
  have hi1 : (i 1).val < 2048 := (i 1).isLt
  obtain ⟨t, ht⟩ := idx_onto ⟨(i 0).val / 64, by omega⟩ ⟨(i 1).val / 512, by omega⟩
  have q0 : win1_4.index t (0 : Fin 2) = (i 0).val / 64 := congrFun ht 0
  have q1 : win1_4.index t (1 : Fin 2) = (i 1).val / 512 := congrFun ht 1
  refine ⟨t, flush1_4 t, ?_⟩
  rw [mem_blk]
  intro a
  match a with
  | ⟨0, _⟩ => show win1_4.index t (0 : Fin 2) * 64 ≤ (i 0).val ∧ (i 0).val < win1_4.index t (0 : Fin 2) * 64 + 64; omega
  | ⟨1, _⟩ => show win1_4.index t (1 : Fin 2) * 512 ≤ (i 1).val ∧ (i 1).val < win1_4.index t (1 : Fin 2) * 512 + 512; omega

/-- The output array when the second region is left. -/
theorem final (c : Dev nD) : (dat1 V c).arrAt 4 cfg1.N = outArr V c :=
  (dat1 V c).arrAt_eq_of_cover 4 (outArr V c) (fun t _ => flushed_eq V c t) (cover)

end Cert.KernelIdeal.OutputArray

end
-- ==== Proof.KernelValue.lean ====
import proofs.«170676_j74139725463734_2_alg».proof.Proof.Gen.KernelIdeal.Frame
import proofs.«170676_j74139725463734_2_alg».proof.Proof.Spec
import proofs.«170676_j74139725463734_2_alg».proof.Proof.LibMatmulAt
import proofs.«170676_j74139725463734_2_alg».proof.Proof.LibRowReduce
import Idealize.ShloMosaic.Lib.ValueIdx
import Idealize.ShloMosaic.Lib.ValueLayout
import Idealize.ShloMosaic.Lib.Pipeline.Value
import Idealize.ShloMosaic.PureOps.IdealRules
import proofs.«170676_j74139725463734_2_alg».proof.Proof.HostQuant
import proofs.«170676_j74139725463734_2_alg».proof.Proof.BodyForms
import proofs.«170676_j74139725463734_2_alg».proof.Proof.KernelHost
import proofs.«170676_j74139725463734_2_alg».proof.Proof.HiddenArray
import proofs.«170676_j74139725463734_2_alg».proof.Proof.OutputArray

noncomputable section

/-
  The idealized kernel's result at an index, as one function of the argument arrays: the output entry (b, s, o) is the
  quantized product of the normalized hidden row of token (b, s) with weight row o, the hidden row's entry i the gated
  pair of quantized products of the token's activations with rows i of the two first-layer matrices.  The first region
  leaves the hidden array, the second reads it back; the host operations before, between and after only flatten the
  tokens to rows, code the weights and put the rows back.
-/
namespace Cert.KernelIdeal.Result

open Cert.KernelIdeal Cert.KernelIdeal.Gen Idealize.ShloMosaic Idealize.ShloMosaic.TcCoe Idealize.ShloMosaic.ValueIdx Idealize.SL.Sem Cert.BitMlp
open Cert.KernelIdeal.HostSide

variable (m : (ℓ : Loc nD τ sig) → Buf (Elt Ideal) ℓ) (ρ : Dev nD → PrngReg) (c : Dev nD)

/-- The row of token (b, s). -/
def tok (b : Fin 2) (s : Fin 2048) : Fin 4096 := ⟨b.val * 2048 + s.val, by have := b.isLt; have := s.isLt; omega⟩

/-- The flattened activations at (row of (b, s), k) are the activations at (b, s, k). -/
theorem act_read (b : Fin 2) (s k : Fin 2048) :
    V19 m ρ c main_v0 (ix2 (tok b s) k) = m ((c : Thread nD τ).loc main_arg0) (ix3 b s k) := by
  show W19 m ρ c (Proc.devRef .tc main_v0) (ix2 (tok b s) k) = _
  rw [v0_eq]
  refine shapeCast_apply _ _ _ _ ?_
  show (S2x2048x2048.rowMajor (ix3 b s k)).val = (S4096x2048.rowMajor (ix2 (tok b s) k)).val
  rw [Shape.rowMajor_val_three, Shape.rowMajor_val_two]
  rfl

/-- The coded first weight matrix at (i, k). -/
theorem wg_read (i : Fin 8192) (k : Fin 2048) :
    V19 m ρ c main_v10 (ix2 i k)
      = tern (absMean (ι := (⟨2, ![8192, 2048]⟩ : Shape).Idx) (m ((c : Thread nD τ).loc main_arg1))) (m ((c : Thread nD τ).loc main_arg1) (ix2 i k)) := by
  show W19 m ρ c (Proc.devRef .tc main_v10) (ix2 i k) = _
  rw [v10_eq, truncf_apply]
  exact ternVec_at _ _ _ _ _

theorem wu_read (i : Fin 8192) (k : Fin 2048) :
    V19 m ρ c main_v20 (ix2 i k)
      = tern (absMean (ι := (⟨2, ![8192, 2048]⟩ : Shape).Idx) (m ((c : Thread nD τ).loc main_arg2))) (m ((c : Thread nD τ).loc main_arg2) (ix2 i k)) := by
  show W19 m ρ c (Proc.devRef .tc main_v20) (ix2 i k) = _
  rw [v20_eq, truncf_apply]
  exact ternVec_at _ _ _ _ _

theorem wd_read (o : Fin 2048) (i : Fin 8192) :
    V21 m ρ c main_v30 (ix2 o i)
      = tern (absMean (ι := (⟨2, ![2048, 8192]⟩ : Shape).Idx) (m ((c : Thread nD τ).loc main_arg3))) (m ((c : Thread nD τ).loc main_arg3) (ix2 o i)) := by
  show W21 m ρ c (Proc.devRef .tc main_v30) (ix2 o i) = _
  rw [w21_v30, v30_eq, truncf_apply]
  exact ternVec_at _ _ _ _ _

/-- The three matrix scales, each held as a 1 × 1 array. -/
theorem sg_read : V19 m ρ c main_v31 (ix2 (0 : Fin 1) (0 : Fin 1))
    = absMean (ι := (⟨2, ![8192, 2048]⟩ : Shape).Idx) (m ((c : Thread nD τ).loc main_arg1)) := by
  show W19 m ρ c (Proc.devRef .tc main_v31) (ix2 (0 : Fin 1) (0 : Fin 1)) = _
  rw [v31_eq]
  refine (shapeCast_apply _ _ _ (fun a => a.elim0) rfl).trans ?_
  exact scaleVec_at _ _ _ _

theorem su_read : V19 m ρ c main_v32 (ix2 (0 : Fin 1) (0 : Fin 1))
    = absMean (ι := (⟨2, ![8192, 2048]⟩ : Shape).Idx) (m ((c : Thread nD τ).loc main_arg2)) := by
  show W19 m ρ c (Proc.devRef .tc main_v32) (ix2 (0 : Fin 1) (0 : Fin 1)) = _
  rw [v32_eq]
  refine (shapeCast_apply _ _ _ (fun a => a.elim0) rfl).trans ?_
  exact scaleVec_at _ _ _ _

theorem sd_read : V21 m ρ c main_v33 (ix2 (0 : Fin 1) (0 : Fin 1))
    = absMean (ι := (⟨2, ![2048, 8192]⟩ : Shape).Idx) (m ((c : Thread nD τ).loc main_arg3)) := by
  show W21 m ρ c (Proc.devRef .tc main_v33) (ix2 (0 : Fin 1) (0 : Fin 1)) = _
  rw [w21_v33, v33_eq]
  refine (shapeCast_apply _ _ _ (fun a => a.elim0) rfl).trans ?_
  exact scaleVec_at _ _ _ _

/-- The normalization weights held as a row. -/
theorem ln_read (i : Fin 8192) :
    V21 m ρ c main_v35 (ix2 (0 : Fin 1) i) = m ((c : Thread nD τ).loc main_arg4) (ix1 i) := by
  show W21 m ρ c (Proc.devRef .tc main_v35) (ix2 (0 : Fin 1) i) = _
  rw [w21_v35]
  refine shapeCast_apply _ _ _ _ ?_
  show (S8192.rowMajor (ix1 i)).val = (S1x8192.rowMajor (ix2 (0 : Fin 1) i)).val
  rw [Shape.rowMajor_val_one, Shape.rowMajor_val_two]
  show i.val = 0 * 8192 + i.val
  omega

/-- The hidden array the second region finds, at (row of (b, s), i). -/
theorem hid_read (b : Fin 2) (s : Fin 2048) (i : Fin 8192) :
    V21 m ρ c main_v34 (ix2 (tok b s) i)
      = hidK (fun k : Fin 2048 => m ((c : Thread nD τ).loc main_arg0) (ix3 b s k))
          (fun k : Fin 2048 => m ((c : Thread nD τ).loc main_arg1) (ix2 i k)) (fun k : Fin 2048 => m ((c : Thread nD τ).loc main_arg2) (ix2 i k))
          (absMean (ι := (⟨2, ![8192, 2048]⟩ : Shape).Idx) (m ((c : Thread nD τ).loc main_arg1)))
          (absMean (ι := (⟨2, ![8192, 2048]⟩ : Shape).Idx) (m ((c : Thread nD τ).loc main_arg2))) := by
  show W21 m ρ c (Proc.devRef .tc main_v34) (ix2 (tok b s) i) = _
  rw [w21_v34, Cert.KernelIdeal.HiddenArray.final, Cert.KernelIdeal.HiddenArray.hidArr_ix2, hidK_eq_hidQ]
  unfold Cert.KernelIdeal.HiddenArray.hidEntry
  rw [funext (act_read m ρ c b s), funext (wg_read m ρ c i), funext (wu_read m ρ c i), sg_read, su_read]

/-- THE RESULT at (b, s, o). -/
theorem result_at (b : Fin 2) (s o : Fin 2048) :
    W23 m ρ c (Proc.devRef .tc main_v37) (ix3 b s o)
      = outK (fun i : Fin 8192 => m ((c : Thread nD τ).loc main_arg4) (ix1 i))
          (fun i : Fin 8192 => hidK (fun k : Fin 2048 => m ((c : Thread nD τ).loc main_arg0) (ix3 b s k))
            (fun k : Fin 2048 => m ((c : Thread nD τ).loc main_arg1) (ix2 i k)) (fun k : Fin 2048 => m ((c : Thread nD τ).loc main_arg2) (ix2 i k))
            (absMean (ι := (⟨2, ![8192, 2048]⟩ : Shape).Idx) (m ((c : Thread nD τ).loc main_arg1)))
            (absMean (ι := (⟨2, ![8192, 2048]⟩ : Shape).Idx) (m ((c : Thread nD τ).loc main_arg2))))
          (fun i : Fin 8192 => m ((c : Thread nD τ).loc main_arg3) (ix2 o i))
          (absMean (ι := (⟨2, ![2048, 8192]⟩ : Shape).Idx) (m ((c : Thread nD τ).loc main_arg3))) := by
  rw [w23_v37]
  have hrow : shapeCast S2x2048x2048 ((dat1 (V21 m ρ) c).arrAt 4 cfg1.N) shapeCasts_S4096x2048_S2x2048x2048 (ix3 b s o)
      = (dat1 (V21 m ρ) c).arrAt 4 cfg1.N (ix2 (tok b s) o) := by
    refine shapeCast_apply _ _ _ _ ?_
    show (S4096x2048.rowMajor (ix2 (tok b s) o)).val = (S2x2048x2048.rowMajor (ix3 b s o)).val
    rw [Shape.rowMajor_val_three, Shape.rowMajor_val_two]
    rfl
  rw [hrow, Cert.KernelIdeal.OutputArray.final, Cert.KernelIdeal.OutputArray.outArr_ix2, outK_eq_outQ]
  unfold Cert.KernelIdeal.OutputArray.outEntry
  rw [funext (ln_read m ρ c), funext (hid_read m ρ c b s), funext (wd_read m ρ c o), sd_read]

end Cert.KernelIdeal.Result

end
-- ==== Proof.RefStages.lean ====
/-
  The reference program's fold of 182 operations, read a stretch at a time.

  The operations are cut into consecutive stretches along the program's structure.  For an arbitrary valuation
  before a stretch, the stretch's result buffer holds that operation's stage (a small term over the earlier stages),
  given that the few buffers the stretch reads hold their stages; and the buffers later stretches still read keep
  their contents.  Chaining the stretches from the launch contents gives the last stage at the last buffer.
-/
import proofs.«170676_j74139725463734_2_alg».proof.Proof.RefRunP
import proofs.«170676_j74139725463734_2_alg».proof.Proof.RefReadP
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ### The stretches -/

/-- operations 1–26: the row operand's integer codes, rescaled entry by entry -/
abbrev c1 : List (HloOp τ sig (Elt F)) :=
  [ unary main_arg0 main_v0 (Host.absf : (⟨S2x2048x2048, .f32⟩ : BufTy).Contents (Elt F) → (⟨S2x2048x2048, .f32⟩ : BufTy).Contents (Elt F)),
    nullary main_cst (constant S_ .f32 0xFF800000#32),
    binary main_v0 main_cst main_v1 ((fun x v => Host.reduce FloatOps.maximumf x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    unary main_v1 main_v2 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S2x2048x1, .f32⟩) main_call0_v1) (broadcastInDim S2x2048x1 ![] bcast_S_S2x2048x1),
    TRef.binary (TRef.of (T := ⟨S2x2048x1, .f32⟩) main_call0_v1) (TRef.of (T := ⟨S2x2048x1, .f32⟩) main_v2) (TRef.of (T := ⟨S2x2048x1, .f32⟩) main_v3) maximumf,
    nullary main_cst_1 (constant S_ .f32 0x42FE0000#32),
    unary main_cst_1 main_v4 (broadcastInDim S2x2048x1 ![] bcast_S_S2x2048x1 : (⟨S_, .f32⟩ : BufTy).Contents (Elt F) → (⟨S2x2048x1, .f32⟩ : BufTy).Contents (Elt F)),
    binary main_v4 main_v3 main_v5 (Host.divf : (⟨S2x2048x1, .f32⟩ : BufTy).Contents (Elt F) → (⟨S2x2048x1, .f32⟩ : BufTy).Contents (Elt F) → (⟨S2x2048x1, .f32⟩ : BufTy).Contents (Elt F)),
    unary main_v5 main_v6 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_arg0 main_v6 main_v7 (mulf : (⟨S2x2048x2048, .f32⟩ : BufTy).Contents (Elt F) → (⟨S2x2048x2048, .f32⟩ : BufTy).Contents (Elt F) → (⟨S2x2048x2048, .f32⟩ : BufTy).Contents (Elt F)),
    TRef.unary (TRef.of (T := ⟨S2x2048x2048, .f32⟩) main_v7) (TRef.of (T := ⟨S2x2048x2048, .f32⟩) main_v8) Host.roundeven,
    nullary main_c (constantI S_ 32 4294967168#32),
    nullary main_c_2 (constantI S_ 32 127#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S2x2048x2048, .f32⟩) main_call2_v1) (broadcastInDim S2x2048x2048 ![] bcast_S_S2x2048x2048),
    TRef.binary (TRef.of (T := ⟨S2x2048x2048, .f32⟩) main_call2_v1) (TRef.of (T := ⟨S2x2048x2048, .f32⟩) main_v8) (TRef.of (T := ⟨S2x2048x2048, .f32⟩) main_call2_v2) maximumf,
    TRef.unary (TRef.of (T := ⟨S_, .i32⟩) main_c_2) (TRef.of (T := ⟨S_, .f32⟩) main_call2_v3) (sitofp .f32),
    TRef.unary (TRef.of (T := ⟨S_, .f32⟩) main_call2_v3) (TRef.of (T := ⟨S2x2048x2048, .f32⟩) main_call2_v4) (broadcastInDim S2x2048x2048 ![] bcast_S_S2x2048x2048),
    TRef.binary (TRef.of (T := ⟨S2x2048x2048, .f32⟩) main_call2_v4) (TRef.of (T := ⟨S2x2048x2048, .f32⟩) main_call2_v2) (TRef.of (T := ⟨S2x2048x2048, .f32⟩) main_v9) minimumf,
    unary main_v5 main_v10 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_v9 main_v10 main_v11 (Host.divf : (⟨S2x2048x2048, .f32⟩ : BufTy).Contents (Elt F) → (⟨S2x2048x2048, .f32⟩ : BufTy).Contents (Elt F) → (⟨S2x2048x2048, .f32⟩ : BufTy).Contents (Elt F)),
    binary main_v11 main_arg0 main_v12 (subf : (⟨S2x2048x2048, .f32⟩ : BufTy).Contents (Elt F) → (⟨S2x2048x2048, .f32⟩ : BufTy).Contents (Elt F) → (⟨S2x2048x2048, .f32⟩ : BufTy).Contents (Elt F)),
    binary main_arg0 main_v12 main_v13 (addf : (⟨S2x2048x2048, .f32⟩ : BufTy).Contents (Elt F) → (⟨S2x2048x2048, .f32⟩ : BufTy).Contents (Elt F) → (⟨S2x2048x2048, .f32⟩ : BufTy).Contents (Elt F)) ]

/-- operations 27–51: the gate weights' ternary codes, rescaled entry by entry -/
abbrev c2 : List (HloOp τ sig (Elt F)) :=
  [ unary main_arg1 main_v14 (Host.absf : (⟨S8192x2048, .f32⟩ : BufTy).Contents (Elt F) → (⟨S8192x2048, .f32⟩ : BufTy).Contents (Elt F)),
    nullary main_cst_3 (constant S_ .f32 0x00000000#32),
    binary main_v14 main_cst_3 main_v15 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)),
    nullary main_cst_4 (constant S_ .f32 0x4B800000#32),
    binary main_v15 main_cst_4 main_v16 (Host.divf : (⟨S_, .f32⟩ : BufTy).Contents (Elt F) → (⟨S_, .f32⟩ : BufTy).Contents (Elt F) → (⟨S_, .f32⟩ : BufTy).Contents (Elt F)),
    nullary main_cst_5 (constant S_ .f32 0x3727C5AC#32),
    TRef.unary (TRef.of (T := ⟨S_, .f32⟩) main_cst_5) (TRef.of (T := ⟨S_, .f32⟩) main_call3_v0) id,
    TRef.binary (TRef.of (T := ⟨S_, .f32⟩) main_call3_v0) (TRef.of (T := ⟨S_, .f32⟩) main_v16) (TRef.of (T := ⟨S_, .f32⟩) main_v17) maximumf,
    nullary main_cst_6 (constant S_ .f32 0x3F800000#32),
    binary main_cst_6 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S8192x2048 ![] bcast_S_S8192x2048 : (⟨S_, .f32⟩ : BufTy).Contents (Elt F) → (⟨S8192x2048, .f32⟩ : BufTy).Contents (Elt F)),
    binary main_arg1 main_v19 main_v20 (mulf : (⟨S8192x2048, .f32⟩ : BufTy).Contents (Elt F) → (⟨S8192x2048, .f32⟩ : BufTy).Contents (Elt F) → (⟨S8192x2048, .f32⟩ : BufTy).Contents (Elt F)),
    TRef.unary (TRef.of (T := ⟨S8192x2048, .f32⟩) main_v20) (TRef.of (T := ⟨S8192x2048, .f32⟩) main_v21) Host.roundeven,
    nullary main_cst_7 (constant S_ .f32 0xBF800000#32),
    nullary main_cst_8 (constant S_ .f32 0x3F800000#32),
    TRef.unary (TRef.of (T := ⟨S_, .f32⟩) main_cst_7) (TRef.of (T := ⟨S_, .f32⟩) main_call5_v0) id,
    TRef.unary (TRef.of (T := ⟨S_, .f32⟩) main_call5_v0) (TRef.of (T := ⟨S8192x2048, .f32⟩) main_call5_v1) (broadcastInDim S8192x2048 ![] bcast_S_S8192x2048),
    TRef.binary (TRef.of (T := ⟨S8192x2048, .f32⟩) main_call5_v1) (TRef.of (T := ⟨S8192x2048, .f32⟩) main_v21) (TRef.of (T := ⟨S8192x2048, .f32⟩) main_call5_v2) maximumf,
    TRef.unary (TRef.of (T := ⟨S_, .f32⟩) main_cst_8) (TRef.of (T := ⟨S_, .f32⟩) main_call5_v3) id,
    TRef.unary (TRef.of (T := ⟨S_, .f32⟩) main_call5_v3) (TRef.of (T := ⟨S8192x2048, .f32⟩) main_call5_v4) (broadcastInDim S8192x2048 ![] bcast_S_S8192x2048),
    TRef.binary (TRef.of (T := ⟨S8192x2048, .f32⟩) main_call5_v4) (TRef.of (T := ⟨S8192x2048, .f32⟩) main_call5_v2) (TRef.of (T := ⟨S8192x2048, .f32⟩) main_v22) minimumf,
    unary main_v18 main_v23 (broadcastInDim S8192x2048 ![] bcast_S_S8192x2048 : (⟨S_, .f32⟩ : BufTy).Contents (Elt F) → (⟨S8192x2048, .f32⟩ : BufTy).Contents (Elt F)),
    binary main_v22 main_v23 main_v24 (Host.divf : (⟨S8192x2048, .f32⟩ : BufTy).Contents (Elt F) → (⟨S8192x2048, .f32⟩ : BufTy).Contents (Elt F) → (⟨S8192x2048, .f32⟩ : BufTy).Contents (Elt F)),
    binary main_v24 main_arg1 main_v25 (subf : (⟨S8192x2048, .f32⟩ : BufTy).Contents (Elt F) → (⟨S8192x2048, .f32⟩ : BufTy).Contents (Elt F) → (⟨S8192x2048, .f32⟩ : BufTy).Contents (Elt F)),
    binary main_arg1 main_v25 main_v26 (addf : (⟨S8192x2048, .f32⟩ : BufTy).Contents (Elt F) → (⟨S8192x2048, .f32⟩ : BufTy).Contents (Elt F) → (⟨S8192x2048, .f32⟩ : BufTy).Contents (Elt F)) ]

/-- operations 52–61: the gate product and its logistic gate -/
abbrev c3 : List (HloOp τ sig (Elt F)) :=
  [ binary main_v13 main_v26 main_v27 ((fun l r => Host.dotGeneral dot_S2x2048x2048_S8192x2048_S2x2048x8192_2_1_01_0_n_n none l r) : (⟨S2x2048x2048, .f32⟩ : BufTy).Contents (Elt F) → (⟨S8192x2048, .f32⟩ : BufTy).Contents (Elt F) → (⟨S2x2048x8192, .f32⟩ : BufTy).Contents (Elt F)),
    TRef.unary (TRef.of (T := ⟨S2x2048x8192, .f32⟩) main_v27) (TRef.of (T := ⟨S2x2048x8192, .f32⟩) main_call6_v0) Host.negf,
    TRef.unary (TRef.of (T := ⟨S2x2048x8192, .f32⟩) main_call6_v0) (TRef.of (T := ⟨S2x2048x8192, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S2x2048x8192, .f32⟩) main_call6_v2) (broadcastInDim S2x2048x8192 ![] bcast_S_S2x2048x8192),
    TRef.binary (TRef.of (T := ⟨S2x2048x8192, .f32⟩) main_call6_v2) (TRef.of (T := ⟨S2x2048x8192, .f32⟩) main_call6_v1) (TRef.of (T := ⟨S2x2048x8192, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S2x2048x8192, .f32⟩) main_call6_v4) (broadcastInDim S2x2048x8192 ![] bcast_S_S2x2048x8192),
    TRef.binary (TRef.of (T := ⟨S2x2048x8192, .f32⟩) main_call6_v4) (TRef.of (T := ⟨S2x2048x8192, .f32⟩) main_call6_v3) (TRef.of (T := ⟨S2x2048x8192, .f32⟩) main_call6_v5) Host.divf,
    TRef.binary (TRef.of (T := ⟨S2x2048x8192, .f32⟩) main_v27) (TRef.of (T := ⟨S2x2048x8192, .f32⟩) main_call6_v5) (TRef.of (T := ⟨S2x2048x8192, .f32⟩) main_v28) mulf ]

/-- operations 62–87: the row operand's integer codes again -/
abbrev c4 : List (HloOp τ sig (Elt F)) :=
  [ unary main_arg0 main_v29 (Host.absf : (⟨S2x2048x2048, .f32⟩ : BufTy).Contents (Elt F) → (⟨S2x2048x2048, .f32⟩ : BufTy).Contents (Elt F)),
    nullary main_cst_9 (constant S_ .f32 0xFF800000#32),
    binary main_v29 main_cst_9 main_v30 ((fun x v => Host.reduce FloatOps.maximumf x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    unary main_v30 main_v31 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_10 (constant S_ .f32 0x3727C5AC#32),
    TRef.unary (TRef.of (T := ⟨S_, .f32⟩) main_cst_10) (TRef.of (T := ⟨S_, .f32⟩) main_call7_v0) id,
    TRef.unary (TRef.of (T := ⟨S_, .f32⟩) main_call7_v0) (TRef.of (T := ⟨S2x2048x1, .f32⟩) main_call7_v1) (broadcastInDim S2x2048x1 ![] bcast_S_S2x2048x1),
    TRef.binary (TRef.of (T := ⟨S2x2048x1, .f32⟩) main_call7_v1) (TRef.of (T := ⟨S2x2048x1, .f32⟩) main_v31) (TRef.of (T := ⟨S2x2048x1, .f32⟩) main_v32) maximumf,
    nullary main_cst_11 (constant S_ .f32 0x42FE0000#32),
    unary main_cst_11 main_v33 (broadcastInDim S2x2048x1 ![] bcast_S_S2x2048x1 : (⟨S_, .f32⟩ : BufTy).Contents (Elt F) → (⟨S2x2048x1, .f32⟩ : BufTy).Contents (Elt F)),
    binary main_v33 main_v32 main_v34 (Host.divf : (⟨S2x2048x1, .f32⟩ : BufTy).Contents (Elt F) → (⟨S2x2048x1, .f32⟩ : BufTy).Contents (Elt F) → (⟨S2x2048x1, .f32⟩ : BufTy).Contents (Elt F)),
    unary main_v34 main_v35 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_arg0 main_v35 main_v36 (mulf : (⟨S2x2048x2048, .f32⟩ : BufTy).Contents (Elt F) → (⟨S2x2048x2048, .f32⟩ : BufTy).Contents (Elt F) → (⟨S2x2048x2048, .f32⟩ : BufTy).Contents (Elt F)),
    TRef.unary (TRef.of (T := ⟨S2x2048x2048, .f32⟩) main_v36) (TRef.of (T := ⟨S2x2048x2048, .f32⟩) main_v37) Host.roundeven,
    nullary main_c_12 (constantI S_ 32 4294967168#32),
    nullary main_c_13 (constantI S_ 32 127#32),
    TRef.unary (TRef.of (T := ⟨S_, .i32⟩) main_c_12) (TRef.of (T := ⟨S_, .f32⟩) main_call9_v0) (sitofp .f32),
    TRef.unary (TRef.of (T := ⟨S_, .f32⟩) main_call9_v0) (TRef.of (T := ⟨S2x2048x2048, .f32⟩) main_call9_v1) (broadcastInDim S2x2048x2048 ![] bcast_S_S2x2048x2048),
    TRef.binary (TRef.of (T := ⟨S2x2048x2048, .f32⟩) main_call9_v1) (TRef.of (T := ⟨S2x2048x2048, .f32⟩) main_v37) (TRef.of (T := ⟨S2x2048x2048, .f32⟩) main_call9_v2) maximumf,
    TRef.unary (TRef.of (T := ⟨S_, .i32⟩) main_c_13) (TRef.of (T := ⟨S_, .f32⟩) main_call9_v3) (sitofp .f32),
    TRef.unary (TRef.of (T := ⟨S_, .f32⟩) main_call9_v3) (TRef.of (T := ⟨S2x2048x2048, .f32⟩) main_call9_v4) (broadcastInDim S2x2048x2048 ![] bcast_S_S2x2048x2048),
    TRef.binary (TRef.of (T := ⟨S2x2048x2048, .f32⟩) main_call9_v4) (TRef.of (T := ⟨S2x2048x2048, .f32⟩) main_call9_v2) (TRef.of (T := ⟨S2x2048x2048, .f32⟩) main_v38) minimumf,
    unary main_v34 main_v39 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_v38 main_v39 main_v40 (Host.divf : (⟨S2x2048x2048, .f32⟩ : BufTy).Contents (Elt F) → (⟨S2x2048x2048, .f32⟩ : BufTy).Contents (Elt F) → (⟨S2x2048x2048, .f32⟩ : BufTy).Contents (Elt F)),
    binary main_v40 main_arg0 main_v41 (subf : (⟨S2x2048x2048, .f32⟩ : BufTy).Contents (Elt F) → (⟨S2x2048x2048, .f32⟩ : BufTy).Contents (Elt F) → (⟨S2x2048x2048, .f32⟩ : BufTy).Contents (Elt F)),
    binary main_arg0 main_v41 main_v42 (addf : (⟨S2x2048x2048, .f32⟩ : BufTy).Contents (Elt F) → (⟨S2x2048x2048, .f32⟩ : BufTy).Contents (Elt F) → (⟨S2x2048x2048, .f32⟩ : BufTy).Contents (Elt F)) ]

/-- operations 88–112: the up weights' ternary codes, rescaled -/
abbrev c5 : List (HloOp τ sig (Elt F)) :=
  [ unary main_arg2 main_v43 (Host.absf : (⟨S8192x2048, .f32⟩ : BufTy).Contents (Elt F) → (⟨S8192x2048, .f32⟩ : BufTy).Contents (Elt F)),
    nullary main_cst_14 (constant S_ .f32 0x00000000#32),
    binary main_v43 main_cst_14 main_v44 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)),
    nullary main_cst_15 (constant S_ .f32 0x4B800000#32),
    binary main_v44 main_cst_15 main_v45 (Host.divf : (⟨S_, .f32⟩ : BufTy).Contents (Elt F) → (⟨S_, .f32⟩ : BufTy).Contents (Elt F) → (⟨S_, .f32⟩ : BufTy).Contents (Elt F)),
    nullary main_cst_16 (constant S_ .f32 0x3727C5AC#32),
    TRef.unary (TRef.of (T := ⟨S_, .f32⟩) main_cst_16) (TRef.of (T := ⟨S_, .f32⟩) main_call10_v0) id,
    TRef.binary (TRef.of (T := ⟨S_, .f32⟩) main_call10_v0) (TRef.of (T := ⟨S_, .f32⟩) main_v45) (TRef.of (T := ⟨S_, .f32⟩) main_v46) maximumf,
    nullary main_cst_17 (constant S_ .f32 0x3F800000#32),
    binary main_cst_17 main_v46 main_v47 (Host.divf : (⟨S_, .f32⟩ : BufTy).Contents (Elt F) → (⟨S_, .f32⟩ : BufTy).Contents (Elt F) → (⟨S_, .f32⟩ : BufTy).Contents (Elt F)),
    unary main_v47 main_v48 (broadcastInDim S8192x2048 ![] bcast_S_S8192x2048 : (⟨S_, .f32⟩ : BufTy).Contents (Elt F) → (⟨S8192x2048, .f32⟩ : BufTy).Contents (Elt F)),
    binary main_arg2 main_v48 main_v49 (mulf : (⟨S8192x2048, .f32⟩ : BufTy).Contents (Elt F) → (⟨S8192x2048, .f32⟩ : BufTy).Contents (Elt F) → (⟨S8192x2048, .f32⟩ : BufTy).Contents (Elt F)),
    TRef.unary (TRef.of (T := ⟨S8192x2048, .f32⟩) main_v49) (TRef.of (T := ⟨S8192x2048, .f32⟩) main_v50) Host.roundeven,
    nullary main_cst_18 (constant S_ .f32 0xBF800000#32),
    nullary main_cst_19 (constant S_ .f32 0x3F800000#32),
    TRef.unary (TRef.of (T := ⟨S_, .f32⟩) main_cst_18) (TRef.of (T := ⟨S_, .f32⟩) main_call12_v0) id,
    TRef.unary (TRef.of (T := ⟨S_, .f32⟩) main_call12_v0) (TRef.of (T := ⟨S8192x2048, .f32⟩) main_call12_v1) (broadcastInDim S8192x2048 ![] bcast_S_S8192x2048),
    TRef.binary (TRef.of (T := ⟨S8192x2048, .f32⟩) main_call12_v1) (TRef.of (T := ⟨S8192x2048, .f32⟩) main_v50) (TRef.of (T := ⟨S8192x2048, .f32⟩) main_call12_v2) maximumf,
    TRef.unary (TRef.of (T := ⟨S_, .f32⟩) main_cst_19) (TRef.of (T := ⟨S_, .f32⟩) main_call12_v3) id,
    TRef.unary (TRef.of (T := ⟨S_, .f32⟩) main_call12_v3) (TRef.of (T := ⟨S8192x2048, .f32⟩) main_call12_v4) (broadcastInDim S8192x2048 ![] bcast_S_S8192x2048),
    TRef.binary (TRef.of (T := ⟨S8192x2048, .f32⟩) main_call12_v4) (TRef.of (T := ⟨S8192x2048, .f32⟩) main_call12_v2) (TRef.of (T := ⟨S8192x2048, .f32⟩) main_v51) minimumf,
    unary main_v47 main_v52 (broadcastInDim S8192x2048 ![] bcast_S_S8192x2048 : (⟨S_, .f32⟩ : BufTy).Contents (Elt F) → (⟨S8192x2048, .f32⟩ : BufTy).Contents (Elt F)),
    binary main_v51 main_v52 main_v53 (Host.divf : (⟨S8192x2048, .f32⟩ : BufTy).Contents (Elt F) → (⟨S8192x2048, .f32⟩ : BufTy).Contents (Elt F) → (⟨S8192x2048, .f32⟩ : BufTy).Contents (Elt F)),
    binary main_v53 main_arg2 main_v54 (subf : (⟨S8192x2048, .f32⟩ : BufTy).Contents (Elt F) → (⟨S8192x2048, .f32⟩ : BufTy).Contents (Elt F) → (⟨S8192x2048, .f32⟩ : BufTy).Contents (Elt F)),
    binary main_arg2 main_v54 main_v55 (addf : (⟨S8192x2048, .f32⟩ : BufTy).Contents (Elt F) → (⟨S8192x2048, .f32⟩ : BufTy).Contents (Elt F) → (⟨S8192x2048, .f32⟩ : BufTy).Contents (Elt F)) ]

/-- operations 113–114: the up product, and the gated product -/
abbrev c6 : List (HloOp τ sig (Elt F)) :=
  [ binary main_v42 main_v55 main_v56 ((fun l r => Host.dotGeneral dot_S2x2048x2048_S8192x2048_S2x2048x8192_2_1_01_0_n_n none l r) : (⟨S2x2048x2048, .f32⟩ : BufTy).Contents (Elt F) → (⟨S8192x2048, .f32⟩ : BufTy).Contents (Elt F) → (⟨S2x2048x8192, .f32⟩ : BufTy).Contents (Elt F)),
    binary main_v28 main_v56 main_v57 (mulf : (⟨S2x2048x8192, .f32⟩ : BufTy).Contents (Elt F) → (⟨S2x2048x8192, .f32⟩ : BufTy).Contents (Elt F) → (⟨S2x2048x8192, .f32⟩ : BufTy).Contents (Elt F)) ]

/-- operations 115–130: the root-mean-square normalization of the hidden row, weighted -/
abbrev c7 : List (HloOp τ sig (Elt F)) :=
  [ binary main_v57 main_v57 main_v58 (mulf : (⟨S2x2048x8192, .f32⟩ : BufTy).Contents (Elt F) → (⟨S2x2048x8192, .f32⟩ : BufTy).Contents (Elt F) → (⟨S2x2048x8192, .f32⟩ : BufTy).Contents (Elt F)),
    nullary main_cst_20 (constant S_ .f32 0x00000000#32),
    binary main_v58 main_cst_20 main_v59 ((fun x v => Host.reduceAdd x v reducesTo_S2x2048x8192_S2x2048_d2 h_S_) : (⟨S2x2048x8192, .f32⟩ : BufTy).Contents (Elt F) → (⟨S_, .f32⟩ : BufTy).Contents (Elt F) → (⟨S2x2048, .f32⟩ : BufTy).Contents (Elt F)),
    unary main_v59 main_v60 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_21 (constant S_ .f32 0x46000000#32),
    unary main_cst_21 main_v61 (broadcastInDim S2x2048x1 ![] bcast_S_S2x2048x1 : (⟨S_, .f32⟩ : BufTy).Contents (Elt F) → (⟨S2x2048x1, .f32⟩ : BufTy).Contents (Elt F)),
    binary main_v60 main_v61 main_v62 (Host.divf : (⟨S2x2048x1, .f32⟩ : BufTy).Contents (Elt F) → (⟨S2x2048x1, .f32⟩ : BufTy).Contents (Elt F) → (⟨S2x2048x1, .f32⟩ : BufTy).Contents (Elt F)),
    nullary main_cst_22 (constant S_ .f32 0x358637BD#32),
    unary main_cst_22 main_v63 (broadcastInDim S2x2048x1 ![] bcast_S_S2x2048x1 : (⟨S_, .f32⟩ : BufTy).Contents (Elt F) → (⟨S2x2048x1, .f32⟩ : BufTy).Contents (Elt F)),
    binary main_v62 main_v63 main_v64 (addf : (⟨S2x2048x1, .f32⟩ : BufTy).Contents (Elt F) → (⟨S2x2048x1, .f32⟩ : BufTy).Contents (Elt F) → (⟨S2x2048x1, .f32⟩ : BufTy).Contents (Elt F)),
    unary main_v64 main_v65 (Host.rsqrt : (⟨S2x2048x1, .f32⟩ : BufTy).Contents (Elt F) → (⟨S2x2048x1, .f32⟩ : BufTy).Contents (Elt F)),
    unary main_v65 main_v66 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v57 main_v66 main_v67 (mulf : (⟨S2x2048x8192, .f32⟩ : BufTy).Contents (Elt F) → (⟨S2x2048x8192, .f32⟩ : BufTy).Contents (Elt F) → (⟨S2x2048x8192, .f32⟩ : BufTy).Contents (Elt F)),
    unary main_arg4 main_v68 (broadcastInDim S1x1x8192 ![2] bcast_S8192_S1x1x8192_2 : (⟨S8192, .f32⟩ : BufTy).Contents (Elt F) → (⟨S1x1x8192, .f32⟩ : BufTy).Contents (Elt F)),
    unary main_v68 main_v69 (broadcastInDim S2x2048x8192 ![0, 1, 2] bcast_S1x1x8192_S2x2048x8192_0_1_2 : (⟨S1x1x8192, .f32⟩ : BufTy).Contents (Elt F) → (⟨S2x2048x8192, .f32⟩ : BufTy).Contents (Elt F)),
    binary main_v69 main_v67 main_v70 (mulf : (⟨S2x2048x8192, .f32⟩ : BufTy).Contents (Elt F) → (⟨S2x2048x8192, .f32⟩ : BufTy).Contents (Elt F) → (⟨S2x2048x8192, .f32⟩ : BufTy).Contents (Elt F)) ]

/-- operations 131–156: the normalized row's integer codes, rescaled -/
abbrev c8 : List (HloOp τ sig (Elt F)) :=
  [ unary main_v70 main_v71 (Host.absf : (⟨S2x2048x8192, .f32⟩ : BufTy).Contents (Elt F) → (⟨S2x2048x8192, .f32⟩ : BufTy).Contents (Elt F)),
    nullary main_cst_23 (constant S_ .f32 0xFF800000#32),
    binary main_v71 main_cst_23 main_v72 ((fun x v => Host.reduce FloatOps.maximumf x v reducesTo_S2x2048x8192_S2x2048_d2 h_S_) : (⟨S2x2048x8192, .f32⟩ : BufTy).Contents (Elt F) → (⟨S_, .f32⟩ : BufTy).Contents (Elt F) → (⟨S2x2048, .f32⟩ : BufTy).Contents (Elt F)),
    unary main_v72 main_v73 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_24 (constant S_ .f32 0x3727C5AC#32),
    TRef.unary (TRef.of (T := ⟨S_, .f32⟩) main_cst_24) (TRef.of (T := ⟨S_, .f32⟩) main_call13_v0) id,
    TRef.unary (TRef.of (T := ⟨S_, .f32⟩) main_call13_v0) (TRef.of (T := ⟨S2x2048x1, .f32⟩) main_call13_v1) (broadcastInDim S2x2048x1 ![] bcast_S_S2x2048x1),
    TRef.binary (TRef.of (T := ⟨S2x2048x1, .f32⟩) main_call13_v1) (TRef.of (T := ⟨S2x2048x1, .f32⟩) main_v73) (TRef.of (T := ⟨S2x2048x1, .f32⟩) main_v74) maximumf,
    nullary main_cst_25 (constant S_ .f32 0x42FE0000#32),
    unary main_cst_25 main_v75 (broadcastInDim S2x2048x1 ![] bcast_S_S2x2048x1 : (⟨S_, .f32⟩ : BufTy).Contents (Elt F) → (⟨S2x2048x1, .f32⟩ : BufTy).Contents (Elt F)),
    binary main_v75 main_v74 main_v76 (Host.divf : (⟨S2x2048x1, .f32⟩ : BufTy).Contents (Elt F) → (⟨S2x2048x1, .f32⟩ : BufTy).Contents (Elt F) → (⟨S2x2048x1, .f32⟩ : BufTy).Contents (Elt F)),
    unary main_v76 main_v77 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v70 main_v77 main_v78 (mulf : (⟨S2x2048x8192, .f32⟩ : BufTy).Contents (Elt F) → (⟨S2x2048x8192, .f32⟩ : BufTy).Contents (Elt F) → (⟨S2x2048x8192, .f32⟩ : BufTy).Contents (Elt F)),
    TRef.unary (TRef.of (T := ⟨S2x2048x8192, .f32⟩) main_v78) (TRef.of (T := ⟨S2x2048x8192, .f32⟩) main_v79) Host.roundeven,
    nullary main_c_26 (constantI S_ 32 4294967168#32),
    nullary main_c_27 (constantI S_ 32 127#32),
    TRef.unary (TRef.of (T := ⟨S_, .i32⟩) main_c_26) (TRef.of (T := ⟨S_, .f32⟩) main_call15_v0) (sitofp .f32),
    TRef.unary (TRef.of (T := ⟨S_, .f32⟩) main_call15_v0) (TRef.of (T := ⟨S2x2048x8192, .f32⟩) main_call15_v1) (broadcastInDim S2x2048x8192 ![] bcast_S_S2x2048x8192),
    TRef.binary (TRef.of (T := ⟨S2x2048x8192, .f32⟩) main_call15_v1) (TRef.of (T := ⟨S2x2048x8192, .f32⟩) main_v79) (TRef.of (T := ⟨S2x2048x8192, .f32⟩) main_call15_v2) maximumf,
    TRef.unary (TRef.of (T := ⟨S_, .i32⟩) main_c_27) (TRef.of (T := ⟨S_, .f32⟩) main_call15_v3) (sitofp .f32),
    TRef.unary (TRef.of (T := ⟨S_, .f32⟩) main_call15_v3) (TRef.of (T := ⟨S2x2048x8192, .f32⟩) main_call15_v4) (broadcastInDim S2x2048x8192 ![] bcast_S_S2x2048x8192),
    TRef.binary (TRef.of (T := ⟨S2x2048x8192, .f32⟩) main_call15_v4) (TRef.of (T := ⟨S2x2048x8192, .f32⟩) main_call15_v2) (TRef.of (T := ⟨S2x2048x8192, .f32⟩) main_v80) minimumf,
    unary main_v76 main_v81 (broadcastInDim S2x2048x8192 ![0, 1, 2] bcast_S2x2048x1_S2x2048x8192_0_1_2 : (⟨S2x2048x1, .f32⟩ : BufTy).Contents (Elt F) → (⟨S2x2048x8192, .f32⟩ : BufTy).Contents (Elt F)),
    binary main_v80 main_v81 main_v82 (Host.divf : (⟨S2x2048x8192, .f32⟩ : BufTy).Contents (Elt F) → (⟨S2x2048x8192, .f32⟩ : BufTy).Contents (Elt F) → (⟨S2x2048x8192, .f32⟩ : BufTy).Contents (Elt F)),
    binary main_v82 main_v70 main_v83 (subf : (⟨S2x2048x8192, .f32⟩ : BufTy).Contents (Elt F) → (⟨S2x2048x8192, .f32⟩ : BufTy).Contents (Elt F) → (⟨S2x2048x8192, .f32⟩ : BufTy).Contents (Elt F)),
    binary main_v70 main_v83 main_v84 (addf : (⟨S2x2048x8192, .f32⟩ : BufTy).Contents (Elt F) → (⟨S2x2048x8192, .f32⟩ : BufTy).Contents (Elt F) → (⟨S2x2048x8192, .f32⟩ : BufTy).Contents (Elt F)) ]

/-- operations 157–181: the down weights' ternary codes, rescaled -/
abbrev c9 : List (HloOp τ sig (Elt F)) :=
  [ unary main_arg3 main_v85 (Host.absf : (⟨S2048x8192, .f32⟩ : BufTy).Contents (Elt F) → (⟨S2048x8192, .f32⟩ : BufTy).Contents (Elt F)),
    nullary main_cst_28 (constant S_ .f32 0x00000000#32),
    binary main_v85 main_cst_28 main_v86 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_29 (constant S_ .f32 0x4B800000#32),
    binary main_v86 main_cst_29 main_v87 (Host.divf : (⟨S_, .f32⟩ : BufTy).Contents (Elt F) → (⟨S_, .f32⟩ : BufTy).Contents (Elt F) → (⟨S_, .f32⟩ : BufTy).Contents (Elt F)),
    nullary main_cst_30 (constant S_ .f32 0x3727C5AC#32),
    TRef.unary (TRef.of (T := ⟨S_, .f32⟩) main_cst_30) (TRef.of (T := ⟨S_, .f32⟩) main_call16_v0) id,
    TRef.binary (TRef.of (T := ⟨S_, .f32⟩) main_call16_v0) (TRef.of (T := ⟨S_, .f32⟩) main_v87) (TRef.of (T := ⟨S_, .f32⟩) main_v88) maximumf,
    nullary main_cst_31 (constant S_ .f32 0x3F800000#32),
    binary main_cst_31 main_v88 main_v89 (Host.divf : (⟨S_, .f32⟩ : BufTy).Contents (Elt F) → (⟨S_, .f32⟩ : BufTy).Contents (Elt F) → (⟨S_, .f32⟩ : BufTy).Contents (Elt F)),
    unary main_v89 main_v90 (broadcastInDim S2048x8192 ![] bcast_S_S2048x8192 : (⟨S_, .f32⟩ : BufTy).Contents (Elt F) → (⟨S2048x8192, .f32⟩ : BufTy).Contents (Elt F)),
    binary main_arg3 main_v90 main_v91 (mulf : (⟨S2048x8192, .f32⟩ : BufTy).Contents (Elt F) → (⟨S2048x8192, .f32⟩ : BufTy).Contents (Elt F) → (⟨S2048x8192, .f32⟩ : BufTy).Contents (Elt F)),
    TRef.unary (TRef.of (T := ⟨S2048x8192, .f32⟩) main_v91) (TRef.of (T := ⟨S2048x8192, .f32⟩) main_v92) Host.roundeven,
    nullary main_cst_32 (constant S_ .f32 0xBF800000#32),
    nullary main_cst_33 (constant S_ .f32 0x3F800000#32),
    TRef.unary (TRef.of (T := ⟨S_, .f32⟩) main_cst_32) (TRef.of (T := ⟨S_, .f32⟩) main_call18_v0) id,
    TRef.unary (TRef.of (T := ⟨S_, .f32⟩) main_call18_v0) (TRef.of (T := ⟨S2048x8192, .f32⟩) main_call18_v1) (broadcastInDim S2048x8192 ![] bcast_S_S2048x8192),
    TRef.binary (TRef.of (T := ⟨S2048x8192, .f32⟩) main_call18_v1) (TRef.of (T := ⟨S2048x8192, .f32⟩) main_v92) (TRef.of (T := ⟨S2048x8192, .f32⟩) main_call18_v2) maximumf,
    TRef.unary (TRef.of (T := ⟨S_, .f32⟩) main_cst_33) (TRef.of (T := ⟨S_, .f32⟩) main_call18_v3) id,
    TRef.unary (TRef.of (T := ⟨S_, .f32⟩) main_call18_v3) (TRef.of (T := ⟨S2048x8192, .f32⟩) main_call18_v4) (broadcastInDim S2048x8192 ![] bcast_S_S2048x8192),
    TRef.binary (TRef.of (T := ⟨S2048x8192, .f32⟩) main_call18_v4) (TRef.of (T := ⟨S2048x8192, .f32⟩) main_call18_v2) (TRef.of (T := ⟨S2048x8192, .f32⟩) main_v93) minimumf,
    unary main_v89 main_v94 (broadcastInDim S2048x8192 ![] bcast_S_S2048x8192 : (⟨S_, .f32⟩ : BufTy).Contents (Elt F) → (⟨S2048x8192, .f32⟩ : BufTy).Contents (Elt F)),
    binary main_v93 main_v94 main_v95 (Host.divf : (⟨S2048x8192, .f32⟩ : BufTy).Contents (Elt F) → (⟨S2048x8192, .f32⟩ : BufTy).Contents (Elt F) → (⟨S2048x8192, .f32⟩ : BufTy).Contents (Elt F)),
    binary main_v95 main_arg3 main_v96 (subf : (⟨S2048x8192, .f32⟩ : BufTy).Contents (Elt F) → (⟨S2048x8192, .f32⟩ : BufTy).Contents (Elt F) → (⟨S2048x8192, .f32⟩ : BufTy).Contents (Elt F)),
    binary main_arg3 main_v96 main_v97 (addf : (⟨S2048x8192, .f32⟩ : BufTy).Contents (Elt F) → (⟨S2048x8192, .f32⟩ : BufTy).Contents (Elt F) → (⟨S2048x8192, .f32⟩ : BufTy).Contents (Elt F)) ]

/-- operation 182: the down product -/
abbrev c10 : List (HloOp τ sig (Elt F)) :=
  [ binary main_v84 main_v97 main_v98 ((fun l r => Host.dotGeneral dot_S2x2048x8192_S2048x8192_S2x2048x2048_2_1_01_0_n_n none l r) : (⟨S2x2048x8192, .f32⟩ : BufTy).Contents (Elt F) → (⟨S2048x8192, .f32⟩ : BufTy).Contents (Elt F) → (⟨S2x2048x2048, .f32⟩ : BufTy).Contents (Elt F)) ]

/-- The operations are the stretches in a row. -/
theorem ops_eq : (ValueP.ops : List (HloOp τ sig (Elt F))) = c1 ++ (c2 ++ (c3 ++ (c4 ++ (c5 ++ (c6 ++ (c7 ++ (c8 ++ (c9 ++ (c10))))))))) := rfl

/-- The fold over the operations is the stretches' folds, one after the other. -/
theorem after_ops (W : Valuation τ sig (Elt F)) :
    after ValueP.ops W = after c10 (after c9 (after c8 (after c7 (after c6 (after c5 (after c4 (after c3 (after c2 (after c1 W))))))))) := by
  rw [ops_eq]
  simp only [after_append]

/-! ### A typed reference's transport is the identity at a literal reference

A called function's operations move contents between the value's type and the buffer's own type along the
equation of the two; at a literal reference both types are the same by computation. -/

theorem cast_of_main_cst_0 (h : (main_cst_0 : Ref sig .tc).ty.Contents (Elt F) = (⟨S_, .f32⟩ : BufTy).Contents (Elt F)) (v : (main_cst_0 : Ref sig .tc).ty.Contents (Elt F)) : cast h v = v := rfl
theorem cast_to_main_call0_v0 (h : (⟨S_, .f32⟩ : BufTy).Contents (Elt F) = (main_call0_v0 : Ref sig .tc).ty.Contents (Elt F)) (v : (⟨S_, .f32⟩ : BufTy).Contents (Elt F)) : cast h v = v := rfl
theorem cast_of_main_call0_v0 (h : (main_call0_v0 : Ref sig .tc).ty.Contents (Elt F) = (⟨S_, .f32⟩ : BufTy).Contents (Elt F)) (v : (main_call0_v0 : Ref sig .tc).ty.Contents (Elt F)) : cast h v = v := rfl
theorem cast_to_main_call0_v1 (h : (⟨S2x2048x1, .f32⟩ : BufTy).Contents (Elt F) = (main_call0_v1 : Ref sig .tc).ty.Contents (Elt F)) (v : (⟨S2x2048x1, .f32⟩ : BufTy).Contents (Elt F)) : cast h v = v := rfl
theorem cast_of_main_call0_v1 (h : (main_call0_v1 : Ref sig .tc).ty.Contents (Elt F) = (⟨S2x2048x1, .f32⟩ : BufTy).Contents (Elt F)) (v : (main_call0_v1 : Ref sig .tc).ty.Contents (Elt F)) : cast h v = v := rfl
theorem cast_of_main_v2 (h : (main_v2 : Ref sig .tc).ty.Contents (Elt F) = (⟨S2x2048x1, .f32⟩ : BufTy).Contents (Elt F)) (v : (main_v2 : Ref sig .tc).ty.Contents (Elt F)) : cast h v = v := rfl
theorem cast_to_main_v3 (h : (⟨S2x2048x1, .f32⟩ : BufTy).Contents (Elt F) = (main_v3 : Ref sig .tc).ty.Contents (Elt F)) (v : (⟨S2x2048x1, .f32⟩ : BufTy).Contents (Elt F)) : cast h v = v := rfl
theorem cast_of_main_v7 (h : (main_v7 : Ref sig .tc).ty.Contents (Elt F) = (⟨S2x2048x2048, .f32⟩ : BufTy).Contents (Elt F)) (v : (main_v7 : Ref sig .tc).ty.Contents (Elt F)) : cast h v = v := rfl
theorem cast_to_main_v8 (h : (⟨S2x2048x2048, .f32⟩ : BufTy).Contents (Elt F) = (main_v8 : Ref sig .tc).ty.Contents (Elt F)) (v : (⟨S2x2048x2048, .f32⟩ : BufTy).Contents (Elt F)) : cast h v = v := rfl
theorem cast_of_main_v8 (h : (main_v8 : Ref sig .tc).ty.Contents (Elt F) = (⟨S2x2048x2048, .f32⟩ : BufTy).Contents (Elt F)) (v : (main_v8 : Ref sig .tc).ty.Contents (Elt F)) : cast h v = v := rfl
theorem cast_of_main_c (h : (main_c : Ref sig .tc).ty.Contents (Elt F) = (⟨S_, .i32⟩ : BufTy).Contents (Elt F)) (v : (main_c : Ref sig .tc).ty.Contents (Elt F)) : cast h v = v := rfl
theorem cast_to_main_call2_v0 (h : (⟨S_, .f32⟩ : BufTy).Contents (Elt F) = (main_call2_v0 : Ref sig .tc).ty.Contents (Elt F)) (v : (⟨S_, .f32⟩ : BufTy).Contents (Elt F)) : cast h v = v := rfl
theorem cast_of_main_call2_v0 (h : (main_call2_v0 : Ref sig .tc).ty.Contents (Elt F) = (⟨S_, .f32⟩ : BufTy).Contents (Elt F)) (v : (main_call2_v0 : Ref sig .tc).ty.Contents (Elt F)) : cast h v = v := rfl
theorem cast_to_main_call2_v1 (h : (⟨S2x2048x2048, .f32⟩ : BufTy).Contents (Elt F) = (main_call2_v1 : Ref sig .tc).ty.Contents (Elt F)) (v : (⟨S2x2048x2048, .f32⟩ : BufTy).Contents (Elt F)) : cast h v = v := rfl
theorem cast_of_main_call2_v1 (h : (main_call2_v1 : Ref sig .tc).ty.Contents (Elt F) = (⟨S2x2048x2048, .f32⟩ : BufTy).Contents (Elt F)) (v : (main_call2_v1 : Ref sig .tc).ty.Contents (Elt F)) : cast h v = v := rfl
theorem cast_to_main_call2_v2 (h : (⟨S2x2048x2048, .f32⟩ : BufTy).Contents (Elt F) = (main_call2_v2 : Ref sig .tc).ty.Contents (Elt F)) (v : (⟨S2x2048x2048, .f32⟩ : BufTy).Contents (Elt F)) : cast h v = v := rfl
theorem cast_of_main_call2_v2 (h : (main_call2_v2 : Ref sig .tc).ty.Contents (Elt F) = (⟨S2x2048x2048, .f32⟩ : BufTy).Contents (Elt F)) (v : (main_call2_v2 : Ref sig .tc).ty.Contents (Elt F)) : cast h v = v := rfl
theorem cast_of_main_c_2 (h : (main_c_2 : Ref sig .tc).ty.Contents (Elt F) = (⟨S_, .i32⟩ : BufTy).Contents (Elt F)) (v : (main_c_2 : Ref sig .tc).ty.Contents (Elt F)) : cast h v = v := rfl
theorem cast_to_main_call2_v3 (h : (⟨S_, .f32⟩ : BufTy).Contents (Elt F) = (main_call2_v3 : Ref sig .tc).ty.Contents (Elt F)) (v : (⟨S_, .f32⟩ : BufTy).Contents (Elt F)) : cast h v = v := rfl
theorem cast_of_main_call2_v3 (h : (main_call2_v3 : Ref sig .tc).ty.Contents (Elt F) = (⟨S_, .f32⟩ : BufTy).Contents (Elt F)) (v : (main_call2_v3 : Ref sig .tc).ty.Contents (Elt F)) : cast h v = v := rfl
theorem cast_to_main_call2_v4 (h : (⟨S2x2048x2048, .f32⟩ : BufTy).Contents (Elt F) = (main_call2_v4 : Ref sig .tc).ty.Contents (Elt F)) (v : (⟨S2x2048x2048, .f32⟩ : BufTy).Contents (Elt F)) : cast h v = v := rfl
theorem cast_of_main_call2_v4 (h : (main_call2_v4 : Ref sig .tc).ty.Contents (Elt F) = (⟨S2x2048x2048, .f32⟩ : BufTy).Contents (Elt F)) (v : (main_call2_v4 : Ref sig .tc).ty.Contents (Elt F)) : cast h v = v := rfl
theorem cast_to_main_v9 (h : (⟨S2x2048x2048, .f32⟩ : BufTy).Contents (Elt F) = (main_v9 : Ref sig .tc).ty.Contents (Elt F)) (v : (⟨S2x2048x2048, .f32⟩ : BufTy).Contents (Elt F)) : cast h v = v := rfl
theorem cast_of_main_cst_5 (h : (main_cst_5 : Ref sig .tc).ty.Contents (Elt F) = (⟨S_, .f32⟩ : BufTy).Contents (Elt F)) (v : (main_cst_5 : Ref sig .tc).ty.Contents (Elt F)) : cast h v = v := rfl
theorem cast_to_main_call3_v0 (h : (⟨S_, .f32⟩ : BufTy).Contents (Elt F) = (main_call3_v0 : Ref sig .tc).ty.Contents (Elt F)) (v : (⟨S_, .f32⟩ : BufTy).Contents (Elt F)) : cast h v = v := rfl
theorem cast_of_main_call3_v0 (h : (main_call3_v0 : Ref sig .tc).ty.Contents (Elt F) = (⟨S_, .f32⟩ : BufTy).Contents (Elt F)) (v : (main_call3_v0 : Ref sig .tc).ty.Contents (Elt F)) : cast h v = v := rfl
theorem cast_of_main_v16 (h : (main_v16 : Ref sig .tc).ty.Contents (Elt F) = (⟨S_, .f32⟩ : BufTy).Contents (Elt F)) (v : (main_v16 : Ref sig .tc).ty.Contents (Elt F)) : cast h v = v := rfl
theorem cast_to_main_v17 (h : (⟨S_, .f32⟩ : BufTy).Contents (Elt F) = (main_v17 : Ref sig .tc).ty.Contents (Elt F)) (v : (⟨S_, .f32⟩ : BufTy).Contents (Elt F)) : cast h v = v := rfl
theorem cast_of_main_v20 (h : (main_v20 : Ref sig .tc).ty.Contents (Elt F) = (⟨S8192x2048, .f32⟩ : BufTy).Contents (Elt F)) (v : (main_v20 : Ref sig .tc).ty.Contents (Elt F)) : cast h v = v := rfl
theorem cast_to_main_v21 (h : (⟨S8192x2048, .f32⟩ : BufTy).Contents (Elt F) = (main_v21 : Ref sig .tc).ty.Contents (Elt F)) (v : (⟨S8192x2048, .f32⟩ : BufTy).Contents (Elt F)) : cast h v = v := rfl
theorem cast_of_main_v21 (h : (main_v21 : Ref sig .tc).ty.Contents (Elt F) = (⟨S8192x2048, .f32⟩ : BufTy).Contents (Elt F)) (v : (main_v21 : Ref sig .tc).ty.Contents (Elt F)) : cast h v = v := rfl
theorem cast_of_main_cst_7 (h : (main_cst_7 : Ref sig .tc).ty.Contents (Elt F) = (⟨S_, .f32⟩ : BufTy).Contents (Elt F)) (v : (main_cst_7 : Ref sig .tc).ty.Contents (Elt F)) : cast h v = v := rfl
theorem cast_to_main_call5_v0 (h : (⟨S_, .f32⟩ : BufTy).Contents (Elt F) = (main_call5_v0 : Ref sig .tc).ty.Contents (Elt F)) (v : (⟨S_, .f32⟩ : BufTy).Contents (Elt F)) : cast h v = v := rfl
theorem cast_of_main_call5_v0 (h : (main_call5_v0 : Ref sig .tc).ty.Contents (Elt F) = (⟨S_, .f32⟩ : BufTy).Contents (Elt F)) (v : (main_call5_v0 : Ref sig .tc).ty.Contents (Elt F)) : cast h v = v := rfl
theorem cast_to_main_call5_v1 (h : (⟨S8192x2048, .f32⟩ : BufTy).Contents (Elt F) = (main_call5_v1 : Ref sig .tc).ty.Contents (Elt F)) (v : (⟨S8192x2048, .f32⟩ : BufTy).Contents (Elt F)) : cast h v = v := rfl
theorem cast_of_main_call5_v1 (h : (main_call5_v1 : Ref sig .tc).ty.Contents (Elt F) = (⟨S8192x2048, .f32⟩ : BufTy).Contents (Elt F)) (v : (main_call5_v1 : Ref sig .tc).ty.Contents (Elt F)) : cast h v = v := rfl
theorem cast_to_main_call5_v2 (h : (⟨S8192x2048, .f32⟩ : BufTy).Contents (Elt F) = (main_call5_v2 : Ref sig .tc).ty.Contents (Elt F)) (v : (⟨S8192x2048, .f32⟩ : BufTy).Contents (Elt F)) : cast h v = v := rfl
theorem cast_of_main_call5_v2 (h : (main_call5_v2 : Ref sig .tc).ty.Contents (Elt F) = (⟨S8192x2048, .f32⟩ : BufTy).Contents (Elt F)) (v : (main_call5_v2 : Ref sig .tc).ty.Contents (Elt F)) : cast h v = v := rfl
theorem cast_of_main_cst_8 (h : (main_cst_8 : Ref sig .tc).ty.Contents (Elt F) = (⟨S_, .f32⟩ : BufTy).Contents (Elt F)) (v : (main_cst_8 : Ref sig .tc).ty.Contents (Elt F)) : cast h v = v := rfl
theorem cast_to_main_call5_v3 (h : (⟨S_, .f32⟩ : BufTy).Contents (Elt F) = (main_call5_v3 : Ref sig .tc).ty.Contents (Elt F)) (v : (⟨S_, .f32⟩ : BufTy).Contents (Elt F)) : cast h v = v := rfl
theorem cast_of_main_call5_v3 (h : (main_call5_v3 : Ref sig .tc).ty.Contents (Elt F) = (⟨S_, .f32⟩ : BufTy).Contents (Elt F)) (v : (main_call5_v3 : Ref sig .tc).ty.Contents (Elt F)) : cast h v = v := rfl
theorem cast_to_main_call5_v4 (h : (⟨S8192x2048, .f32⟩ : BufTy).Contents (Elt F) = (main_call5_v4 : Ref sig .tc).ty.Contents (Elt F)) (v : (⟨S8192x2048, .f32⟩ : BufTy).Contents (Elt F)) : cast h v = v := rfl
theorem cast_of_main_call5_v4 (h : (main_call5_v4 : Ref sig .tc).ty.Contents (Elt F) = (⟨S8192x2048, .f32⟩ : BufTy).Contents (Elt F)) (v : (main_call5_v4 : Ref sig .tc).ty.Contents (Elt F)) : cast h v = v := rfl
theorem cast_to_main_v22 (h : (⟨S8192x2048, .f32⟩ : BufTy).Contents (Elt F) = (main_v22 : Ref sig .tc).ty.Contents (Elt F)) (v : (⟨S8192x2048, .f32⟩ : BufTy).Contents (Elt F)) : cast h v = v := rfl
theorem cast_of_main_v27 (h : (main_v27 : Ref sig .tc).ty.Contents (Elt F) = (⟨S2x2048x8192, .f32⟩ : BufTy).Contents (Elt F)) (v : (main_v27 : Ref sig .tc).ty.Contents (Elt F)) : cast h v = v := rfl
theorem cast_to_main_call6_v0 (h : (⟨S2x2048x8192, .f32⟩ : BufTy).Contents (Elt F) = (main_call6_v0 : Ref sig .tc).ty.Contents (Elt F)) (v : (⟨S2x2048x8192, .f32⟩ : BufTy).Contents (Elt F)) : cast h v = v := rfl
theorem cast_of_main_call6_v0 (h : (main_call6_v0 : Ref sig .tc).ty.Contents (Elt F) = (⟨S2x2048x8192, .f32⟩ : BufTy).Contents (Elt F)) (v : (main_call6_v0 : Ref sig .tc).ty.Contents (Elt F)) : cast h v = v := rfl
theorem cast_to_main_call6_v1 (h : (⟨S2x2048x8192, .f32⟩ : BufTy).Contents (Elt F) = (main_call6_v1 : Ref sig .tc).ty.Contents (Elt F)) (v : (⟨S2x2048x8192, .f32⟩ : BufTy).Contents (Elt F)) : cast h v = v := rfl
theorem cast_of_main_call6_v1 (h : (main_call6_v1 : Ref sig .tc).ty.Contents (Elt F) = (⟨S2x2048x8192, .f32⟩ : BufTy).Contents (Elt F)) (v : (main_call6_v1 : Ref sig .tc).ty.Contents (Elt F)) : cast h v = v := rfl
theorem cast_to_main_call6_cst (h : (⟨S_, .f32⟩ : BufTy).Contents (Elt F) = (main_call6_cst : Ref sig .tc).ty.Contents (Elt F)) (v : (⟨S_, .f32⟩ : BufTy).Contents (Elt F)) : cast h v = v := rfl
theorem cast_of_main_call6_cst (h : (main_call6_cst : Ref sig .tc).ty.Contents (Elt F) = (⟨S_, .f32⟩ : BufTy).Contents (Elt F)) (v : (main_call6_cst : Ref sig .tc).ty.Contents (Elt F)) : cast h v = v := rfl
theorem cast_to_main_call6_v2 (h : (⟨S2x2048x8192, .f32⟩ : BufTy).Contents (Elt F) = (main_call6_v2 : Ref sig .tc).ty.Contents (Elt F)) (v : (⟨S2x2048x8192, .f32⟩ : BufTy).Contents (Elt F)) : cast h v = v := rfl
theorem cast_of_main_call6_v2 (h : (main_call6_v2 : Ref sig .tc).ty.Contents (Elt F) = (⟨S2x2048x8192, .f32⟩ : BufTy).Contents (Elt F)) (v : (main_call6_v2 : Ref sig .tc).ty.Contents (Elt F)) : cast h v = v := rfl
theorem cast_to_main_call6_v3 (h : (⟨S2x2048x8192, .f32⟩ : BufTy).Contents (Elt F) = (main_call6_v3 : Ref sig .tc).ty.Contents (Elt F)) (v : (⟨S2x2048x8192, .f32⟩ : BufTy).Contents (Elt F)) : cast h v = v := rfl
theorem cast_of_main_call6_v3 (h : (main_call6_v3 : Ref sig .tc).ty.Contents (Elt F) = (⟨S2x2048x8192, .f32⟩ : BufTy).Contents (Elt F)) (v : (main_call6_v3 : Ref sig .tc).ty.Contents (Elt F)) : cast h v = v := rfl
theorem cast_to_main_call6_cst_0 (h : (⟨S_, .f32⟩ : BufTy).Contents (Elt F) = (main_call6_cst_0 : Ref sig .tc).ty.Contents (Elt F)) (v : (⟨S_, .f32⟩ : BufTy).Contents (Elt F)) : cast h v = v := rfl
theorem cast_of_main_call6_cst_0 (h : (main_call6_cst_0 : Ref sig .tc).ty.Contents (Elt F) = (⟨S_, .f32⟩ : BufTy).Contents (Elt F)) (v : (main_call6_cst_0 : Ref sig .tc).ty.Contents (Elt F)) : cast h v = v := rfl
theorem cast_to_main_call6_v4 (h : (⟨S2x2048x8192, .f32⟩ : BufTy).Contents (Elt F) = (main_call6_v4 : Ref sig .tc).ty.Contents (Elt F)) (v : (⟨S2x2048x8192, .f32⟩ : BufTy).Contents (Elt F)) : cast h v = v := rfl
theorem cast_of_main_call6_v4 (h : (main_call6_v4 : Ref sig .tc).ty.Contents (Elt F) = (⟨S2x2048x8192, .f32⟩ : BufTy).Contents (Elt F)) (v : (main_call6_v4 : Ref sig .tc).ty.Contents (Elt F)) : cast h v = v := rfl
theorem cast_to_main_call6_v5 (h : (⟨S2x2048x8192, .f32⟩ : BufTy).Contents (Elt F) = (main_call6_v5 : Ref sig .tc).ty.Contents (Elt F)) (v : (⟨S2x2048x8192, .f32⟩ : BufTy).Contents (Elt F)) : cast h v = v := rfl
theorem cast_of_main_call6_v5 (h : (main_call6_v5 : Ref sig .tc).ty.Contents (Elt F) = (⟨S2x2048x8192, .f32⟩ : BufTy).Contents (Elt F)) (v : (main_call6_v5 : Ref sig .tc).ty.Contents (Elt F)) : cast h v = v := rfl
theorem cast_to_main_v28 (h : (⟨S2x2048x8192, .f32⟩ : BufTy).Contents (Elt F) = (main_v28 : Ref sig .tc).ty.Contents (Elt F)) (v : (⟨S2x2048x8192, .f32⟩ : BufTy).Contents (Elt F)) : cast h v = v := rfl
theorem cast_of_main_cst_10 (h : (main_cst_10 : Ref sig .tc).ty.Contents (Elt F) = (⟨S_, .f32⟩ : BufTy).Contents (Elt F)) (v : (main_cst_10 : Ref sig .tc).ty.Contents (Elt F)) : cast h v = v := rfl
theorem cast_to_main_call7_v0 (h : (⟨S_, .f32⟩ : BufTy).Contents (Elt F) = (main_call7_v0 : Ref sig .tc).ty.Contents (Elt F)) (v : (⟨S_, .f32⟩ : BufTy).Contents (Elt F)) : cast h v = v := rfl
theorem cast_of_main_call7_v0 (h : (main_call7_v0 : Ref sig .tc).ty.Contents (Elt F) = (⟨S_, .f32⟩ : BufTy).Contents (Elt F)) (v : (main_call7_v0 : Ref sig .tc).ty.Contents (Elt F)) : cast h v = v := rfl
theorem cast_to_main_call7_v1 (h : (⟨S2x2048x1, .f32⟩ : BufTy).Contents (Elt F) = (main_call7_v1 : Ref sig .tc).ty.Contents (Elt F)) (v : (⟨S2x2048x1, .f32⟩ : BufTy).Contents (Elt F)) : cast h v = v := rfl
theorem cast_of_main_call7_v1 (h : (main_call7_v1 : Ref sig .tc).ty.Contents (Elt F) = (⟨S2x2048x1, .f32⟩ : BufTy).Contents (Elt F)) (v : (main_call7_v1 : Ref sig .tc).ty.Contents (Elt F)) : cast h v = v := rfl
theorem cast_of_main_v31 (h : (main_v31 : Ref sig .tc).ty.Contents (Elt F) = (⟨S2x2048x1, .f32⟩ : BufTy).Contents (Elt F)) (v : (main_v31 : Ref sig .tc).ty.Contents (Elt F)) : cast h v = v := rfl
theorem cast_to_main_v32 (h : (⟨S2x2048x1, .f32⟩ : BufTy).Contents (Elt F) = (main_v32 : Ref sig .tc).ty.Contents (Elt F)) (v : (⟨S2x2048x1, .f32⟩ : BufTy).Contents (Elt F)) : cast h v = v := rfl
theorem cast_of_main_v36 (h : (main_v36 : Ref sig .tc).ty.Contents (Elt F) = (⟨S2x2048x2048, .f32⟩ : BufTy).Contents (Elt F)) (v : (main_v36 : Ref sig .tc).ty.Contents (Elt F)) : cast h v = v := rfl
theorem cast_to_main_v37 (h : (⟨S2x2048x2048, .f32⟩ : BufTy).Contents (Elt F) = (main_v37 : Ref sig .tc).ty.Contents (Elt F)) (v : (⟨S2x2048x2048, .f32⟩ : BufTy).Contents (Elt F)) : cast h v = v := rfl
theorem cast_of_main_v37 (h : (main_v37 : Ref sig .tc).ty.Contents (Elt F) = (⟨S2x2048x2048, .f32⟩ : BufTy).Contents (Elt F)) (v : (main_v37 : Ref sig .tc).ty.Contents (Elt F)) : cast h v = v := rfl
theorem cast_of_main_c_12 (h : (main_c_12 : Ref sig .tc).ty.Contents (Elt F) = (⟨S_, .i32⟩ : BufTy).Contents (Elt F)) (v : (main_c_12 : Ref sig .tc).ty.Contents (Elt F)) : cast h v = v := rfl
theorem cast_to_main_call9_v0 (h : (⟨S_, .f32⟩ : BufTy).Contents (Elt F) = (main_call9_v0 : Ref sig .tc).ty.Contents (Elt F)) (v : (⟨S_, .f32⟩ : BufTy).Contents (Elt F)) : cast h v = v := rfl
theorem cast_of_main_call9_v0 (h : (main_call9_v0 : Ref sig .tc).ty.Contents (Elt F) = (⟨S_, .f32⟩ : BufTy).Contents (Elt F)) (v : (main_call9_v0 : Ref sig .tc).ty.Contents (Elt F)) : cast h v = v := rfl
theorem cast_to_main_call9_v1 (h : (⟨S2x2048x2048, .f32⟩ : BufTy).Contents (Elt F) = (main_call9_v1 : Ref sig .tc).ty.Contents (Elt F)) (v : (⟨S2x2048x2048, .f32⟩ : BufTy).Contents (Elt F)) : cast h v = v := rfl
theorem cast_of_main_call9_v1 (h : (main_call9_v1 : Ref sig .tc).ty.Contents (Elt F) = (⟨S2x2048x2048, .f32⟩ : BufTy).Contents (Elt F)) (v : (main_call9_v1 : Ref sig .tc).ty.Contents (Elt F)) : cast h v = v := rfl
theorem cast_to_main_call9_v2 (h : (⟨S2x2048x2048, .f32⟩ : BufTy).Contents (Elt F) = (main_call9_v2 : Ref sig .tc).ty.Contents (Elt F)) (v : (⟨S2x2048x2048, .f32⟩ : BufTy).Contents (Elt F)) : cast h v = v := rfl
theorem cast_of_main_call9_v2 (h : (main_call9_v2 : Ref sig .tc).ty.Contents (Elt F) = (⟨S2x2048x2048, .f32⟩ : BufTy).Contents (Elt F)) (v : (main_call9_v2 : Ref sig .tc).ty.Contents (Elt F)) : cast h v = v := rfl
theorem cast_of_main_c_13 (h : (main_c_13 : Ref sig .tc).ty.Contents (Elt F) = (⟨S_, .i32⟩ : BufTy).Contents (Elt F)) (v : (main_c_13 : Ref sig .tc).ty.Contents (Elt F)) : cast h v = v := rfl
theorem cast_to_main_call9_v3 (h : (⟨S_, .f32⟩ : BufTy).Contents (Elt F) = (main_call9_v3 : Ref sig .tc).ty.Contents (Elt F)) (v : (⟨S_, .f32⟩ : BufTy).Contents (Elt F)) : cast h v = v := rfl
theorem cast_of_main_call9_v3 (h : (main_call9_v3 : Ref sig .tc).ty.Contents (Elt F) = (⟨S_, .f32⟩ : BufTy).Contents (Elt F)) (v : (main_call9_v3 : Ref sig .tc).ty.Contents (Elt F)) : cast h v = v := rfl
theorem cast_to_main_call9_v4 (h : (⟨S2x2048x2048, .f32⟩ : BufTy).Contents (Elt F) = (main_call9_v4 : Ref sig .tc).ty.Contents (Elt F)) (v : (⟨S2x2048x2048, .f32⟩ : BufTy).Contents (Elt F)) : cast h v = v := rfl
theorem cast_of_main_call9_v4 (h : (main_call9_v4 : Ref sig .tc).ty.Contents (Elt F) = (⟨S2x2048x2048, .f32⟩ : BufTy).Contents (Elt F)) (v : (main_call9_v4 : Ref sig .tc).ty.Contents (Elt F)) : cast h v = v := rfl
theorem cast_to_main_v38 (h : (⟨S2x2048x2048, .f32⟩ : BufTy).Contents (Elt F) = (main_v38 : Ref sig .tc).ty.Contents (Elt F)) (v : (⟨S2x2048x2048, .f32⟩ : BufTy).Contents (Elt F)) : cast h v = v := rfl
theorem cast_of_main_cst_16 (h : (main_cst_16 : Ref sig .tc).ty.Contents (Elt F) = (⟨S_, .f32⟩ : BufTy).Contents (Elt F)) (v : (main_cst_16 : Ref sig .tc).ty.Contents (Elt F)) : cast h v = v := rfl
theorem cast_to_main_call10_v0 (h : (⟨S_, .f32⟩ : BufTy).Contents (Elt F) = (main_call10_v0 : Ref sig .tc).ty.Contents (Elt F)) (v : (⟨S_, .f32⟩ : BufTy).Contents (Elt F)) : cast h v = v := rfl
theorem cast_of_main_call10_v0 (h : (main_call10_v0 : Ref sig .tc).ty.Contents (Elt F) = (⟨S_, .f32⟩ : BufTy).Contents (Elt F)) (v : (main_call10_v0 : Ref sig .tc).ty.Contents (Elt F)) : cast h v = v := rfl
theorem cast_of_main_v45 (h : (main_v45 : Ref sig .tc).ty.Contents (Elt F) = (⟨S_, .f32⟩ : BufTy).Contents (Elt F)) (v : (main_v45 : Ref sig .tc).ty.Contents (Elt F)) : cast h v = v := rfl
theorem cast_to_main_v46 (h : (⟨S_, .f32⟩ : BufTy).Contents (Elt F) = (main_v46 : Ref sig .tc).ty.Contents (Elt F)) (v : (⟨S_, .f32⟩ : BufTy).Contents (Elt F)) : cast h v = v := rfl
theorem cast_of_main_v49 (h : (main_v49 : Ref sig .tc).ty.Contents (Elt F) = (⟨S8192x2048, .f32⟩ : BufTy).Contents (Elt F)) (v : (main_v49 : Ref sig .tc).ty.Contents (Elt F)) : cast h v = v := rfl
theorem cast_to_main_v50 (h : (⟨S8192x2048, .f32⟩ : BufTy).Contents (Elt F) = (main_v50 : Ref sig .tc).ty.Contents (Elt F)) (v : (⟨S8192x2048, .f32⟩ : BufTy).Contents (Elt F)) : cast h v = v := rfl
theorem cast_of_main_v50 (h : (main_v50 : Ref sig .tc).ty.Contents (Elt F) = (⟨S8192x2048, .f32⟩ : BufTy).Contents (Elt F)) (v : (main_v50 : Ref sig .tc).ty.Contents (Elt F)) : cast h v = v := rfl
theorem cast_of_main_cst_18 (h : (main_cst_18 : Ref sig .tc).ty.Contents (Elt F) = (⟨S_, .f32⟩ : BufTy).Contents (Elt F)) (v : (main_cst_18 : Ref sig .tc).ty.Contents (Elt F)) : cast h v = v := rfl
theorem cast_to_main_call12_v0 (h : (⟨S_, .f32⟩ : BufTy).Contents (Elt F) = (main_call12_v0 : Ref sig .tc).ty.Contents (Elt F)) (v : (⟨S_, .f32⟩ : BufTy).Contents (Elt F)) : cast h v = v := rfl
theorem cast_of_main_call12_v0 (h : (main_call12_v0 : Ref sig .tc).ty.Contents (Elt F) = (⟨S_, .f32⟩ : BufTy).Contents (Elt F)) (v : (main_call12_v0 : Ref sig .tc).ty.Contents (Elt F)) : cast h v = v := rfl
theorem cast_to_main_call12_v1 (h : (⟨S8192x2048, .f32⟩ : BufTy).Contents (Elt F) = (main_call12_v1 : Ref sig .tc).ty.Contents (Elt F)) (v : (⟨S8192x2048, .f32⟩ : BufTy).Contents (Elt F)) : cast h v = v := rfl
theorem cast_of_main_call12_v1 (h : (main_call12_v1 : Ref sig .tc).ty.Contents (Elt F) = (⟨S8192x2048, .f32⟩ : BufTy).Contents (Elt F)) (v : (main_call12_v1 : Ref sig .tc).ty.Contents (Elt F)) : cast h v = v := rfl
theorem cast_to_main_call12_v2 (h : (⟨S8192x2048, .f32⟩ : BufTy).Contents (Elt F) = (main_call12_v2 : Ref sig .tc).ty.Contents (Elt F)) (v : (⟨S8192x2048, .f32⟩ : BufTy).Contents (Elt F)) : cast h v = v := rfl
theorem cast_of_main_call12_v2 (h : (main_call12_v2 : Ref sig .tc).ty.Contents (Elt F) = (⟨S8192x2048, .f32⟩ : BufTy).Contents (Elt F)) (v : (main_call12_v2 : Ref sig .tc).ty.Contents (Elt F)) : cast h v = v := rfl
theorem cast_of_main_cst_19 (h : (main_cst_19 : Ref sig .tc).ty.Contents (Elt F) = (⟨S_, .f32⟩ : BufTy).Contents (Elt F)) (v : (main_cst_19 : Ref sig .tc).ty.Contents (Elt F)) : cast h v = v := rfl
theorem cast_to_main_call12_v3 (h : (⟨S_, .f32⟩ : BufTy).Contents (Elt F) = (main_call12_v3 : Ref sig .tc).ty.Contents (Elt F)) (v : (⟨S_, .f32⟩ : BufTy).Contents (Elt F)) : cast h v = v := rfl
theorem cast_of_main_call12_v3 (h : (main_call12_v3 : Ref sig .tc).ty.Contents (Elt F) = (⟨S_, .f32⟩ : BufTy).Contents (Elt F)) (v : (main_call12_v3 : Ref sig .tc).ty.Contents (Elt F)) : cast h v = v := rfl
theorem cast_to_main_call12_v4 (h : (⟨S8192x2048, .f32⟩ : BufTy).Contents (Elt F) = (main_call12_v4 : Ref sig .tc).ty.Contents (Elt F)) (v : (⟨S8192x2048, .f32⟩ : BufTy).Contents (Elt F)) : cast h v = v := rfl
theorem cast_of_main_call12_v4 (h : (main_call12_v4 : Ref sig .tc).ty.Contents (Elt F) = (⟨S8192x2048, .f32⟩ : BufTy).Contents (Elt F)) (v : (main_call12_v4 : Ref sig .tc).ty.Contents (Elt F)) : cast h v = v := rfl
theorem cast_to_main_v51 (h : (⟨S8192x2048, .f32⟩ : BufTy).Contents (Elt F) = (main_v51 : Ref sig .tc).ty.Contents (Elt F)) (v : (⟨S8192x2048, .f32⟩ : BufTy).Contents (Elt F)) : cast h v = v := rfl
theorem cast_of_main_cst_24 (h : (main_cst_24 : Ref sig .tc).ty.Contents (Elt F) = (⟨S_, .f32⟩ : BufTy).Contents (Elt F)) (v : (main_cst_24 : Ref sig .tc).ty.Contents (Elt F)) : cast h v = v := rfl
theorem cast_to_main_call13_v0 (h : (⟨S_, .f32⟩ : BufTy).Contents (Elt F) = (main_call13_v0 : Ref sig .tc).ty.Contents (Elt F)) (v : (⟨S_, .f32⟩ : BufTy).Contents (Elt F)) : cast h v = v := rfl
theorem cast_of_main_call13_v0 (h : (main_call13_v0 : Ref sig .tc).ty.Contents (Elt F) = (⟨S_, .f32⟩ : BufTy).Contents (Elt F)) (v : (main_call13_v0 : Ref sig .tc).ty.Contents (Elt F)) : cast h v = v := rfl
theorem cast_to_main_call13_v1 (h : (⟨S2x2048x1, .f32⟩ : BufTy).Contents (Elt F) = (main_call13_v1 : Ref sig .tc).ty.Contents (Elt F)) (v : (⟨S2x2048x1, .f32⟩ : BufTy).Contents (Elt F)) : cast h v = v := rfl
theorem cast_of_main_call13_v1 (h : (main_call13_v1 : Ref sig .tc).ty.Contents (Elt F) = (⟨S2x2048x1, .f32⟩ : BufTy).Contents (Elt F)) (v : (main_call13_v1 : Ref sig .tc).ty.Contents (Elt F)) : cast h v = v := rfl
theorem cast_of_main_v73 (h : (main_v73 : Ref sig .tc).ty.Contents (Elt F) = (⟨S2x2048x1, .f32⟩ : BufTy).Contents (Elt F)) (v : (main_v73 : Ref sig .tc).ty.Contents (Elt F)) : cast h v = v := rfl
theorem cast_to_main_v74 (h : (⟨S2x2048x1, .f32⟩ : BufTy).Contents (Elt F) = (main_v74 : Ref sig .tc).ty.Contents (Elt F)) (v : (⟨S2x2048x1, .f32⟩ : BufTy).Contents (Elt F)) : cast h v = v := rfl
theorem cast_of_main_v78 (h : (main_v78 : Ref sig .tc).ty.Contents (Elt F) = (⟨S2x2048x8192, .f32⟩ : BufTy).Contents (Elt F)) (v : (main_v78 : Ref sig .tc).ty.Contents (Elt F)) : cast h v = v := rfl
theorem cast_to_main_v79 (h : (⟨S2x2048x8192, .f32⟩ : BufTy).Contents (Elt F) = (main_v79 : Ref sig .tc).ty.Contents (Elt F)) (v : (⟨S2x2048x8192, .f32⟩ : BufTy).Contents (Elt F)) : cast h v = v := rfl
theorem cast_of_main_v79 (h : (main_v79 : Ref sig .tc).ty.Contents (Elt F) = (⟨S2x2048x8192, .f32⟩ : BufTy).Contents (Elt F)) (v : (main_v79 : Ref sig .tc).ty.Contents (Elt F)) : cast h v = v := rfl
theorem cast_of_main_c_26 (h : (main_c_26 : Ref sig .tc).ty.Contents (Elt F) = (⟨S_, .i32⟩ : BufTy).Contents (Elt F)) (v : (main_c_26 : Ref sig .tc).ty.Contents (Elt F)) : cast h v = v := rfl
theorem cast_to_main_call15_v0 (h : (⟨S_, .f32⟩ : BufTy).Contents (Elt F) = (main_call15_v0 : Ref sig .tc).ty.Contents (Elt F)) (v : (⟨S_, .f32⟩ : BufTy).Contents (Elt F)) : cast h v = v := rfl
theorem cast_of_main_call15_v0 (h : (main_call15_v0 : Ref sig .tc).ty.Contents (Elt F) = (⟨S_, .f32⟩ : BufTy).Contents (Elt F)) (v : (main_call15_v0 : Ref sig .tc).ty.Contents (Elt F)) : cast h v = v := rfl
theorem cast_to_main_call15_v1 (h : (⟨S2x2048x8192, .f32⟩ : BufTy).Contents (Elt F) = (main_call15_v1 : Ref sig .tc).ty.Contents (Elt F)) (v : (⟨S2x2048x8192, .f32⟩ : BufTy).Contents (Elt F)) : cast h v = v := rfl
theorem cast_of_main_call15_v1 (h : (main_call15_v1 : Ref sig .tc).ty.Contents (Elt F) = (⟨S2x2048x8192, .f32⟩ : BufTy).Contents (Elt F)) (v : (main_call15_v1 : Ref sig .tc).ty.Contents (Elt F)) : cast h v = v := rfl
theorem cast_to_main_call15_v2 (h : (⟨S2x2048x8192, .f32⟩ : BufTy).Contents (Elt F) = (main_call15_v2 : Ref sig .tc).ty.Contents (Elt F)) (v : (⟨S2x2048x8192, .f32⟩ : BufTy).Contents (Elt F)) : cast h v = v := rfl
theorem cast_of_main_call15_v2 (h : (main_call15_v2 : Ref sig .tc).ty.Contents (Elt F) = (⟨S2x2048x8192, .f32⟩ : BufTy).Contents (Elt F)) (v : (main_call15_v2 : Ref sig .tc).ty.Contents (Elt F)) : cast h v = v := rfl
theorem cast_of_main_c_27 (h : (main_c_27 : Ref sig .tc).ty.Contents (Elt F) = (⟨S_, .i32⟩ : BufTy).Contents (Elt F)) (v : (main_c_27 : Ref sig .tc).ty.Contents (Elt F)) : cast h v = v := rfl
theorem cast_to_main_call15_v3 (h : (⟨S_, .f32⟩ : BufTy).Contents (Elt F) = (main_call15_v3 : Ref sig .tc).ty.Contents (Elt F)) (v : (⟨S_, .f32⟩ : BufTy).Contents (Elt F)) : cast h v = v := rfl
theorem cast_of_main_call15_v3 (h : (main_call15_v3 : Ref sig .tc).ty.Contents (Elt F) = (⟨S_, .f32⟩ : BufTy).Contents (Elt F)) (v : (main_call15_v3 : Ref sig .tc).ty.Contents (Elt F)) : cast h v = v := rfl
theorem cast_to_main_call15_v4 (h : (⟨S2x2048x8192, .f32⟩ : BufTy).Contents (Elt F) = (main_call15_v4 : Ref sig .tc).ty.Contents (Elt F)) (v : (⟨S2x2048x8192, .f32⟩ : BufTy).Contents (Elt F)) : cast h v = v := rfl
theorem cast_of_main_call15_v4 (h : (main_call15_v4 : Ref sig .tc).ty.Contents (Elt F) = (⟨S2x2048x8192, .f32⟩ : BufTy).Contents (Elt F)) (v : (main_call15_v4 : Ref sig .tc).ty.Contents (Elt F)) : cast h v = v := rfl
theorem cast_to_main_v80 (h : (⟨S2x2048x8192, .f32⟩ : BufTy).Contents (Elt F) = (main_v80 : Ref sig .tc).ty.Contents (Elt F)) (v : (⟨S2x2048x8192, .f32⟩ : BufTy).Contents (Elt F)) : cast h v = v := rfl
theorem cast_of_main_cst_30 (h : (main_cst_30 : Ref sig .tc).ty.Contents (Elt F) = (⟨S_, .f32⟩ : BufTy).Contents (Elt F)) (v : (main_cst_30 : Ref sig .tc).ty.Contents (Elt F)) : cast h v = v := rfl
theorem cast_to_main_call16_v0 (h : (⟨S_, .f32⟩ : BufTy).Contents (Elt F) = (main_call16_v0 : Ref sig .tc).ty.Contents (Elt F)) (v : (⟨S_, .f32⟩ : BufTy).Contents (Elt F)) : cast h v = v := rfl
theorem cast_of_main_call16_v0 (h : (main_call16_v0 : Ref sig .tc).ty.Contents (Elt F) = (⟨S_, .f32⟩ : BufTy).Contents (Elt F)) (v : (main_call16_v0 : Ref sig .tc).ty.Contents (Elt F)) : cast h v = v := rfl
theorem cast_of_main_v87 (h : (main_v87 : Ref sig .tc).ty.Contents (Elt F) = (⟨S_, .f32⟩ : BufTy).Contents (Elt F)) (v : (main_v87 : Ref sig .tc).ty.Contents (Elt F)) : cast h v = v := rfl
theorem cast_to_main_v88 (h : (⟨S_, .f32⟩ : BufTy).Contents (Elt F) = (main_v88 : Ref sig .tc).ty.Contents (Elt F)) (v : (⟨S_, .f32⟩ : BufTy).Contents (Elt F)) : cast h v = v := rfl
theorem cast_of_main_v91 (h : (main_v91 : Ref sig .tc).ty.Contents (Elt F) = (⟨S2048x8192, .f32⟩ : BufTy).Contents (Elt F)) (v : (main_v91 : Ref sig .tc).ty.Contents (Elt F)) : cast h v = v := rfl
theorem cast_to_main_v92 (h : (⟨S2048x8192, .f32⟩ : BufTy).Contents (Elt F) = (main_v92 : Ref sig .tc).ty.Contents (Elt F)) (v : (⟨S2048x8192, .f32⟩ : BufTy).Contents (Elt F)) : cast h v = v := rfl
theorem cast_of_main_v92 (h : (main_v92 : Ref sig .tc).ty.Contents (Elt F) = (⟨S2048x8192, .f32⟩ : BufTy).Contents (Elt F)) (v : (main_v92 : Ref sig .tc).ty.Contents (Elt F)) : cast h v = v := rfl
theorem cast_of_main_cst_32 (h : (main_cst_32 : Ref sig .tc).ty.Contents (Elt F) = (⟨S_, .f32⟩ : BufTy).Contents (Elt F)) (v : (main_cst_32 : Ref sig .tc).ty.Contents (Elt F)) : cast h v = v := rfl
theorem cast_to_main_call18_v0 (h : (⟨S_, .f32⟩ : BufTy).Contents (Elt F) = (main_call18_v0 : Ref sig .tc).ty.Contents (Elt F)) (v : (⟨S_, .f32⟩ : BufTy).Contents (Elt F)) : cast h v = v := rfl
theorem cast_of_main_call18_v0 (h : (main_call18_v0 : Ref sig .tc).ty.Contents (Elt F) = (⟨S_, .f32⟩ : BufTy).Contents (Elt F)) (v : (main_call18_v0 : Ref sig .tc).ty.Contents (Elt F)) : cast h v = v := rfl
theorem cast_to_main_call18_v1 (h : (⟨S2048x8192, .f32⟩ : BufTy).Contents (Elt F) = (main_call18_v1 : Ref sig .tc).ty.Contents (Elt F)) (v : (⟨S2048x8192, .f32⟩ : BufTy).Contents (Elt F)) : cast h v = v := rfl
theorem cast_of_main_call18_v1 (h : (main_call18_v1 : Ref sig .tc).ty.Contents (Elt F) = (⟨S2048x8192, .f32⟩ : BufTy).Contents (Elt F)) (v : (main_call18_v1 : Ref sig .tc).ty.Contents (Elt F)) : cast h v = v := rfl
theorem cast_to_main_call18_v2 (h : (⟨S2048x8192, .f32⟩ : BufTy).Contents (Elt F) = (main_call18_v2 : Ref sig .tc).ty.Contents (Elt F)) (v : (⟨S2048x8192, .f32⟩ : BufTy).Contents (Elt F)) : cast h v = v := rfl
theorem cast_of_main_call18_v2 (h : (main_call18_v2 : Ref sig .tc).ty.Contents (Elt F) = (⟨S2048x8192, .f32⟩ : BufTy).Contents (Elt F)) (v : (main_call18_v2 : Ref sig .tc).ty.Contents (Elt F)) : cast h v = v := rfl
theorem cast_of_main_cst_33 (h : (main_cst_33 : Ref sig .tc).ty.Contents (Elt F) = (⟨S_, .f32⟩ : BufTy).Contents (Elt F)) (v : (main_cst_33 : Ref sig .tc).ty.Contents (Elt F)) : cast h v = v := rfl
theorem cast_to_main_call18_v3 (h : (⟨S_, .f32⟩ : BufTy).Contents (Elt F) = (main_call18_v3 : Ref sig .tc).ty.Contents (Elt F)) (v : (⟨S_, .f32⟩ : BufTy).Contents (Elt F)) : cast h v = v := rfl
theorem cast_of_main_call18_v3 (h : (main_call18_v3 : Ref sig .tc).ty.Contents (Elt F) = (⟨S_, .f32⟩ : BufTy).Contents (Elt F)) (v : (main_call18_v3 : Ref sig .tc).ty.Contents (Elt F)) : cast h v = v := rfl
theorem cast_to_main_call18_v4 (h : (⟨S2048x8192, .f32⟩ : BufTy).Contents (Elt F) = (main_call18_v4 : Ref sig .tc).ty.Contents (Elt F)) (v : (⟨S2048x8192, .f32⟩ : BufTy).Contents (Elt F)) : cast h v = v := rfl
theorem cast_of_main_call18_v4 (h : (main_call18_v4 : Ref sig .tc).ty.Contents (Elt F) = (⟨S2048x8192, .f32⟩ : BufTy).Contents (Elt F)) (v : (main_call18_v4 : Ref sig .tc).ty.Contents (Elt F)) : cast h v = v := rfl
theorem cast_to_main_v93 (h : (⟨S2048x8192, .f32⟩ : BufTy).Contents (Elt F) = (main_v93 : Ref sig .tc).ty.Contents (Elt F)) (v : (⟨S2048x8192, .f32⟩ : BufTy).Contents (Elt F)) : cast h v = v := rfl

/-! ### Each stretch's result, from any valuation -/

set_option maxRecDepth 8192 in
/-- After stretch 1, `main_v13` holds its stage. -/
theorem res_1_main_v13 (W : Valuation τ sig (Elt F)) (x0 : (⟨S2x2048x2048, .f32⟩ : BufTy).Contents (Elt F))
    (h_main_arg0 : W (Proc.devRef .tc main_arg0) = x0) :
    after c1 W (Proc.devRef .tc main_v13) = ReadP.val_main_v13 (F := F) x0 := by
  after_results_simp
  simp only [h_main_arg0, TRef.toBuf, TRef.ofBuf, cast_to_main_v9, cast_to_main_call2_v4, cast_to_main_call2_v3, cast_to_main_call2_v2, cast_to_main_call2_v1, cast_to_main_call2_v0, cast_to_main_v8, cast_to_main_v3, cast_to_main_call0_v1, cast_to_main_call0_v0, cast_of_main_call2_v4, cast_of_main_call2_v2, cast_of_main_call2_v3, cast_of_main_c_2, cast_of_main_call2_v1, cast_of_main_v8, cast_of_main_call2_v0, cast_of_main_c, cast_of_main_v7, cast_of_main_call0_v1, cast_of_main_v2, cast_of_main_call0_v0, cast_of_main_cst_0]
  rfl

set_option maxRecDepth 8192 in
/-- After stretch 2, `main_v26` holds its stage. -/
theorem res_2_main_v26 (W : Valuation τ sig (Elt F)) (x1 : (⟨S8192x2048, .f32⟩ : BufTy).Contents (Elt F))
    (h_main_arg1 : W (Proc.devRef .tc main_arg1) = x1) :
    after c2 W (Proc.devRef .tc main_v26) = ReadP.val_main_v26 (F := F) x1 := by
  after_results_simp
  simp only [h_main_arg1, TRef.toBuf, TRef.ofBuf, cast_to_main_v22, cast_to_main_call5_v4, cast_to_main_call5_v3, cast_to_main_call5_v2, cast_to_main_call5_v1, cast_to_main_call5_v0, cast_to_main_v21, cast_to_main_v17, cast_to_main_call3_v0, cast_of_main_call5_v4, cast_of_main_call5_v2, cast_of_main_call5_v3, cast_of_main_cst_8, cast_of_main_call5_v1, cast_of_main_v21, cast_of_main_call5_v0, cast_of_main_cst_7, cast_of_main_v20, cast_of_main_call3_v0, cast_of_main_v16, cast_of_main_cst_5]
  rfl

set_option maxRecDepth 8192 in
/-- After stretch 3, `main_v28` holds its stage. -/
theorem res_3_main_v28 (W : Valuation τ sig (Elt F)) (x0 : (⟨S2x2048x2048, .f32⟩ : BufTy).Contents (Elt F)) (x1 : (⟨S8192x2048, .f32⟩ : BufTy).Contents (Elt F))
    (h_main_v13 : W (Proc.devRef .tc main_v13) = ReadP.val_main_v13 (F := F) x0)
    (h_main_v26 : W (Proc.devRef .tc main_v26) = ReadP.val_main_v26 (F := F) x1) :
    after c3 W (Proc.devRef .tc main_v28) = ReadP.val_main_v28 (F := F) x0 x1 := by
  after_results_simp
  simp only [h_main_v13, h_main_v26, TRef.toBuf, TRef.ofBuf, cast_to_main_v28, cast_to_main_call6_v5, cast_to_main_call6_v4, cast_to_main_call6_cst_0, cast_to_main_call6_v3, cast_to_main_call6_v2, cast_to_main_call6_cst, cast_to_main_call6_v1, cast_to_main_call6_v0, cast_of_main_v27, cast_of_main_call6_v5, cast_of_main_call6_v4, cast_of_main_call6_v3, cast_of_main_call6_cst_0, cast_of_main_call6_v2, cast_of_main_call6_v1, cast_of_main_call6_cst, cast_of_main_call6_v0]
  rfl

set_option maxRecDepth 8192 in
/-- After stretch 4, `main_v42` holds its stage. -/
theorem res_4_main_v42 (W : Valuation τ sig (Elt F)) (x0 : (⟨S2x2048x2048, .f32⟩ : BufTy).Contents (Elt F))
    (h_main_arg0 : W (Proc.devRef .tc main_arg0) = x0) :
    after c4 W (Proc.devRef .tc main_v42) = ReadP.val_main_v42 (F := F) x0 := by
  after_results_simp
  simp only [h_main_arg0, TRef.toBuf, TRef.ofBuf, cast_to_main_v38, cast_to_main_call9_v4, cast_to_main_call9_v3, cast_to_main_call9_v2, cast_to_main_call9_v1, cast_to_main_call9_v0, cast_to_main_v37, cast_to_main_v32, cast_to_main_call7_v1, cast_to_main_call7_v0, cast_of_main_call9_v4, cast_of_main_call9_v2, cast_of_main_call9_v3, cast_of_main_c_13, cast_of_main_call9_v1, cast_of_main_v37, cast_of_main_call9_v0, cast_of_main_c_12, cast_of_main_v36, cast_of_main_call7_v1, cast_of_main_v31, cast_of_main_call7_v0, cast_of_main_cst_10]
  rfl

set_option maxRecDepth 8192 in
/-- After stretch 5, `main_v55` holds its stage. -/
theorem res_5_main_v55 (W : Valuation τ sig (Elt F)) (x2 : (⟨S8192x2048, .f32⟩ : BufTy).Contents (Elt F))
    (h_main_arg2 : W (Proc.devRef .tc main_arg2) = x2) :
    after c5 W (Proc.devRef .tc main_v55) = ReadP.val_main_v55 (F := F) x2 := by
  after_results_simp
  simp only [h_main_arg2, TRef.toBuf, TRef.ofBuf, cast_to_main_v51, cast_to_main_call12_v4, cast_to_main_call12_v3, cast_to_main_call12_v2, cast_to_main_call12_v1, cast_to_main_call12_v0, cast_to_main_v50, cast_to_main_v46, cast_to_main_call10_v0, cast_of_main_call12_v4, cast_of_main_call12_v2, cast_of_main_call12_v3, cast_of_main_cst_19, cast_of_main_call12_v1, cast_of_main_v50, cast_of_main_call12_v0, cast_of_main_cst_18, cast_of_main_v49, cast_of_main_call10_v0, cast_of_main_v45, cast_of_main_cst_16]
  rfl

set_option maxRecDepth 8192 in
/-- After stretch 6, `main_v57` holds its stage. -/
theorem res_6_main_v57 (W : Valuation τ sig (Elt F)) (x0 : (⟨S2x2048x2048, .f32⟩ : BufTy).Contents (Elt F)) (x1 : (⟨S8192x2048, .f32⟩ : BufTy).Contents (Elt F)) (x2 : (⟨S8192x2048, .f32⟩ : BufTy).Contents (Elt F))
    (h_main_v28 : W (Proc.devRef .tc main_v28) = ReadP.val_main_v28 (F := F) x0 x1)
    (h_main_v42 : W (Proc.devRef .tc main_v42) = ReadP.val_main_v42 (F := F) x0)
    (h_main_v55 : W (Proc.devRef .tc main_v55) = ReadP.val_main_v55 (F := F) x2) :
    after c6 W (Proc.devRef .tc main_v57) = ReadP.val_main_v57 (F := F) x0 x1 x2 := by
  after_results_simp
  simp only [h_main_v28, h_main_v42, h_main_v55]
  rfl

set_option maxRecDepth 8192 in
/-- After stretch 7, `main_v70` holds its stage. -/
theorem res_7_main_v70 (W : Valuation τ sig (Elt F)) (x0 : (⟨S2x2048x2048, .f32⟩ : BufTy).Contents (Elt F)) (x1 : (⟨S8192x2048, .f32⟩ : BufTy).Contents (Elt F)) (x2 : (⟨S8192x2048, .f32⟩ : BufTy).Contents (Elt F)) (x4 : (⟨S8192, .f32⟩ : BufTy).Contents (Elt F))
    (h_main_arg4 : W (Proc.devRef .tc main_arg4) = x4)
    (h_main_v57 : W (Proc.devRef .tc main_v57) = ReadP.val_main_v57 (F := F) x0 x1 x2) :
    after c7 W (Proc.devRef .tc main_v70) = ReadP.val_main_v70 (F := F) x0 x1 x2 x4 := by
  after_results_simp
  simp only [h_main_arg4, h_main_v57]
  rfl

set_option maxRecDepth 8192 in
/-- After stretch 8, `main_v84` holds its stage. -/
theorem res_8_main_v84 (W : Valuation τ sig (Elt F)) (x0 : (⟨S2x2048x2048, .f32⟩ : BufTy).Contents (Elt F)) (x1 : (⟨S8192x2048, .f32⟩ : BufTy).Contents (Elt F)) (x2 : (⟨S8192x2048, .f32⟩ : BufTy).Contents (Elt F)) (x4 : (⟨S8192, .f32⟩ : BufTy).Contents (Elt F))
    (h_main_v70 : W (Proc.devRef .tc main_v70) = ReadP.val_main_v70 (F := F) x0 x1 x2 x4) :
    after c8 W (Proc.devRef .tc main_v84) = ReadP.val_main_v84 (F := F) x0 x1 x2 x4 := by
  after_results_simp
  simp only [h_main_v70, TRef.toBuf, TRef.ofBuf, cast_to_main_v80, cast_to_main_call15_v4, cast_to_main_call15_v3, cast_to_main_call15_v2, cast_to_main_call15_v1, cast_to_main_call15_v0, cast_to_main_v79, cast_to_main_v74, cast_to_main_call13_v1, cast_to_main_call13_v0, cast_of_main_call15_v4, cast_of_main_call15_v2, cast_of_main_call15_v3, cast_of_main_c_27, cast_of_main_call15_v1, cast_of_main_v79, cast_of_main_call15_v0, cast_of_main_c_26, cast_of_main_v78, cast_of_main_call13_v1, cast_of_main_v73, cast_of_main_call13_v0, cast_of_main_cst_24]
  rfl

set_option maxRecDepth 8192 in
/-- After stretch 9, `main_v97` holds its stage. -/
theorem res_9_main_v97 (W : Valuation τ sig (Elt F)) (x3 : (⟨S2048x8192, .f32⟩ : BufTy).Contents (Elt F))
    (h_main_arg3 : W (Proc.devRef .tc main_arg3) = x3) :
    after c9 W (Proc.devRef .tc main_v97) = ReadP.val_main_v97 (F := F) x3 := by
  after_results_simp
  simp only [h_main_arg3, TRef.toBuf, TRef.ofBuf, cast_to_main_v93, cast_to_main_call18_v4, cast_to_main_call18_v3, cast_to_main_call18_v2, cast_to_main_call18_v1, cast_to_main_call18_v0, cast_to_main_v92, cast_to_main_v88, cast_to_main_call16_v0, cast_of_main_call18_v4, cast_of_main_call18_v2, cast_of_main_call18_v3, cast_of_main_cst_33, cast_of_main_call18_v1, cast_of_main_v92, cast_of_main_call18_v0, cast_of_main_cst_32, cast_of_main_v91, cast_of_main_call16_v0, cast_of_main_v87, cast_of_main_cst_30]
  rfl

set_option maxRecDepth 8192 in
/-- After stretch 10, `main_v98` holds its stage. -/
theorem res_10_main_v98 (W : Valuation τ sig (Elt F)) (x0 : (⟨S2x2048x2048, .f32⟩ : BufTy).Contents (Elt F)) (x1 : (⟨S8192x2048, .f32⟩ : BufTy).Contents (Elt F)) (x2 : (⟨S8192x2048, .f32⟩ : BufTy).Contents (Elt F)) (x3 : (⟨S2048x8192, .f32⟩ : BufTy).Contents (Elt F)) (x4 : (⟨S8192, .f32⟩ : BufTy).Contents (Elt F))
    (h_main_v84 : W (Proc.devRef .tc main_v84) = ReadP.val_main_v84 (F := F) x0 x1 x2 x4)
    (h_main_v97 : W (Proc.devRef .tc main_v97) = ReadP.val_main_v97 (F := F) x3) :
    after c10 W (Proc.devRef .tc main_v98) = ReadP.val_main_v98 (F := F) x0 x1 x2 x3 x4 := by
  after_results_simp
  simp only [h_main_v84, h_main_v97]
  rfl

/-! ### The buffers a later stretch reads are kept -/

set_option maxRecDepth 8192 in
theorem fr_1_main_arg1 (W : Valuation τ sig (Elt F)) :
    after (c1 (F := F)) W (Proc.devRef .tc main_arg1) = W (Proc.devRef .tc main_arg1) := by
  after_results_simp

set_option maxRecDepth 8192 in
theorem fr_1_main_arg0 (W : Valuation τ sig (Elt F)) :
    after (c1 (F := F)) W (Proc.devRef .tc main_arg0) = W (Proc.devRef .tc main_arg0) := by
  after_results_simp

set_option maxRecDepth 8192 in
theorem fr_1_main_arg2 (W : Valuation τ sig (Elt F)) :
    after (c1 (F := F)) W (Proc.devRef .tc main_arg2) = W (Proc.devRef .tc main_arg2) := by
  after_results_simp

set_option maxRecDepth 8192 in
theorem fr_1_main_arg4 (W : Valuation τ sig (Elt F)) :
    after (c1 (F := F)) W (Proc.devRef .tc main_arg4) = W (Proc.devRef .tc main_arg4) := by
  after_results_simp

set_option maxRecDepth 8192 in
theorem fr_1_main_arg3 (W : Valuation τ sig (Elt F)) :
    after (c1 (F := F)) W (Proc.devRef .tc main_arg3) = W (Proc.devRef .tc main_arg3) := by
  after_results_simp

set_option maxRecDepth 8192 in
theorem fr_2_main_v13 (W : Valuation τ sig (Elt F)) :
    after (c2 (F := F)) W (Proc.devRef .tc main_v13) = W (Proc.devRef .tc main_v13) := by
  after_results_simp

set_option maxRecDepth 8192 in
theorem fr_2_main_arg0 (W : Valuation τ sig (Elt F)) :
    after (c2 (F := F)) W (Proc.devRef .tc main_arg0) = W (Proc.devRef .tc main_arg0) := by
  after_results_simp

set_option maxRecDepth 8192 in
theorem fr_2_main_arg2 (W : Valuation τ sig (Elt F)) :
    after (c2 (F := F)) W (Proc.devRef .tc main_arg2) = W (Proc.devRef .tc main_arg2) := by
  after_results_simp

set_option maxRecDepth 8192 in
theorem fr_2_main_arg4 (W : Valuation τ sig (Elt F)) :
    after (c2 (F := F)) W (Proc.devRef .tc main_arg4) = W (Proc.devRef .tc main_arg4) := by
  after_results_simp

set_option maxRecDepth 8192 in
theorem fr_2_main_arg3 (W : Valuation τ sig (Elt F)) :
    after (c2 (F := F)) W (Proc.devRef .tc main_arg3) = W (Proc.devRef .tc main_arg3) := by
  after_results_simp

set_option maxRecDepth 8192 in
theorem fr_3_main_arg0 (W : Valuation τ sig (Elt F)) :
    after (c3 (F := F)) W (Proc.devRef .tc main_arg0) = W (Proc.devRef .tc main_arg0) := by
  after_results_simp

set_option maxRecDepth 8192 in
theorem fr_3_main_arg2 (W : Valuation τ sig (Elt F)) :
    after (c3 (F := F)) W (Proc.devRef .tc main_arg2) = W (Proc.devRef .tc main_arg2) := by
  after_results_simp

set_option maxRecDepth 8192 in
theorem fr_3_main_arg4 (W : Valuation τ sig (Elt F)) :
    after (c3 (F := F)) W (Proc.devRef .tc main_arg4) = W (Proc.devRef .tc main_arg4) := by
  after_results_simp

set_option maxRecDepth 8192 in
theorem fr_3_main_arg3 (W : Valuation τ sig (Elt F)) :
    after (c3 (F := F)) W (Proc.devRef .tc main_arg3) = W (Proc.devRef .tc main_arg3) := by
  after_results_simp

set_option maxRecDepth 8192 in
theorem fr_4_main_arg2 (W : Valuation τ sig (Elt F)) :
    after (c4 (F := F)) W (Proc.devRef .tc main_arg2) = W (Proc.devRef .tc main_arg2) := by
  after_results_simp

set_option maxRecDepth 8192 in
theorem fr_4_main_v28 (W : Valuation τ sig (Elt F)) :
    after (c4 (F := F)) W (Proc.devRef .tc main_v28) = W (Proc.devRef .tc main_v28) := by
  after_results_simp

set_option maxRecDepth 8192 in
theorem fr_4_main_arg4 (W : Valuation τ sig (Elt F)) :
    after (c4 (F := F)) W (Proc.devRef .tc main_arg4) = W (Proc.devRef .tc main_arg4) := by
  after_results_simp

set_option maxRecDepth 8192 in
theorem fr_4_main_arg3 (W : Valuation τ sig (Elt F)) :
    after (c4 (F := F)) W (Proc.devRef .tc main_arg3) = W (Proc.devRef .tc main_arg3) := by
  after_results_simp

set_option maxRecDepth 8192 in
theorem fr_5_main_v28 (W : Valuation τ sig (Elt F)) :
    after (c5 (F := F)) W (Proc.devRef .tc main_v28) = W (Proc.devRef .tc main_v28) := by
  after_results_simp

set_option maxRecDepth 8192 in
theorem fr_5_main_v42 (W : Valuation τ sig (Elt F)) :
    after (c5 (F := F)) W (Proc.devRef .tc main_v42) = W (Proc.devRef .tc main_v42) := by
  after_results_simp

set_option maxRecDepth 8192 in
theorem fr_5_main_arg4 (W : Valuation τ sig (Elt F)) :
    after (c5 (F := F)) W (Proc.devRef .tc main_arg4) = W (Proc.devRef .tc main_arg4) := by
  after_results_simp

set_option maxRecDepth 8192 in
theorem fr_5_main_arg3 (W : Valuation τ sig (Elt F)) :
    after (c5 (F := F)) W (Proc.devRef .tc main_arg3) = W (Proc.devRef .tc main_arg3) := by
  after_results_simp

set_option maxRecDepth 8192 in
theorem fr_6_main_arg4 (W : Valuation τ sig (Elt F)) :
    after (c6 (F := F)) W (Proc.devRef .tc main_arg4) = W (Proc.devRef .tc main_arg4) := by
  after_results_simp

set_option maxRecDepth 8192 in
theorem fr_6_main_arg3 (W : Valuation τ sig (Elt F)) :
    after (c6 (F := F)) W (Proc.devRef .tc main_arg3) = W (Proc.devRef .tc main_arg3) := by
  after_results_simp

set_option maxRecDepth 8192 in
theorem fr_7_main_arg3 (W : Valuation τ sig (Elt F)) :
    after (c7 (F := F)) W (Proc.devRef .tc main_arg3) = W (Proc.devRef .tc main_arg3) := by
  after_results_simp

set_option maxRecDepth 8192 in
theorem fr_8_main_arg3 (W : Valuation τ sig (Elt F)) :
    after (c8 (F := F)) W (Proc.devRef .tc main_arg3) = W (Proc.devRef .tc main_arg3) := by
  after_results_simp

set_option maxRecDepth 8192 in
theorem fr_9_main_v84 (W : Valuation τ sig (Elt F)) :
    after (c9 (F := F)) W (Proc.devRef .tc main_v84) = W (Proc.devRef .tc main_v84) := by
  after_results_simp

/-! ### The stretches chained -/

/-- From any valuation holding the five arguments, the last buffer holds the last stage after the operations. -/
theorem chain (W : Valuation τ sig (Elt F)) (x0 : (⟨S2x2048x2048, .f32⟩ : BufTy).Contents (Elt F)) (x1 : (⟨S8192x2048, .f32⟩ : BufTy).Contents (Elt F)) (x2 : (⟨S8192x2048, .f32⟩ : BufTy).Contents (Elt F)) (x3 : (⟨S2048x8192, .f32⟩ : BufTy).Contents (Elt F)) (x4 : (⟨S8192, .f32⟩ : BufTy).Contents (Elt F))
    (f0_main_arg0 : W (Proc.devRef .tc main_arg0) = x0)
    (f0_main_arg1 : W (Proc.devRef .tc main_arg1) = x1)
    (f0_main_arg2 : W (Proc.devRef .tc main_arg2) = x2)
    (f0_main_arg3 : W (Proc.devRef .tc main_arg3) = x3)
    (f0_main_arg4 : W (Proc.devRef .tc main_arg4) = x4) :
    after ValueP.ops W (Proc.devRef .tc main_v98) = ReadP.val_main_v98 (F := F) x0 x1 x2 x3 x4 := by
  rw [after_ops]
  have f1_main_arg1 := (fr_1_main_arg1 W).trans f0_main_arg1
  have f1_main_v13 := res_1_main_v13 W x0 f0_main_arg0
  have f1_main_arg0 := (fr_1_main_arg0 W).trans f0_main_arg0
  have f1_main_arg2 := (fr_1_main_arg2 W).trans f0_main_arg2
  have f1_main_arg4 := (fr_1_main_arg4 W).trans f0_main_arg4
  have f1_main_arg3 := (fr_1_main_arg3 W).trans f0_main_arg3
  have f2_main_v13 := (fr_2_main_v13 (after c1 W)).trans f1_main_v13
  have f2_main_v26 := res_2_main_v26 (after c1 W) x1 f1_main_arg1
  have f2_main_arg0 := (fr_2_main_arg0 (after c1 W)).trans f1_main_arg0
  have f2_main_arg2 := (fr_2_main_arg2 (after c1 W)).trans f1_main_arg2
  have f2_main_arg4 := (fr_2_main_arg4 (after c1 W)).trans f1_main_arg4
  have f2_main_arg3 := (fr_2_main_arg3 (after c1 W)).trans f1_main_arg3
  have f3_main_arg0 := (fr_3_main_arg0 (after c2 (after c1 W))).trans f2_main_arg0
  have f3_main_arg2 := (fr_3_main_arg2 (after c2 (after c1 W))).trans f2_main_arg2
  have f3_main_v28 := res_3_main_v28 (after c2 (after c1 W)) x0 x1 f2_main_v13 f2_main_v26
  have f3_main_arg4 := (fr_3_main_arg4 (after c2 (after c1 W))).trans f2_main_arg4
  have f3_main_arg3 := (fr_3_main_arg3 (after c2 (after c1 W))).trans f2_main_arg3
  have f4_main_arg2 := (fr_4_main_arg2 (after c3 (after c2 (after c1 W)))).trans f3_main_arg2
  have f4_main_v28 := (fr_4_main_v28 (after c3 (after c2 (after c1 W)))).trans f3_main_v28
  have f4_main_v42 := res_4_main_v42 (after c3 (after c2 (after c1 W))) x0 f3_main_arg0
  have f4_main_arg4 := (fr_4_main_arg4 (after c3 (after c2 (after c1 W)))).trans f3_main_arg4
  have f4_main_arg3 := (fr_4_main_arg3 (after c3 (after c2 (after c1 W)))).trans f3_main_arg3
  have f5_main_v28 := (fr_5_main_v28 (after c4 (after c3 (after c2 (after c1 W))))).trans f4_main_v28
  have f5_main_v42 := (fr_5_main_v42 (after c4 (after c3 (after c2 (after c1 W))))).trans f4_main_v42
  have f5_main_v55 := res_5_main_v55 (after c4 (after c3 (after c2 (after c1 W)))) x2 f4_main_arg2
  have f5_main_arg4 := (fr_5_main_arg4 (after c4 (after c3 (after c2 (after c1 W))))).trans f4_main_arg4
  have f5_main_arg3 := (fr_5_main_arg3 (after c4 (after c3 (after c2 (after c1 W))))).trans f4_main_arg3
  have f6_main_arg4 := (fr_6_main_arg4 (after c5 (after c4 (after c3 (after c2 (after c1 W)))))).trans f5_main_arg4
  have f6_main_v57 := res_6_main_v57 (after c5 (after c4 (after c3 (after c2 (after c1 W))))) x0 x1 x2 f5_main_v28 f5_main_v42 f5_main_v55
  have f6_main_arg3 := (fr_6_main_arg3 (after c5 (after c4 (after c3 (after c2 (after c1 W)))))).trans f5_main_arg3
  have f7_main_v70 := res_7_main_v70 (after c6 (after c5 (after c4 (after c3 (after c2 (after c1 W)))))) x0 x1 x2 x4 f6_main_arg4 f6_main_v57
  have f7_main_arg3 := (fr_7_main_arg3 (after c6 (after c5 (after c4 (after c3 (after c2 (after c1 W))))))).trans f6_main_arg3
  have f8_main_arg3 := (fr_8_main_arg3 (after c7 (after c6 (after c5 (after c4 (after c3 (after c2 (after c1 W)))))))).trans f7_main_arg3
  have f8_main_v84 := res_8_main_v84 (after c7 (after c6 (after c5 (after c4 (after c3 (after c2 (after c1 W))))))) x0 x1 x2 x4 f7_main_v70
  have f9_main_v84 := (fr_9_main_v84 (after c8 (after c7 (after c6 (after c5 (after c4 (after c3 (after c2 (after c1 W))))))))).trans f8_main_v84
  have f9_main_v97 := res_9_main_v97 (after c8 (after c7 (after c6 (after c5 (after c4 (after c3 (after c2 (after c1 W)))))))) x3 f8_main_arg3
  exact res_10_main_v98 (after c9 (after c8 (after c7 (after c6 (after c5 (after c4 (after c3 (after c2 (after c1 W))))))))) x0 x1 x2 x3 x4 f9_main_v84 f9_main_v97

/-- The reference's result buffer holds the last stage of the five argument arrays. -/
theorem res_eq (m : (ℓ : Loc nD τ sig) → Buf (Elt F) ℓ) (c : Dev nD) :
    ValueP.res_main_v98 (F := F) m c
      = ReadP.val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  chain (launchContents m c) _ _ _ _ _ rfl rfl rfl rfl rfl

end Cert.ReferenceIdeal.Stages

end
-- ==== Proof.RefValue.lean ====
/-
  The reference program's result read at one index.

  The reference is a gated feed-forward block with three quantized matrix products.  Each product
  scales a row of its left operand to integer codes by the row's largest magnitude and the whole
  right operand to ternary codes by its mean magnitude, divides every code by its scale again, and
  contracts the operands written as `v + (code / scale - v)`.  This file reads the program's
  operations one at a time, from the result backwards to the inputs, and finds at index (b, s, o)
  the number `outR` of the specification: the third product of the normalized hidden row with row
  `o` of the third weight matrix, the hidden row being the gate of the first two products.
-/
import proofs.«170676_j74139725463734_2_alg».proof.Proof.RefReadP
import proofs.«170676_j74139725463734_2_alg».proof.Proof.Spec
import proofs.«170676_j74139725463734_2_alg».proof.Proof.LibQuantProduct
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.ReadP Cert.ReferenceIdeal.Gen Idealize.ShloMosaic Idealize.ShloMosaic.ValueIdx Cert.BitMlp

/-- The activations, the two first-layer weight matrices (same shape), the last weight matrix, the row weights. -/
abbrev TX : Type := (⟨S2x2048x2048, .f32⟩ : BufTy).Contents (Elt Ideal)
abbrev TW : Type := (⟨S8192x2048, .f32⟩ : BufTy).Contents (Elt Ideal)
abbrev TD : Type := (⟨S2048x8192, .f32⟩ : BufTy).Contents (Elt Ideal)
abbrev TL : Type := (⟨S8192, .f32⟩ : BufTy).Contents (Elt Ideal)

/-! ## The weight scales: a matrix's mean magnitude, floored -/

theorem scale_v17 (x1 : TW) (j : S_.Idx) :
    val_main_v17 (F := Ideal) x1 j = absMean (ι := (⟨2, ![8192, 2048]⟩ : Shape).Idx) x1 := by
  rw [val_main_v17_apply, val_main_v16_apply, val_main_v15_apply]
  simp only [val_main_call3_v0_apply, val_main_cst_5_apply, val_main_cst_4_apply, val_main_cst_3_apply, val_main_v14_apply,
    Ideal.maximumf_def, Ideal.hostDivf_def, Ideal.ofBits_def, Ideal.hostAbsf_def, Ideal.absf_def, Ideal.ofBits_zero_f32]
  rfl

theorem scale_v46 (x2 : TW) (j : S_.Idx) :
    val_main_v46 (F := Ideal) x2 j = absMean (ι := (⟨2, ![8192, 2048]⟩ : Shape).Idx) x2 := by
  rw [val_main_v46_apply, val_main_v45_apply, val_main_v44_apply]
  simp only [val_main_call10_v0_apply, val_main_cst_16_apply, val_main_cst_15_apply, val_main_cst_14_apply, val_main_v43_apply,
    Ideal.maximumf_def, Ideal.hostDivf_def, Ideal.ofBits_def, Ideal.hostAbsf_def, Ideal.absf_def, Ideal.ofBits_zero_f32]
  rfl

theorem scale_v88 (x3 : TD) (j : S_.Idx) :
    val_main_v88 (F := Ideal) x3 j = absMean (ι := (⟨2, ![2048, 8192]⟩ : Shape).Idx) x3 := by
  rw [val_main_v88_apply, val_main_v87_apply, val_main_v86_apply]
  simp only [val_main_call16_v0_apply, val_main_cst_30_apply, val_main_cst_29_apply, val_main_cst_28_apply, val_main_v85_apply,
    Ideal.maximumf_def, Ideal.hostDivf_def, Ideal.ofBits_def, Ideal.hostAbsf_def, Ideal.absf_def, Ideal.ofBits_zero_f32]
  rfl

/-! ## The dequantized weights: `w + (ternary code / scale - w)` -/

theorem deq_v26 (x1 : TW) (j : S8192x2048.Idx) :
    val_main_v26 (F := Ideal) x1 j
      = x1 j + (Ideal.div (tern (absMean (ι := (⟨2, ![8192, 2048]⟩ : Shape).Idx) x1) (x1 j)) (Ideal.div c1 (absMean (ι := (⟨2, ![8192, 2048]⟩ : Shape).Idx) x1)) - x1 j) := by
  simp only [val_main_v26_apply, val_main_v25_apply, val_main_v24_apply, val_main_v23_apply, val_main_v22_apply,
    val_main_call5_v4_apply, val_main_call5_v3_apply, val_main_cst_8_apply, val_main_call5_v2_apply, val_main_call5_v1_apply,
    val_main_call5_v0_apply, val_main_cst_7_apply, val_main_v21_apply, val_main_v20_apply, val_main_v19_apply,
    val_main_v18_apply, val_main_cst_6_apply, scale_v17,
    Ideal.maximumf_def, Ideal.minimumf_def, Ideal.hostDivf_def, Ideal.ofBits_def, Ideal.addf_def, Ideal.subf_def, Ideal.mulf_def, Ideal.hostUnary_roundeven_def]
  rfl

theorem deq_v55 (x2 : TW) (j : S8192x2048.Idx) :
    val_main_v55 (F := Ideal) x2 j
      = x2 j + (Ideal.div (tern (absMean (ι := (⟨2, ![8192, 2048]⟩ : Shape).Idx) x2) (x2 j)) (Ideal.div c1 (absMean (ι := (⟨2, ![8192, 2048]⟩ : Shape).Idx) x2)) - x2 j) := by
  simp only [val_main_v55_apply, val_main_v54_apply, val_main_v53_apply, val_main_v52_apply, val_main_v51_apply,
    val_main_call12_v4_apply, val_main_call12_v3_apply, val_main_cst_19_apply, val_main_call12_v2_apply, val_main_call12_v1_apply,
    val_main_call12_v0_apply, val_main_cst_18_apply, val_main_v50_apply, val_main_v49_apply, val_main_v48_apply,
    val_main_v47_apply, val_main_cst_17_apply, scale_v46,
    Ideal.maximumf_def, Ideal.minimumf_def, Ideal.hostDivf_def, Ideal.ofBits_def, Ideal.addf_def, Ideal.subf_def, Ideal.mulf_def, Ideal.hostUnary_roundeven_def]
  rfl

theorem deq_v97 (x3 : TD) (j : S2048x8192.Idx) :
    val_main_v97 (F := Ideal) x3 j
      = x3 j + (Ideal.div (tern (absMean (ι := (⟨2, ![2048, 8192]⟩ : Shape).Idx) x3) (x3 j)) (Ideal.div c1 (absMean (ι := (⟨2, ![2048, 8192]⟩ : Shape).Idx) x3)) - x3 j) := by
  simp only [val_main_v97_apply, val_main_v96_apply, val_main_v95_apply, val_main_v94_apply, val_main_v93_apply,
    val_main_call18_v4_apply, val_main_call18_v3_apply, val_main_cst_33_apply, val_main_call18_v2_apply, val_main_call18_v1_apply,
    val_main_call18_v0_apply, val_main_cst_32_apply, val_main_v92_apply, val_main_v91_apply, val_main_v90_apply,
    val_main_v89_apply, val_main_cst_31_apply, scale_v88,
    Ideal.maximumf_def, Ideal.minimumf_def, Ideal.hostDivf_def, Ideal.ofBits_def, Ideal.addf_def, Ideal.subf_def, Ideal.mulf_def, Ideal.hostUnary_roundeven_def]
  rfl

/-! ## A maximum over the last axis, read at a row -/

/-- The reduced index (b, s) with coordinate `k` put back on the last axis is (b, s, k). -/
theorem lift_ix3 {n0 n1 n2 : Nat} (h : (⟨3, ![n0, n1, n2]⟩ : Shape).Reduces [2] (⟨2, ![n0, n1]⟩ : Shape)) (b : Fin n0) (s : Fin n1)
    (k : Fin ((⟨3, ![n0, n1, n2]⟩ : Shape).size 2)) : h.lift (ix2 b s) k = ix3 b s (⟨k.val, k.isLt⟩ : Fin n2) := by
  funext c; apply Fin.ext
  fin_cases c <;> rfl

/-- A reduce with a maximum body over the last of three axes is, at row (b, s), the fold of `max` from the initial
    value over the row's entries. -/
theorem reduce_max_last {n0 n1 n2 : Nat} (x : FVec Ideal ⟨3, ![n0, n1, n2]⟩ .f32) (init : FVec Ideal ⟨0, ![]⟩ .f32)
    (h' : (⟨3, ![n0, n1, n2]⟩ : Shape).ReducesTo [2] (⟨2, ![n0, n1]⟩ : Shape))
    (h : (⟨3, ![n0, n1, n2]⟩ : Shape).Reduces [2] (⟨2, ![n0, n1]⟩ : Shape)) (hu : 0 < (⟨0, ![]⟩ : Shape).numel) (b : Fin n0) (s : Fin n1) :
    Host.reduce FloatOps.maximumf x init h' hu (ix2 b s)
      = (Finset.univ : Finset (Fin n2)).fold (max : EReal → EReal → EReal) (init (Shape.Idx.first hu)) fun k => x (ix3 b s k) := by
  rw [Host.reduce_eq_fold_single FloatOps.maximumf x init h' h hu]
  have hf : (x ∘ h.lift (ix2 b s)) = fun k : Fin n2 => x (ix3 b s k) := funext fun k => congrArg x (lift_ix3 h b s k)
  exact congrArg (fun f => Finset.fold (max : EReal → EReal → EReal) (init (Shape.Idx.first hu)) f (Finset.univ : Finset (Fin n2))) hf

/-! ## The row scales of the first two products: the largest magnitude of row (b, s) of the activations, floored -/

theorem rowscale_v3 (x0 : TX) (b : Fin 2) (s : Fin 2048) :
    val_main_v3 (F := Ideal) x0 (ix3 b s (0 : Fin 1)) = amax fun k : Fin 2048 => x0 (ix3 b s k) := by
  have hi : idx_main_v2 (ix3 b s (0 : Fin 1)) = ix2 b s :=
    funext fun a => Fin.ext (by match a with | ⟨0, _⟩ => rfl | ⟨1, _⟩ => rfl)
  rw [val_main_v3_apply, val_main_v2_apply, hi, val_main_call0_v1_apply, val_main_call0_v0_apply, val_main_cst_0_apply]
  unfold val_main_v1
  rw [reduce_max_last (val_main_v0 (F := Ideal) x0) (val_main_cst (F := Ideal)) _ (by decide) h_S_ b s]
  simp only [val_main_cst_apply, val_main_v0_apply, Ideal.hostAbsf_def, Ideal.absf_def, Ideal.ofBits_def, Ideal.maximumf_def]
  rfl

theorem rowscale_v32 (x0 : TX) (b : Fin 2) (s : Fin 2048) :
    val_main_v32 (F := Ideal) x0 (ix3 b s (0 : Fin 1)) = amax fun k : Fin 2048 => x0 (ix3 b s k) := by
  have hi : idx_main_v31 (ix3 b s (0 : Fin 1)) = ix2 b s :=
    funext fun a => Fin.ext (by match a with | ⟨0, _⟩ => rfl | ⟨1, _⟩ => rfl)
  rw [val_main_v32_apply, val_main_v31_apply, hi, val_main_call7_v1_apply, val_main_call7_v0_apply, val_main_cst_10_apply]
  unfold val_main_v30
  rw [reduce_max_last (val_main_v29 (F := Ideal) x0) (val_main_cst_9 (F := Ideal)) _ (by decide) h_S_ b s]
  simp only [val_main_cst_9_apply, val_main_v29_apply, Ideal.hostAbsf_def, Ideal.absf_def, Ideal.ofBits_def, Ideal.maximumf_def]
  rfl

/-! ## The clip bounds: the integers -128 and 127 converted are the words the specification spells -/

theorem sitofp_m128 : FloatOps.sitofp (F := Ideal) .f32 (4294967168#32 : BitVec 32) = cM128 := by
  rw [cM128_eq]
  show ((((4294967168#32 : BitVec 32).toInt : ℤ) : ℝ) : EReal) = ((-128 : ℝ) : EReal)
  have h : (4294967168#32 : BitVec 32).toInt = -128 := by decide
  rw [h]; norm_num

theorem sitofp_127 : FloatOps.sitofp (F := Ideal) .f32 (127#32 : BitVec 32) = c127 := by
  rw [c127_eq]
  show ((((127#32 : BitVec 32).toInt : ℤ) : ℝ) : EReal) = ((127 : ℝ) : EReal)
  have h : (127#32 : BitVec 32).toInt = 127 := by decide
  rw [h]; norm_num

/-! ## The dequantized activations of the first two products: `v + (integer code / scale - v)` -/

theorem deq_v13 (x0 : TX) (b : Fin 2) (s : Fin 2048) (k : Fin 2048) :
    val_main_v13 (F := Ideal) x0 (ix3 b s k)
      = x0 (ix3 b s k) + (Ideal.div (code (amax fun k' : Fin 2048 => x0 (ix3 b s k')) (x0 (ix3 b s k)))
          (Ideal.div c127 (amax fun k' : Fin 2048 => x0 (ix3 b s k'))) - x0 (ix3 b s k)) := by
  have h1 : idx_main_v6 (ix3 b s k) = ix3 b s (0 : Fin 1) := funext fun a => Fin.ext (by match a with | ⟨0, _⟩ => rfl | ⟨1, _⟩ => rfl | ⟨2, _⟩ => rfl)
  have h2 : idx_main_v10 (ix3 b s k) = ix3 b s (0 : Fin 1) := funext fun a => Fin.ext (by match a with | ⟨0, _⟩ => rfl | ⟨1, _⟩ => rfl | ⟨2, _⟩ => rfl)
  have e1 : val_main_v6 (F := Ideal) x0 (ix3 b s k) = val_main_v5 (F := Ideal) x0 (ix3 b s (0 : Fin 1)) := by
    rw [val_main_v6_apply, h1]
  have e2 : val_main_v10 (F := Ideal) x0 (ix3 b s k) = val_main_v5 (F := Ideal) x0 (ix3 b s (0 : Fin 1)) := by
    rw [val_main_v10_apply, h2]
  rw [val_main_v13_apply, val_main_v12_apply, val_main_v11_apply, e2, val_main_v9_apply,
    val_main_call2_v4_apply, val_main_call2_v3_apply, val_main_c_2_apply, val_main_call2_v2_apply, val_main_call2_v1_apply,
    val_main_call2_v0_apply, val_main_c_apply, val_main_v8_apply, val_main_v7_apply, e1,
    val_main_v5_apply, val_main_v4_apply, val_main_cst_1_apply, rowscale_v3, sitofp_m128, sitofp_127]
  rfl

theorem deq_v42 (x0 : TX) (b : Fin 2) (s : Fin 2048) (k : Fin 2048) :
    val_main_v42 (F := Ideal) x0 (ix3 b s k)
      = x0 (ix3 b s k) + (Ideal.div (code (amax fun k' : Fin 2048 => x0 (ix3 b s k')) (x0 (ix3 b s k)))
          (Ideal.div c127 (amax fun k' : Fin 2048 => x0 (ix3 b s k'))) - x0 (ix3 b s k)) := by
  have h1 : idx_main_v35 (ix3 b s k) = ix3 b s (0 : Fin 1) := funext fun a => Fin.ext (by match a with | ⟨0, _⟩ => rfl | ⟨1, _⟩ => rfl | ⟨2, _⟩ => rfl)
  have h2 : idx_main_v39 (ix3 b s k) = ix3 b s (0 : Fin 1) := funext fun a => Fin.ext (by match a with | ⟨0, _⟩ => rfl | ⟨1, _⟩ => rfl | ⟨2, _⟩ => rfl)
  have e1 : val_main_v35 (F := Ideal) x0 (ix3 b s k) = val_main_v34 (F := Ideal) x0 (ix3 b s (0 : Fin 1)) := by
    rw [val_main_v35_apply, h1]
  have e2 : val_main_v39 (F := Ideal) x0 (ix3 b s k) = val_main_v34 (F := Ideal) x0 (ix3 b s (0 : Fin 1)) := by
    rw [val_main_v39_apply, h2]
  rw [val_main_v42_apply, val_main_v41_apply, val_main_v40_apply, e2, val_main_v38_apply,
    val_main_call9_v4_apply, val_main_call9_v3_apply, val_main_c_13_apply, val_main_call9_v2_apply, val_main_call9_v1_apply,
    val_main_call9_v0_apply, val_main_c_12_apply, val_main_v37_apply, val_main_v36_apply, e1,
    val_main_v34_apply, val_main_v33_apply, val_main_cst_11_apply, rowscale_v32, sitofp_m128, sitofp_127]
  rfl

/-! ## The first two products at (b, s, i): row (b, s) of the activations against row `i` of a weight matrix -/

theorem prod_v27 (x0 : TX) (x1 : TW) (b : Fin 2) (s : Fin 2048) (i : Fin 8192) :
    val_main_v27 (F := Ideal) x0 x1 (ix3 b s i)
      = linR (fun k : Fin 2048 => x0 (ix3 b s k)) (fun k : Fin 2048 => x1 (ix2 i k)) (absMean (ι := (⟨2, ![8192, 2048]⟩ : Shape).Idx) x1) := by
  rw [val_main_v27_apply]
  unfold linR
  refine Finset.sum_congr rfl fun k _ => ?_
  have hl : lidx_main_v27 (ix3 b s i) k = ix3 b s k := funext fun a => Fin.ext (by match a with | ⟨0, _⟩ => rfl | ⟨1, _⟩ => rfl | ⟨2, _⟩ => rfl)
  have hr : ridx_main_v27 (ix3 b s i) k = ix2 i k := funext fun a => Fin.ext (by match a with | ⟨0, _⟩ => rfl | ⟨1, _⟩ => rfl)
  rw [hl, hr, deq_v13, deq_v26]

theorem prod_v56 (x0 : TX) (x2 : TW) (b : Fin 2) (s : Fin 2048) (i : Fin 8192) :
    val_main_v56 (F := Ideal) x0 x2 (ix3 b s i)
      = linR (fun k : Fin 2048 => x0 (ix3 b s k)) (fun k : Fin 2048 => x2 (ix2 i k)) (absMean (ι := (⟨2, ![8192, 2048]⟩ : Shape).Idx) x2) := by
  rw [val_main_v56_apply]
  unfold linR
  refine Finset.sum_congr rfl fun k _ => ?_
  have hl : lidx_main_v56 (ix3 b s i) k = ix3 b s k := funext fun a => Fin.ext (by match a with | ⟨0, _⟩ => rfl | ⟨1, _⟩ => rfl | ⟨2, _⟩ => rfl)
  have hr : ridx_main_v56 (ix3 b s i) k = ix2 i k := funext fun a => Fin.ext (by match a with | ⟨0, _⟩ => rfl | ⟨1, _⟩ => rfl)
  rw [hl, hr, deq_v42, deq_v55]

/-! ## The hidden activations: the gate `g · logistic g · u` of the two products -/

/-- Row (b, s) of the hidden activations. -/
abbrev hrow (x0 : TX) (x1 x2 : TW) (b : Fin 2) (s : Fin 2048) : Fin 8192 → EReal := fun i =>
  hidR (fun k : Fin 2048 => x0 (ix3 b s k)) (fun k : Fin 2048 => x1 (ix2 i k)) (fun k : Fin 2048 => x2 (ix2 i k)) (absMean (ι := (⟨2, ![8192, 2048]⟩ : Shape).Idx) x1) (absMean (ι := (⟨2, ![8192, 2048]⟩ : Shape).Idx) x2)

/-- The word of 1 is the number 1. -/
theorem one_word : FloatOps.ofBits (F := Ideal) .f32 0x3F800000#32 = (1 : EReal) := by
  show c1 = 1
  rw [c1_eq]; exact EReal.coe_one

theorem hid_v57 (x0 : TX) (x1 x2 : TW) (b : Fin 2) (s : Fin 2048) (i : Fin 8192) :
    val_main_v57 (F := Ideal) x0 x1 x2 (ix3 b s i) = hrow x0 x1 x2 b s i := by
  rw [val_main_v57_apply, val_main_v28_apply, val_main_call6_v5_apply, val_main_call6_v4_apply, val_main_call6_cst_0_apply,
    val_main_call6_v3_apply, val_main_call6_v2_apply, val_main_call6_cst_apply, val_main_call6_v1_apply, val_main_call6_v0_apply,
    prod_v27, prod_v56, one_word]
  rfl

/-! ## The normalization of a hidden row -/

/-- The inverse root of the mean square of hidden row (b, s). -/
theorem rms_v65 (x0 : TX) (x1 x2 : TW) (b : Fin 2) (s : Fin 2048) :
    val_main_v65 (F := Ideal) x0 x1 x2 (ix3 b s (0 : Fin 1)) = rms (hrow x0 x1 x2 b s) := by
  have hi : idx_main_v60 (ix3 b s (0 : Fin 1)) = ix2 b s := funext fun a => Fin.ext (by match a with | ⟨0, _⟩ => rfl | ⟨1, _⟩ => rfl)
  have hs : ∀ k : Fin 8192, val_main_v58 (F := Ideal) x0 x1 x2 (idx_main_v59 (ix2 b s) k)
      = hrow x0 x1 x2 b s k * hrow x0 x1 x2 b s k := by
    intro k
    have hk : idx_main_v59 (ix2 b s) k = ix3 b s k := funext fun a => Fin.ext (by match a with | ⟨0, _⟩ => rfl | ⟨1, _⟩ => rfl | ⟨2, _⟩ => rfl)
    rw [hk, val_main_v58_apply, hid_v57]
    rfl
  rw [val_main_v65_apply, val_main_v64_apply, val_main_v63_apply, val_main_cst_22_apply, val_main_v62_apply,
    val_main_v61_apply, val_main_cst_21_apply, val_main_v60_apply, hi, val_main_v59_apply, val_main_cst_20_apply]
  simp only [hs]
  show Ideal.rsqrt (Ideal.div (Ideal.ofBits .f32 0x00000000#32 + ∑ k : Fin 8192, hrow x0 x1 x2 b s k * hrow x0 x1 x2 b s k) cWid + cRms) = _
  rw [Ideal.ofBits_zero_f32, zero_add]
  rfl

/-- The normalized hidden row, weighted entry by entry. -/
theorem norm_v70 (x0 : TX) (x1 x2 : TW) (x4 : TL) (b : Fin 2) (s : Fin 2048) (i : Fin 8192) :
    val_main_v70 (F := Ideal) x0 x1 x2 x4 (ix3 b s i) = normed (fun i : Fin 8192 => x4 (ix1 i)) (hrow x0 x1 x2 b s) i := by
  have h66 : idx_main_v66 (ix3 b s i) = ix3 b s (0 : Fin 1) := funext fun a => Fin.ext (by match a with | ⟨0, _⟩ => rfl | ⟨1, _⟩ => rfl | ⟨2, _⟩ => rfl)
  have h69 : idx_main_v69 (ix3 b s i) = ix3 (0 : Fin 1) (0 : Fin 1) i := funext fun a => Fin.ext (by match a with | ⟨0, _⟩ => rfl | ⟨1, _⟩ => rfl | ⟨2, _⟩ => rfl)
  have h68 : idx_main_v68 (ix3 (0 : Fin 1) (0 : Fin 1) i) = ix1 i := funext fun a => Fin.ext (by match a with | ⟨0, _⟩ => rfl)
  rw [val_main_v70_apply, val_main_v69_apply, h69, val_main_v68_apply, h68, val_main_v67_apply, val_main_v66_apply, h66,
    rms_v65, hid_v57]
  rfl

/-! ## The third product: the normalized hidden row, quantized by its own largest magnitude, against a row of the last matrix -/

theorem rowscale_v74 (x0 : TX) (x1 x2 : TW) (x4 : TL) (b : Fin 2) (s : Fin 2048) :
    val_main_v74 (F := Ideal) x0 x1 x2 x4 (ix3 b s (0 : Fin 1)) = amax fun k : Fin 8192 => val_main_v70 (F := Ideal) x0 x1 x2 x4 (ix3 b s k) := by
  have hi : idx_main_v73 (ix3 b s (0 : Fin 1)) = ix2 b s :=
    funext fun a => Fin.ext (by match a with | ⟨0, _⟩ => rfl | ⟨1, _⟩ => rfl)
  rw [val_main_v74_apply, val_main_v73_apply, hi, val_main_call13_v1_apply, val_main_call13_v0_apply, val_main_cst_24_apply]
  unfold val_main_v72
  rw [reduce_max_last (val_main_v71 (F := Ideal) x0 x1 x2 x4) (val_main_cst_23 (F := Ideal)) _ (by decide) h_S_ b s]
  simp only [val_main_cst_23_apply, val_main_v71_apply, Ideal.hostAbsf_def, Ideal.absf_def, Ideal.ofBits_def, Ideal.maximumf_def]
  rfl

theorem deq_v84 (x0 : TX) (x1 x2 : TW) (x4 : TL) (b : Fin 2) (s : Fin 2048) (k : Fin 8192) :
    val_main_v84 (F := Ideal) x0 x1 x2 x4 (ix3 b s k)
      = val_main_v70 (F := Ideal) x0 x1 x2 x4 (ix3 b s k) + (Ideal.div (code (amax fun k' : Fin 8192 => val_main_v70 (F := Ideal) x0 x1 x2 x4 (ix3 b s k')) (val_main_v70 (F := Ideal) x0 x1 x2 x4 (ix3 b s k)))
          (Ideal.div c127 (amax fun k' : Fin 8192 => val_main_v70 (F := Ideal) x0 x1 x2 x4 (ix3 b s k'))) - val_main_v70 (F := Ideal) x0 x1 x2 x4 (ix3 b s k)) := by
  have h1 : idx_main_v77 (ix3 b s k) = ix3 b s (0 : Fin 1) := funext fun a => Fin.ext (by match a with | ⟨0, _⟩ => rfl | ⟨1, _⟩ => rfl | ⟨2, _⟩ => rfl)
  have h2 : idx_main_v81 (ix3 b s k) = ix3 b s (0 : Fin 1) := funext fun a => Fin.ext (by match a with | ⟨0, _⟩ => rfl | ⟨1, _⟩ => rfl | ⟨2, _⟩ => rfl)
  have e1 : val_main_v77 (F := Ideal) x0 x1 x2 x4 (ix3 b s k) = val_main_v76 (F := Ideal) x0 x1 x2 x4 (ix3 b s (0 : Fin 1)) := by
    rw [val_main_v77_apply, h1]
  have e2 : val_main_v81 (F := Ideal) x0 x1 x2 x4 (ix3 b s k) = val_main_v76 (F := Ideal) x0 x1 x2 x4 (ix3 b s (0 : Fin 1)) := by
    rw [val_main_v81_apply, h2]
  rw [val_main_v84_apply, val_main_v83_apply, val_main_v82_apply, e2, val_main_v80_apply,
    val_main_call15_v4_apply, val_main_call15_v3_apply, val_main_c_27_apply, val_main_call15_v2_apply, val_main_call15_v1_apply,
    val_main_call15_v0_apply, val_main_c_26_apply, val_main_v79_apply, val_main_v78_apply, e1,
    val_main_v76_apply, val_main_v75_apply, val_main_cst_25_apply, rowscale_v74, sitofp_m128, sitofp_127]
  rfl

/-- THE REFERENCE'S RESULT AT (b, s, o). -/
theorem ref_at (x0 : (⟨S2x2048x2048, .f32⟩ : BufTy).Contents (Elt Ideal)) (x1 x2 : (⟨S8192x2048, .f32⟩ : BufTy).Contents (Elt Ideal))
    (x3 : (⟨S2048x8192, .f32⟩ : BufTy).Contents (Elt Ideal)) (x4 : (⟨S8192, .f32⟩ : BufTy).Contents (Elt Ideal)) (b : Fin 2) (s o : Fin 2048) :
    val_main_v98 (F := Ideal) x0 x1 x2 x3 x4 (ix3 b s o)
      = outR (fun i : Fin 8192 => x4 (ix1 i))
          (fun i : Fin 8192 => hidR (fun k : Fin 2048 => x0 (ix3 b s k)) (fun k : Fin 2048 => x1 (ix2 i k)) (fun k : Fin 2048 => x2 (ix2 i k))
            (absMean (ι := (⟨2, ![8192, 2048]⟩ : Shape).Idx) x1) (absMean (ι := (⟨2, ![8192, 2048]⟩ : Shape).Idx) x2))
          (fun i : Fin 8192 => x3 (ix2 o i)) (absMean (ι := (⟨2, ![2048, 8192]⟩ : Shape).Idx) x3) := by
  show _ = outR (fun i : Fin 8192 => x4 (ix1 i)) (hrow x0 x1 x2 b s) (fun i : Fin 8192 => x3 (ix2 o i)) (absMean (ι := (⟨2, ![2048, 8192]⟩ : Shape).Idx) x3)
  rw [val_main_v98_apply]
  unfold outR linR
  refine Finset.sum_congr rfl fun k _ => ?_
  have hl : lidx_main_v98 (ix3 b s o) k = ix3 b s k := funext fun a => Fin.ext (by match a with | ⟨0, _⟩ => rfl | ⟨1, _⟩ => rfl | ⟨2, _⟩ => rfl)
  have hr : ridx_main_v98 (ix3 b s o) k = ix2 o k := funext fun a => Fin.ext (by match a with | ⟨0, _⟩ => rfl | ⟨1, _⟩ => rfl)
  rw [hl, hr, deq_v84, deq_v97]
  simp only [norm_v70]

end Cert.ReferenceIdeal.RefValue

end
-- ==== Proof.lean ====
/-
  A gated feed-forward block with quantized matrix products, as two pipelined kernels, against its plain reference.

  Each of the three products row-scales its left operand to integer codes in [-128, 127] (scale 127 over the row's largest
  magnitude, floored at 1e-5) and scales its weight matrix to ternary codes (scale one over the matrix's mean magnitude,
  floored at 1e-5).  The kernels contract the CODES and rescale the sum once, by (row maximum · 1/127) · (mean magnitude);
  the reference divides every code by its scale first, writes each operand as v + (code / scale − v), and contracts those.
  Over finite inputs every quantity is a real number — the floors keep the scales positive —, v + (q − v) is q, and the
  common factor moves out of the sum: the two arrangements are one number (LibQuantProduct.lean).  Around the products both
  programs apply the same functions: g · logistic g · u, then the row's division by its root mean square, weighted.

  The first kernel leaves the hidden array [4096, 8192], block by block (HiddenBody.lean reads a block's entry,
  HiddenArray.lean puts the blocks together); the second reads it back a row block at a time and leaves the output
  (OutputBody.lean, OutputArray.lean); the host operations around them flatten the tokens to rows, code the weights and
  restore the shape (KernelHost.lean); KernelValue.lean composes these into the result at an index, RefValue.lean reads the
  reference's 182 operations at the same index, and the precondition's finiteness (Finite.lean) lets the algebra join them.
  The reciprocal 1/127 is the kernels' one named constant: the two entries of the idealization's ledger.
-/
import proofs.«170676_j74139725463734_2_alg».proof.Defs
import proofs.«170676_j74139725463734_2_alg».proof.Proof.Gen.Kernel
import proofs.«170676_j74139725463734_2_alg».proof.Proof.Gen.Kernel.Skeleton
import proofs.«170676_j74139725463734_2_alg».proof.Proof.Gen.Kernel.Launch
import proofs.«170676_j74139725463734_2_alg».proof.Proof.Gen.Kernel.Points
import proofs.«170676_j74139725463734_2_alg».proof.Proof.Gen.Kernel.Frame
import proofs.«170676_j74139725463734_2_alg».proof.Proof.Gen.KernelIdeal
import proofs.«170676_j74139725463734_2_alg».proof.Proof.Gen.KernelIdeal.Skeleton
import proofs.«170676_j74139725463734_2_alg».proof.Proof.Gen.KernelIdeal.Launch
import proofs.«170676_j74139725463734_2_alg».proof.Proof.Gen.KernelIdeal.Points
import proofs.«170676_j74139725463734_2_alg».proof.Proof.Gen.KernelIdeal.Frame
import proofs.«170676_j74139725463734_2_alg».proof.Proof.Gen.ReferenceIdeal
import proofs.«170676_j74139725463734_2_alg».proof.Proof.Gen.Pre_finite_inputs
import proofs.«170676_j74139725463734_2_alg».proof.Proof.LibQuantProduct
import proofs.«170676_j74139725463734_2_alg».proof.Proof.Finite
import proofs.«170676_j74139725463734_2_alg».proof.Proof.KernelRun
import proofs.«170676_j74139725463734_2_alg».proof.Proof.KernelValue
import proofs.«170676_j74139725463734_2_alg».proof.Proof.RefRunP
import proofs.«170676_j74139725463734_2_alg».proof.Proof.RefStages
import proofs.«170676_j74139725463734_2_alg».proof.Proof.RefValue
import Idealize.ShloMosaic.PureOps.IdealRules
import Idealize.ShloMosaic.Adequacy
import Idealize.ShloMosaic.Init

noncomputable section

namespace Cert.Proof

open Idealize.ShloMosaic Idealize.ShloMosaic.TcCoe Idealize.ShloMosaic.ValueIdx Idealize.SL.Sem Cert.BitMlp

/-- The two programs' results are one array: index by index, the reference's arrangement of the three quantized products
    is the kernels', every entry of every argument being a real number. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.ValueP.res_main_v98 (F := Ideal) m' c
      = Cert.KernelIdeal.Gen.W23 (F := Ideal) m ρ c (Proc.devRef .tc Cert.KernelIdeal.main_v37) := by
  rw [Cert.ReferenceIdeal.Stages.res_eq, (hagree c).1, (hagree c).2.1, (hagree c).2.2.1, (hagree c).2.2.2.1, (hagree c).2.2.2.2]
  funext i
  obtain ⟨b, s, o, rfl⟩ : ∃ (b : Fin 2) (s o : Fin 2048), i = ix3 b s o := ⟨i 0, i 1, i 2, eq_ix3 i⟩
  rw [Cert.ReferenceIdeal.RefValue.ref_at]
  refine Eq.trans ?_ (Cert.KernelIdeal.Result.result_at m ρ c b s o).symm
  obtain ⟨h0, h1, h2, h3, h4⟩ := Cert.FiniteInputs.entries_real _ _ _ _ _ (hpre c)
  have pg := absMean_pos (ι := (⟨2, ![8192, 2048]⟩ : Shape).Idx) _ h1
  have pu := absMean_pos (ι := (⟨2, ![8192, 2048]⟩ : Shape).Idx) _ h2
  have pd := absMean_pos (ι := (⟨2, ![2048, 8192]⟩ : Shape).Idx) _ h3
  rw [funext fun i : Fin 8192 => hidR_eq_hidK _ _ _ _ _ (fun k => h0 (ix3 b s k)) (fun k => h1 (ix2 i k)) (fun k => h2 (ix2 i k)) pg pu]
  exact outR_eq_outK _ _ _ _ (fun i => h4 (ix1 i))
    (fun i => hidK_real _ _ _ _ _ (fun k => h0 (ix3 b s k)) (fun k => h1 (ix2 i k)) (fun k => h2 (ix2 i k)) pg pu) (fun i => h3 (ix2 o i)) pd

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ledger's two entries, one per kernel: the table gives "inv_127" the value 1/127, and the printed constant is that
    value at the ideal instance. -/
theorem preserves : Cert.preserves_Kernel_KernelIdeal :=
  ⟨IdealRules.named_const.statement Cert.KernelIdeal.κ "inv_127" .f32 0x3C010204#32 ((1 / 127 : ℝ) : EReal) rfl,
   IdealRules.named_const.statement Cert.KernelIdeal.κ "inv_127" .f32 0x3C010204#32 ((1 / 127 : ℝ) : EReal) rfl⟩

/-- Both idealized programs run, and end with the same result array. -/
theorem algebraic : Cert.algebraic_KernelIdeal_ReferenceIdeal := by
  intro m ρ m' ρ' hpre hagree
  refine ⟨fun c => Cert.KernelIdeal.Gen.W23 (F := Ideal) m ρ c (Proc.devRef .tc Cert.KernelIdeal.main_v37),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact result_eq m ρ m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
